-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : FVec F S11008x4096 .f32) (main_arg2 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S11008x2048x2x1 : Shape := ⟨4, ![11008, 2048, 2, 1]⟩
abbrev S11008x2048x1x1 : Shape := ⟨4, ![11008, 2048, 1, 1]⟩
abbrev S11008x2048x1 : Shape := ⟨3, ![11008, 2048, 1]⟩
abbrev S11008x1024x2x2 : Shape := ⟨4, ![11008, 1024, 2, 2]⟩
abbrev S11008x1024x1x2 : Shape := ⟨4, ![11008, 1024, 1, 2]⟩
abbrev S11008x1024x2 : Shape := ⟨3, ![11008, 1024, 2]⟩
abbrev S11008x512x2x4 : Shape := ⟨4, ![11008, 512, 2, 4]⟩
abbrev S11008x512x1x4 : Shape := ⟨4, ![11008, 512, 1, 4]⟩
abbrev S11008x512x4 : Shape := ⟨3, ![11008, 512, 4]⟩
abbrev S11008x256x2x8 : Shape := ⟨4, ![11008, 256, 2, 8]⟩
abbrev S11008x256x1x8 : Shape := ⟨4, ![11008, 256, 1, 8]⟩
abbrev S11008x256x8 : Shape := ⟨3, ![11008, 256, 8]⟩
abbrev S11008x128x2x16 : Shape := ⟨4, ![11008, 128, 2, 16]⟩
abbrev S11008x128x1x16 : Shape := ⟨4, ![11008, 128, 1, 16]⟩
abbrev S11008x128x16 : Shape := ⟨3, ![11008, 128, 16]⟩
abbrev S11008x64x2x32 : Shape := ⟨4, ![11008, 64, 2, 32]⟩
abbrev S11008x64x1x32 : Shape := ⟨4, ![11008, 64, 1, 32]⟩
abbrev S11008x64x32 : Shape := ⟨3, ![11008, 64, 32]⟩
abbrev S11008x32x2x64 : Shape := ⟨4, ![11008, 32, 2, 64]⟩
abbrev S11008x32x1x64 : Shape := ⟨4, ![11008, 32, 1, 64]⟩
abbrev S11008x32x64 : Shape := ⟨3, ![11008, 32, 64]⟩
abbrev S11008x16x2x128 : Shape := ⟨4, ![11008, 16, 2, 128]⟩
abbrev S11008x16x1x128 : Shape := ⟨4, ![11008, 16, 1, 128]⟩
abbrev S11008x16x128 : Shape := ⟨3, ![11008, 16, 128]⟩
abbrev S11008x8x2x256 : Shape := ⟨4, ![11008, 8, 2, 256]⟩
abbrev S11008x8x1x256 : Shape := ⟨4, ![11008, 8, 1, 256]⟩
abbrev S11008x8x256 : Shape := ⟨3, ![11008, 8, 256]⟩
abbrev S11008x4x2x512 : Shape := ⟨4, ![11008, 4, 2, 512]⟩
abbrev S11008x4x1x512 : Shape := ⟨4, ![11008, 4, 1, 512]⟩
abbrev S11008x4x512 : Shape := ⟨3, ![11008, 4, 512]⟩
abbrev S11008x2x2x1024 : Shape := ⟨4, ![11008, 2, 2, 1024]⟩
abbrev S11008x2x1x1024 : Shape := ⟨4, ![11008, 2, 1, 1024]⟩
abbrev S11008x2x1024 : Shape := ⟨3, ![11008, 2, 1024]⟩
abbrev S11008x1x2x2048 : Shape := ⟨4, ![11008, 1, 2, 2048]⟩
abbrev S11008x1x1x2048 : Shape := ⟨4, ![11008, 1, 1, 2048]⟩
abbrev S11008x1x2048 : Shape := ⟨3, ![11008, 1, 2048]⟩
abbrev S_ : Shape := ⟨0, ![]⟩
abbrev S1x11008 : Shape := ⟨2, ![1, 11008]⟩
abbrev S8192x11008 : Shape := ⟨2, ![8192, 11008]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩
abbrev S4x2048x11008 : Shape := ⟨3, ![4, 2048, 11008]⟩

abbrev nBuf : Space → Nat
  | .hbm => 133
  | .vmem => 8
  | .smem => 0
  | _ => 0

abbrev hbmTy0_0 (i : Nat) : BufTy := match i % 128 with
  | 0 => ⟨S4x2048x4096, .f32⟩
  | 1 => ⟨S11008x4096, .f32⟩
  | 2 => ⟨S11008, .f32⟩
  | 3 => ⟨S8192x4096, .f32⟩
  | 4 => ⟨S8192x4096, .bf16⟩
  | 5 => ⟨S11008x2048x2x1, .f32⟩
  | 6 => ⟨S11008x2048x1x1, .f32⟩
  | 7 => ⟨S11008x2048x1, .f32⟩
  | 8 => ⟨S11008x2048x1x1, .f32⟩
  | 9 => ⟨S11008x2048x1, .f32⟩
  | 10 => ⟨S11008x2048x1, .f32⟩
  | 11 => ⟨S11008x2048x1, .f32⟩
  | 12 => ⟨S11008x2048x1x1, .f32⟩
  | 13 => ⟨S11008x2048x1x1, .f32⟩
  | 14 => ⟨S11008x2048x2x1, .f32⟩
  | 15 => ⟨S11008x1024x2x2, .f32⟩
  | 16 => ⟨S11008x1024x1x2, .f32⟩
  | 17 => ⟨S11008x1024x2, .f32⟩
  | 18 => ⟨S11008x1024x1x2, .f32⟩
  | 19 => ⟨S11008x1024x2, .f32⟩
  | 20 => ⟨S11008x1024x2, .f32⟩
  | 21 => ⟨S11008x1024x2, .f32⟩
  | 22 => ⟨S11008x1024x1x2, .f32⟩
  | 23 => ⟨S11008x1024x1x2, .f32⟩
  | 24 => ⟨S11008x1024x2x2, .f32⟩
  | 25 => ⟨S11008x512x2x4, .f32⟩
  | 26 => ⟨S11008x512x1x4, .f32⟩
  | 27 => ⟨S11008x512x4, .f32⟩
  | 28 => ⟨S11008x512x1x4, .f32⟩
  | 29 => ⟨S11008x512x4, .f32⟩
  | 30 => ⟨S11008x512x4, .f32⟩
  | 31 => ⟨S11008x512x4, .f32⟩
  | 32 => ⟨S11008x512x1x4, .f32⟩
  | 33 => ⟨S11008x512x1x4, .f32⟩
  | 34 => ⟨S11008x512x2x4, .f32⟩
  | 35 => ⟨S11008x256x2x8, .f32⟩
  | 36 => ⟨S11008x256x1x8, .f32⟩
  | 37 => ⟨S11008x256x8, .f32⟩
  | 38 => ⟨S11008x256x1x8, .f32⟩
  | 39 => ⟨S11008x256x8, .f32⟩
  | 40 => ⟨S11008x256x8, .f32⟩
  | 41 => ⟨S11008x256x8, .f32⟩
  | 42 => ⟨S11008x256x1x8, .f32⟩
  | 43 => ⟨S11008x256x1x8, .f32⟩
  | 44 => ⟨S11008x256x2x8, .f32⟩
  | 45 => ⟨S11008x128x2x16, .f32⟩
  | 46 => ⟨S11008x128x1x16, .f32⟩
  | 47 => ⟨S11008x128x16, .f32⟩
  | 48 => ⟨S11008x128x1x16, .f32⟩
  | 49 => ⟨S11008x128x16, .f32⟩
  | 50 => ⟨S11008x128x16, .f32⟩
  | 51 => ⟨S11008x128x16, .f32⟩
  | 52 => ⟨S11008x128x1x16, .f32⟩
  | 53 => ⟨S11008x128x1x16, .f32⟩
  | 54 => ⟨S11008x128x2x16, .f32⟩
  | 55 => ⟨S11008x64x2x32, .f32⟩
  | 56 => ⟨S11008x64x1x32, .f32⟩
  | 57 => ⟨S11008x64x32, .f32⟩
  | 58 => ⟨S11008x64x1x32, .f32⟩
  | 59 => ⟨S11008x64x32, .f32⟩
  | 60 => ⟨S11008x64x32, .f32⟩
  | 61 => ⟨S11008x64x32, .f32⟩
  | 62 => ⟨S11008x64x1x32, .f32⟩
  | 63 => ⟨S11008x64x1x32, .f32⟩
  | 64 => ⟨S11008x64x2x32, .f32⟩
  | 65 => ⟨S11008x32x2x64, .f32⟩
  | 66 => ⟨S11008x32x1x64, .f32⟩
  | 67 => ⟨S11008x32x64, .f32⟩
  | 68 => ⟨S11008x32x1x64, .f32⟩
  | 69 => ⟨S11008x32x64, .f32⟩
  | 70 => ⟨S11008x32x64, .f32⟩
  | 71 => ⟨S11008x32x64, .f32⟩
  | 72 => ⟨S11008x32x1x64, .f32⟩
  | 73 => ⟨S11008x32x1x64, .f32⟩
  | 74 => ⟨S11008x32x2x64, .f32⟩
  | 75 => ⟨S11008x16x2x128, .f32⟩
  | 76 => ⟨S11008x16x1x128, .f32⟩
  | 77 => ⟨S11008x16x128, .f32⟩
  | 78 => ⟨S11008x16x1x128, .f32⟩
  | 79 => ⟨S11008x16x128, .f32⟩
  | 80 => ⟨S11008x16x128, .f32⟩
  | 81 => ⟨S11008x16x128, .f32⟩
  | 82 => ⟨S11008x16x1x128, .f32⟩
  | 83 => ⟨S11008x16x1x128, .f32⟩
  | 84 => ⟨S11008x16x2x128, .f32⟩
  | 85 => ⟨S11008x8x2x256, .f32⟩
  | 86 => ⟨S11008x8x1x256, .f32⟩
  | 87 => ⟨S11008x8x256, .f32⟩
  | 88 => ⟨S11008x8x1x256, .f32⟩
  | 89 => ⟨S11008x8x256, .f32⟩
  | 90 => ⟨S11008x8x256, .f32⟩
  | 91 => ⟨S11008x8x256, .f32⟩
  | 92 => ⟨S11008x8x1x256, .f32⟩
  | 93 => ⟨S11008x8x1x256, .f32⟩
  | 94 => ⟨S11008x8x2x256, .f32⟩
  | 95 => ⟨S11008x4x2x512, .f32⟩
  | 96 => ⟨S11008x4x1x512, .f32⟩
  | 97 => ⟨S11008x4x512, .f32⟩
  | 98 => ⟨S11008x4x1x512, .f32⟩
  | 99 => ⟨S11008x4x512, .f32⟩
  | 100 => ⟨S11008x4x512, .f32⟩
  | 101 => ⟨S11008x4x512, .f32⟩
  | 102 => ⟨S11008x4x1x512, .f32⟩
  | 103 => ⟨S11008x4x1x512, .f32⟩
  | 104 => ⟨S11008x4x2x512, .f32⟩
  | 105 => ⟨S11008x2x2x1024, .f32⟩
  | 106 => ⟨S11008x2x1x1024, .f32⟩
  | 107 => ⟨S11008x2x1024, .f32⟩
  | 108 => ⟨S11008x2x1x1024, .f32⟩
  | 109 => ⟨S11008x2x1024, .f32⟩
  | 110 => ⟨S11008x2x1024, .f32⟩
  | 111 => ⟨S11008x2x1024, .f32⟩
  | 112 => ⟨S11008x2x1x1024, .f32⟩
  | 113 => ⟨S11008x2x1x1024, .f32⟩
  | 114 => ⟨S11008x2x2x1024, .f32⟩
  | 115 => ⟨S11008x1x2x2048, .f32⟩
  | 116 => ⟨S11008x1x1x2048, .f32⟩
  | 117 => ⟨S11008x1x2048, .f32⟩
  | 118 => ⟨S11008x1x1x2048, .f32⟩
  | 119 => ⟨S11008x1x2048, .f32⟩
  | 120 => ⟨S11008x1x2048, .f32⟩
  | 121 => ⟨S11008x1x2048, .f32⟩
  | 122 => ⟨S11008x1x1x2048, .f32⟩
  | 123 => ⟨S11008x1x1x2048, .f32⟩
  | 124 => ⟨S11008x1x2x2048, .f32⟩
  | 125 => ⟨S11008x4096, .f32⟩
  | 126 => ⟨S_, .f32⟩
  | 127 => ⟨S11008x4096, .f32⟩
  | _ => ⟨S4x2048x4096, .f32⟩

abbrev hbmTy0_1 (i : Nat) : BufTy := match i % 128 with
  | 0 => ⟨S11008x4096, .f32⟩
  | 1 => ⟨S11008x4096, .bf16⟩
  | 2 => ⟨S1x11008, .f32⟩
  | 3 => ⟨S8192x11008, .f32⟩
  | 4 => ⟨S4x2048x11008, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_cst : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩
abbrev main_v128 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  bitsLt_bf16_f32 : FTy.bits .bf16 < FTy.bits .f32
  shapeCasts_S11008x4096_S11008x2048x2x1 : S11008x4096.ShapeCasts S11008x2048x2x1
  slices_S11008x2048x2x1_S11008x2048x1x1_0_0_0_0 : S11008x2048x2x1.Slices ![0, 0, 0, 0] S11008x2048x1x1
  shapeCasts_S11008x2048x1x1_S11008x2048x1 : S11008x2048x1x1.ShapeCasts S11008x2048x1
  slices_S11008x2048x2x1_S11008x2048x1x1_0_0_1_0 : S11008x2048x2x1.Slices ![0, 0, 1, 0] S11008x2048x1x1
  bcast_S11008x2048x1_S11008x2048x1x1_0_1_3 : S11008x2048x1.BroadcastsInDim S11008x2048x1x1 (![0, 1, 3] : Fin 3 → Fin S11008x2048x1x1.rank)
  concatenates_S11008x2048x1x1_S11008x2048x1x1_S11008x2048x2x1_d2 : Shape.Concatenates [S11008x2048x1x1, S11008x2048x1x1] S11008x2048x2x1 2
  shapeCasts_S11008x2048x2x1_S11008x1024x2x2 : S11008x2048x2x1.ShapeCasts S11008x1024x2x2
  slices_S11008x1024x2x2_S11008x1024x1x2_0_0_0_0 : S11008x1024x2x2.Slices ![0, 0, 0, 0] S11008x1024x1x2
  shapeCasts_S11008x1024x1x2_S11008x1024x2 : S11008x1024x1x2.ShapeCasts S11008x1024x2
  slices_S11008x1024x2x2_S11008x1024x1x2_0_0_1_0 : S11008x1024x2x2.Slices ![0, 0, 1, 0] S11008x1024x1x2
  bcast_S11008x1024x2_S11008x1024x1x2_0_1_3 : S11008x1024x2.BroadcastsInDim S11008x1024x1x2 (![0, 1, 3] : Fin 3 → Fin S11008x1024x1x2.rank)
  concatenates_S11008x1024x1x2_S11008x1024x1x2_S11008x1024x2x2_d2 : Shape.Concatenates [S11008x1024x1x2, S11008x1024x1x2] S11008x1024x2x2 2
  shapeCasts_S11008x1024x2x2_S11008x512x2x4 : S11008x1024x2x2.ShapeCasts S11008x512x2x4
  slices_S11008x512x2x4_S11008x512x1x4_0_0_0_0 : S11008x512x2x4.Slices ![0, 0, 0, 0] S11008x512x1x4
  shapeCasts_S11008x512x1x4_S11008x512x4 : S11008x512x1x4.ShapeCasts S11008x512x4
  slices_S11008x512x2x4_S11008x512x1x4_0_0_1_0 : S11008x512x2x4.Slices ![0, 0, 1, 0] S11008x512x1x4
  bcast_S11008x512x4_S11008x512x1x4_0_1_3 : S11008x512x4.BroadcastsInDim S11008x512x1x4 (![0, 1, 3] : Fin 3 → Fin S11008x512x1x4.rank)
  concatenates_S11008x512x1x4_S11008x512x1x4_S11008x512x2x4_d2 : Shape.Concatenates [S11008x512x1x4, S11008x512x1x4] S11008x512x2x4 2
  shapeCasts_S11008x512x2x4_S11008x256x2x8 : S11008x512x2x4.ShapeCasts S11008x256x2x8
  slices_S11008x256x2x8_S11008x256x1x8_0_0_0_0 : S11008x256x2x8.Slices ![0, 0, 0, 0] S11008x256x1x8
  shapeCasts_S11008x256x1x8_S11008x256x8 : S11008x256x1x8.ShapeCasts S11008x256x8
  slices_S11008x256x2x8_S11008x256x1x8_0_0_1_0 : S11008x256x2x8.Slices ![0, 0, 1, 0] S11008x256x1x8
  bcast_S11008x256x8_S11008x256x1x8_0_1_3 : S11008x256x8.BroadcastsInDim S11008x256x1x8 (![0, 1, 3] : Fin 3 → Fin S11008x256x1x8.rank)
  concatenates_S11008x256x1x8_S11008x256x1x8_S11008x256x2x8_d2 : Shape.Concatenates [S11008x256x1x8, S11008x256x1x8] S11008x256x2x8 2
  shapeCasts_S11008x256x2x8_S11008x128x2x16 : S11008x256x2x8.ShapeCasts S11008x128x2x16
  slices_S11008x128x2x16_S11008x128x1x16_0_0_0_0 : S11008x128x2x16.Slices ![0, 0, 0, 0] S11008x128x1x16
  shapeCasts_S11008x128x1x16_S11008x128x16 : S11008x128x1x16.ShapeCasts S11008x128x16
  slices_S11008x128x2x16_S11008x128x1x16_0_0_1_0 : S11008x128x2x16.Slices ![0, 0, 1, 0] S11008x128x1x16
  bcast_S11008x128x16_S11008x128x1x16_0_1_3 : S11008x128x16.BroadcastsInDim S11008x128x1x16 (![0, 1, 3] : Fin 3 → Fin S11008x128x1x16.rank)
  concatenates_S11008x128x1x16_S11008x128x1x16_S11008x128x2x16_d2 : Shape.Concatenates [S11008x128x1x16, S11008x128x1x16] S11008x128x2x16 2
  shapeCasts_S11008x128x2x16_S11008x64x2x32 : S11008x128x2x16.ShapeCasts S11008x64x2x32
  slices_S11008x64x2x32_S11008x64x1x32_0_0_0_0 : S11008x64x2x32.Slices ![0, 0, 0, 0] S11008x64x1x32
  shapeCasts_S11008x64x1x32_S11008x64x32 : S11008x64x1x32.ShapeCasts S11008x64x32
  slices_S11008x64x2x32_S11008x64x1x32_0_0_1_0 : S11008x64x2x32.Slices ![0, 0, 1, 0] S11008x64x1x32
  bcast_S11008x64x32_S11008x64x1x32_0_1_3 : S11008x64x32.BroadcastsInDim S11008x64x1x32 (![0, 1, 3] : Fin 3 → Fin S11008x64x1x32.rank)
  concatenates_S11008x64x1x32_S11008x64x1x32_S11008x64x2x32_d2 : Shape.Concatenates [S11008x64x1x32, S11008x64x1x32] S11008x64x2x32 2
  shapeCasts_S11008x64x2x32_S11008x32x2x64 : S11008x64x2x32.ShapeCasts S11008x32x2x64
  slices_S11008x32x2x64_S11008x32x1x64_0_0_0_0 : S11008x32x2x64.Slices ![0, 0, 0, 0] S11008x32x1x64
  shapeCasts_S11008x32x1x64_S11008x32x64 : S11008x32x1x64.ShapeCasts S11008x32x64
  slices_S11008x32x2x64_S11008x32x1x64_0_0_1_0 : S11008x32x2x64.Slices ![0, 0, 1, 0] S11008x32x1x64
  bcast_S11008x32x64_S11008x32x1x64_0_1_3 : S11008x32x64.BroadcastsInDim S11008x32x1x64 (![0, 1, 3] : Fin 3 → Fin S11008x32x1x64.rank)
  concatenates_S11008x32x1x64_S11008x32x1x64_S11008x32x2x64_d2 : Shape.Concatenates [S11008x32x1x64, S11008x32x1x64] S11008x32x2x64 2
  shapeCasts_S11008x32x2x64_S11008x16x2x128 : S11008x32x2x64.ShapeCasts S11008x16x2x128
  slices_S11008x16x2x128_S11008x16x1x128_0_0_0_0 : S11008x16x2x128.Slices ![0, 0, 0, 0] S11008x16x1x128
  shapeCasts_S11008x16x1x128_S11008x16x128 : S11008x16x1x128.ShapeCasts S11008x16x128
  slices_S11008x16x2x128_S11008x16x1x128_0_0_1_0 : S11008x16x2x128.Slices ![0, 0, 1, 0] S11008x16x1x128
  bcast_S11008x16x128_S11008x16x1x128_0_1_3 : S11008x16x128.BroadcastsInDim S11008x16x1x128 (![0, 1, 3] : Fin 3 → Fin S11008x16x1x128.rank)
  concatenates_S11008x16x1x128_S11008x16x1x128_S11008x16x2x128_d2 : Shape.Concatenates [S11008x16x1x128, S11008x16x1x128] S11008x16x2x128 2
  shapeCasts_S11008x16x2x128_S11008x8x2x256 : S11008x16x2x128.ShapeCasts S11008x8x2x256
  slices_S11008x8x2x256_S11008x8x1x256_0_0_0_0 : S11008x8x2x256.Slices ![0, 0, 0, 0] S11008x8x1x256
  shapeCasts_S11008x8x1x256_S11008x8x256 : S11008x8x1x256.ShapeCasts S11008x8x256
  slices_S11008x8x2x256_S11008x8x1x256_0_0_1_0 : S11008x8x2x256.Slices ![0, 0, 1, 0] S11008x8x1x256
  bcast_S11008x8x256_S11008x8x1x256_0_1_3 : S11008x8x256.BroadcastsInDim S11008x8x1x256 (![0, 1, 3] : Fin 3 → Fin S11008x8x1x256.rank)
  concatenates_S11008x8x1x256_S11008x8x1x256_S11008x8x2x256_d2 : Shape.Concatenates [S11008x8x1x256, S11008x8x1x256] S11008x8x2x256 2
  shapeCasts_S11008x8x2x256_S11008x4x2x512 : S11008x8x2x256.ShapeCasts S11008x4x2x512
  slices_S11008x4x2x512_S11008x4x1x512_0_0_0_0 : S11008x4x2x512.Slices ![0, 0, 0, 0] S11008x4x1x512
  shapeCasts_S11008x4x1x512_S11008x4x512 : S11008x4x1x512.ShapeCasts S11008x4x512
  slices_S11008x4x2x512_S11008x4x1x512_0_0_1_0 : S11008x4x2x512.Slices ![0, 0, 1, 0] S11008x4x1x512
  bcast_S11008x4x512_S11008x4x1x512_0_1_3 : S11008x4x512.BroadcastsInDim S11008x4x1x512 (![0, 1, 3] : Fin 3 → Fin S11008x4x1x512.rank)
  concatenates_S11008x4x1x512_S11008x4x1x512_S11008x4x2x512_d2 : Shape.Concatenates [S11008x4x1x512, S11008x4x1x512] S11008x4x2x512 2
  shapeCasts_S11008x4x2x512_S11008x2x2x1024 : S11008x4x2x512.ShapeCasts S11008x2x2x1024
  slices_S11008x2x2x1024_S11008x2x1x1024_0_0_0_0 : S11008x2x2x1024.Slices ![0, 0, 0, 0] S11008x2x1x1024
  shapeCasts_S11008x2x1x1024_S11008x2x1024 : S11008x2x1x1024.ShapeCasts S11008x2x1024
  slices_S11008x2x2x1024_S11008x2x1x1024_0_0_1_0 : S11008x2x2x1024.Slices ![0, 0, 1, 0] S11008x2x1x1024
  bcast_S11008x2x1024_S11008x2x1x1024_0_1_3 : S11008x2x1024.BroadcastsInDim S11008x2x1x1024 (![0, 1, 3] : Fin 3 → Fin S11008x2x1x1024.rank)
  concatenates_S11008x2x1x1024_S11008x2x1x1024_S11008x2x2x1024_d2 : Shape.Concatenates [S11008x2x1x1024, S11008x2x1x1024] S11008x2x2x1024 2
  shapeCasts_S11008x2x2x1024_S11008x1x2x2048 : S11008x2x2x1024.ShapeCasts S11008x1x2x2048
  slices_S11008x1x2x2048_S11008x1x1x2048_0_0_0_0 : S11008x1x2x2048.Slices ![0, 0, 0, 0] S11008x1x1x2048
  shapeCasts_S11008x1x1x2048_S11008x1x2048 : S11008x1x1x2048.ShapeCasts S11008x1x2048
  slices_S11008x1x2x2048_S11008x1x1x2048_0_0_1_0 : S11008x1x2x2048.Slices ![0, 0, 1, 0] S11008x1x1x2048
  bcast_S11008x1x2048_S11008x1x1x2048_0_1_3 : S11008x1x2048.BroadcastsInDim S11008x1x1x2048 (![0, 1, 3] : Fin 3 → Fin S11008x1x1x2048.rank)
  concatenates_S11008x1x1x2048_S11008x1x1x2048_S11008x1x2x2048_d2 : Shape.Concatenates [S11008x1x1x2048, S11008x1x1x2048] S11008x1x2x2048 2
  shapeCasts_S11008x1x2x2048_S11008x4096 : S11008x1x2x2048.ShapeCasts S11008x4096
  bcast_S_S11008x4096 : S_.BroadcastsInDim S11008x4096 (![] : Fin 0 → Fin S11008x4096.rank)
  shapeCasts_S11008_S1x11008 : S11008.ShapeCasts S1x11008
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x11008.size a
  hwx0_3 : ∀ i : grid0.Coords, EltTy.bits .f32 = 32 ∨ (Rect.block (s := S8192x11008) S1024x256.size (cc0_transform_3 i) (hinb0_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v125) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v126) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v127) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S8192x2048x2x1 : Shape := ⟨4, ![8192, 2048, 2, 1]⟩
abbrev S8192x2048x1x1 : Shape := ⟨4, ![8192, 2048, 1, 1]⟩
abbrev S8192x2048x1 : Shape := ⟨3, ![8192, 2048, 1]⟩
abbrev S8192x1024x2x2 : Shape := ⟨4, ![8192, 1024, 2, 2]⟩
abbrev S8192x1024x1x2 : Shape := ⟨4, ![8192, 1024, 1, 2]⟩
abbrev S8192x1024x2 : Shape := ⟨3, ![8192, 1024, 2]⟩
abbrev S8192x512x2x4 : Shape := ⟨4, ![8192, 512, 2, 4]⟩
abbrev S8192x512x1x4 : Shape := ⟨4, ![8192, 512, 1, 4]⟩
abbrev S8192x512x4 : Shape := ⟨3, ![8192, 512, 4]⟩
abbrev S8192x256x2x8 : Shape := ⟨4, ![8192, 256, 2, 8]⟩
abbrev S8192x256x1x8 : Shape := ⟨4, ![8192, 256, 1, 8]⟩
abbrev S8192x256x8 : Shape := ⟨3, ![8192, 256, 8]⟩
abbrev S8192x128x2x16 : Shape := ⟨4, ![8192, 128, 2, 16]⟩
abbrev S8192x128x1x16 : Shape := ⟨4, ![8192, 128, 1, 16]⟩
abbrev S8192x128x16 : Shape := ⟨3, ![8192, 128, 16]⟩
abbrev S8192x64x2x32 : Shape := ⟨4, ![8192, 64, 2, 32]⟩
abbrev S8192x64x1x32 : Shape := ⟨4, ![8192, 64, 1, 32]⟩
abbrev S8192x64x32 : Shape := ⟨3, ![8192, 64, 32]⟩
abbrev S8192x32x2x64 : Shape := ⟨4, ![8192, 32, 2, 64]⟩
abbrev S8192x32x1x64 : Shape := ⟨4, ![8192, 32, 1, 64]⟩
abbrev S8192x32x64 : Shape := ⟨3, ![8192, 32, 64]⟩
abbrev S8192x16x2x128 : Shape := ⟨4, ![8192, 16, 2, 128]⟩
abbrev S8192x16x1x128 : Shape := ⟨4, ![8192, 16, 1, 128]⟩
abbrev S8192x16x128 : Shape := ⟨3, ![8192, 16, 128]⟩
abbrev S8192x8x2x256 : Shape := ⟨4, ![8192, 8, 2, 256]⟩
abbrev S8192x8x1x256 : Shape := ⟨4, ![8192, 8, 1, 256]⟩
abbrev S8192x8x256 : Shape := ⟨3, ![8192, 8, 256]⟩
abbrev S8192x4x2x512 : Shape := ⟨4, ![8192, 4, 2, 512]⟩
abbrev S8192x4x1x512 : Shape := ⟨4, ![8192, 4, 1, 512]⟩
abbrev S8192x4x512 : Shape := ⟨3, ![8192, 4, 512]⟩
abbrev S8192x2x2x1024 : Shape := ⟨4, ![8192, 2, 2, 1024]⟩
abbrev S8192x2x1x1024 : Shape := ⟨4, ![8192, 2, 1, 1024]⟩
abbrev S8192x2x1024 : Shape := ⟨3, ![8192, 2, 1024]⟩
abbrev S8192x1x2x2048 : Shape := ⟨4, ![8192, 1, 2, 2048]⟩
abbrev S8192x1x1x2048 : Shape := ⟨4, ![8192, 1, 1, 2048]⟩
abbrev S8192x1x2048 : Shape := ⟨3, ![8192, 1, 2048]⟩
abbrev S_ : Shape := ⟨0, ![]⟩
abbrev S4x2048x11008 : Shape := ⟨3, ![4, 2048, 11008]⟩
abbrev S1x1x11008 : Shape := ⟨3, ![1, 1, 11008]⟩

abbrev nBuf : Space → Nat
  | .hbm => 132
  | .vmem => 0
  | .smem => 0
  | _ => 0

abbrev hbmTy0_0 (i : Nat) : BufTy := match i % 128 with
  | 0 => ⟨S4x2048x4096, .f32⟩
  | 1 => ⟨S11008x4096, .f32⟩
  | 2 => ⟨S11008, .f32⟩
  | 3 => ⟨S8192x4096, .f32⟩
  | 4 => ⟨S8192x2048x2x1, .f32⟩
  | 5 => ⟨S8192x2048x1x1, .f32⟩
  | 6 => ⟨S8192x2048x1, .f32⟩
  | 7 => ⟨S8192x2048x1x1, .f32⟩
  | 8 => ⟨S8192x2048x1, .f32⟩
  | 9 => ⟨S8192x2048x1, .f32⟩
  | 10 => ⟨S8192x2048x1, .f32⟩
  | 11 => ⟨S8192x2048x1x1, .f32⟩
  | 12 => ⟨S8192x2048x1x1, .f32⟩
  | 13 => ⟨S8192x2048x2x1, .f32⟩
  | 14 => ⟨S8192x1024x2x2, .f32⟩
  | 15 => ⟨S8192x1024x1x2, .f32⟩
  | 16 => ⟨S8192x1024x2, .f32⟩
  | 17 => ⟨S8192x1024x1x2, .f32⟩
  | 18 => ⟨S8192x1024x2, .f32⟩
  | 19 => ⟨S8192x1024x2, .f32⟩
  | 20 => ⟨S8192x1024x2, .f32⟩
  | 21 => ⟨S8192x1024x1x2, .f32⟩
  | 22 => ⟨S8192x1024x1x2, .f32⟩
  | 23 => ⟨S8192x1024x2x2, .f32⟩
  | 24 => ⟨S8192x512x2x4, .f32⟩
  | 25 => ⟨S8192x512x1x4, .f32⟩
  | 26 => ⟨S8192x512x4, .f32⟩
  | 27 => ⟨S8192x512x1x4, .f32⟩
  | 28 => ⟨S8192x512x4, .f32⟩
  | 29 => ⟨S8192x512x4, .f32⟩
  | 30 => ⟨S8192x512x4, .f32⟩
  | 31 => ⟨S8192x512x1x4, .f32⟩
  | 32 => ⟨S8192x512x1x4, .f32⟩
  | 33 => ⟨S8192x512x2x4, .f32⟩
  | 34 => ⟨S8192x256x2x8, .f32⟩
  | 35 => ⟨S8192x256x1x8, .f32⟩
  | 36 => ⟨S8192x256x8, .f32⟩
  | 37 => ⟨S8192x256x1x8, .f32⟩
  | 38 => ⟨S8192x256x8, .f32⟩
  | 39 => ⟨S8192x256x8, .f32⟩
  | 40 => ⟨S8192x256x8, .f32⟩
  | 41 => ⟨S8192x256x1x8, .f32⟩
  | 42 => ⟨S8192x256x1x8, .f32⟩
  | 43 => ⟨S8192x256x2x8, .f32⟩
  | 44 => ⟨S8192x128x2x16, .f32⟩
  | 45 => ⟨S8192x128x1x16, .f32⟩
  | 46 => ⟨S8192x128x16, .f32⟩
  | 47 => ⟨S8192x128x1x16, .f32⟩
  | 48 => ⟨S8192x128x16, .f32⟩
  | 49 => ⟨S8192x128x16, .f32⟩
  | 50 => ⟨S8192x128x16, .f32⟩
  | 51 => ⟨S8192x128x1x16, .f32⟩
  | 52 => ⟨S8192x128x1x16, .f32⟩
  | 53 => ⟨S8192x128x2x16, .f32⟩
  | 54 => ⟨S8192x64x2x32, .f32⟩
  | 55 => ⟨S8192x64x1x32, .f32⟩
  | 56 => ⟨S8192x64x32, .f32⟩
  | 57 => ⟨S8192x64x1x32, .f32⟩
  | 58 => ⟨S8192x64x32, .f32⟩
  | 59 => ⟨S8192x64x32, .f32⟩
  | 60 => ⟨S8192x64x32, .f32⟩
  | 61 => ⟨S8192x64x1x32, .f32⟩
  | 62 => ⟨S8192x64x1x32, .f32⟩
  | 63 => ⟨S8192x64x2x32, .f32⟩
  | 64 => ⟨S8192x32x2x64, .f32⟩
  | 65 => ⟨S8192x32x1x64, .f32⟩
  | 66 => ⟨S8192x32x64, .f32⟩
  | 67 => ⟨S8192x32x1x64, .f32⟩
  | 68 => ⟨S8192x32x64, .f32⟩
  | 69 => ⟨S8192x32x64, .f32⟩
  | 70 => ⟨S8192x32x64, .f32⟩
  | 71 => ⟨S8192x32x1x64, .f32⟩
  | 72 => ⟨S8192x32x1x64, .f32⟩
  | 73 => ⟨S8192x32x2x64, .f32⟩
  | 74 => ⟨S8192x16x2x128, .f32⟩
  | 75 => ⟨S8192x16x1x128, .f32⟩
  | 76 => ⟨S8192x16x128, .f32⟩
  | 77 => ⟨S8192x16x1x128, .f32⟩
  | 78 => ⟨S8192x16x128, .f32⟩
  | 79 => ⟨S8192x16x128, .f32⟩
  | 80 => ⟨S8192x16x128, .f32⟩
  | 81 => ⟨S8192x16x1x128, .f32⟩
  | 82 => ⟨S8192x16x1x128, .f32⟩
  | 83 => ⟨S8192x16x2x128, .f32⟩
  | 84 => ⟨S8192x8x2x256, .f32⟩
  | 85 => ⟨S8192x8x1x256, .f32⟩
  | 86 => ⟨S8192x8x256, .f32⟩
  | 87 => ⟨S8192x8x1x256, .f32⟩
  | 88 => ⟨S8192x8x256, .f32⟩
  | 89 => ⟨S8192x8x256, .f32⟩
  | 90 => ⟨S8192x8x256, .f32⟩
  | 91 => ⟨S8192x8x1x256, .f32⟩
  | 92 => ⟨S8192x8x1x256, .f32⟩
  | 93 => ⟨S8192x8x2x256, .f32⟩
  | 94 => ⟨S8192x4x2x512, .f32⟩
  | 95 => ⟨S8192x4x1x512, .f32⟩
  | 96 => ⟨S8192x4x512, .f32⟩
  | 97 => ⟨S8192x4x1x512, .f32⟩
  | 98 => ⟨S8192x4x512, .f32⟩
  | 99 => ⟨S8192x4x512, .f32⟩
  | 100 => ⟨S8192x4x512, .f32⟩
  | 101 => ⟨S8192x4x1x512, .f32⟩
  | 102 => ⟨S8192x4x1x512, .f32⟩
  | 103 => ⟨S8192x4x2x512, .f32⟩
  | 104 => ⟨S8192x2x2x1024, .f32⟩
  | 105 => ⟨S8192x2x1x1024, .f32⟩
  | 106 => ⟨S8192x2x1024, .f32⟩
  | 107 => ⟨S8192x2x1x1024, .f32⟩
  | 108 => ⟨S8192x2x1024, .f32⟩
  | 109 => ⟨S8192x2x1024, .f32⟩
  | 110 => ⟨S8192x2x1024, .f32⟩
  | 111 => ⟨S8192x2x1x1024, .f32⟩
  | 112 => ⟨S8192x2x1x1024, .f32⟩
  | 113 => ⟨S8192x2x2x1024, .f32⟩
  | 114 => ⟨S8192x1x2x2048, .f32⟩
  | 115 => ⟨S8192x1x1x2048, .f32⟩
  | 116 => ⟨S8192x1x2048, .f32⟩
  | 117 => ⟨S8192x1x1x2048, .f32⟩
  | 118 => ⟨S8192x1x2048, .f32⟩
  | 119 => ⟨S8192x1x2048, .f32⟩
  | 120 => ⟨S8192x1x2048, .f32⟩
  | 121 => ⟨S8192x1x1x2048, .f32⟩
  | 122 => ⟨S8192x1x1x2048, .f32⟩
  | 123 => ⟨S8192x1x2x2048, .f32⟩
  | 124 => ⟨S4x2048x4096, .f32⟩
  | 125 => ⟨S_, .f32⟩
  | 126 => ⟨S4x2048x4096, .f32⟩
  | 127 => ⟨S4x2048x4096, .f32⟩
  | _ => ⟨S4x2048x4096, .f32⟩

abbrev hbmTy0_1 (i : Nat) : BufTy := match i % 128 with
  | 0 => ⟨S4x2048x11008, .f32⟩
  | 1 => ⟨S1x1x11008, .f32⟩
  | 2 => ⟨S4x2048x11008, .f32⟩
  | 3 => ⟨S4x2048x11008, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_cst : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩

abbrev nD : Nat := 1
abbrev τ : Topo := Topo.v7x

variable {F : FTy → Type} [FloatOps F]

class Facts₀ : Prop where
  shapeCasts_S4x2048x4096_S8192x4096 : S4x2048x4096.ShapeCasts S8192x4096
  shapeCasts_S8192x4096_S8192x2048x2x1 : S8192x4096.ShapeCasts S8192x2048x2x1
  slices_S8192x2048x2x1_S8192x2048x1x1_0_0_0_0 : S8192x2048x2x1.Slices ![0, 0, 0, 0] S8192x2048x1x1
  shapeCasts_S8192x2048x1x1_S8192x2048x1 : S8192x2048x1x1.ShapeCasts S8192x2048x1
  slices_S8192x2048x2x1_S8192x2048x1x1_0_0_1_0 : S8192x2048x2x1.Slices ![0, 0, 1, 0] S8192x2048x1x1
  bcast_S8192x2048x1_S8192x2048x1x1_0_1_3 : S8192x2048x1.BroadcastsInDim S8192x2048x1x1 (![0, 1, 3] : Fin 3 → Fin S8192x2048x1x1.rank)
  concatenates_S8192x2048x1x1_S8192x2048x1x1_S8192x2048x2x1_d2 : Shape.Concatenates [S8192x2048x1x1, S8192x2048x1x1] S8192x2048x2x1 2
  shapeCasts_S8192x2048x2x1_S8192x1024x2x2 : S8192x2048x2x1.ShapeCasts S8192x1024x2x2
  slices_S8192x1024x2x2_S8192x1024x1x2_0_0_0_0 : S8192x1024x2x2.Slices ![0, 0, 0, 0] S8192x1024x1x2
  shapeCasts_S8192x1024x1x2_S8192x1024x2 : S8192x1024x1x2.ShapeCasts S8192x1024x2
  slices_S8192x1024x2x2_S8192x1024x1x2_0_0_1_0 : S8192x1024x2x2.Slices ![0, 0, 1, 0] S8192x1024x1x2
  bcast_S8192x1024x2_S8192x1024x1x2_0_1_3 : S8192x1024x2.BroadcastsInDim S8192x1024x1x2 (![0, 1, 3] : Fin 3 → Fin S8192x1024x1x2.rank)
  concatenates_S8192x1024x1x2_S8192x1024x1x2_S8192x1024x2x2_d2 : Shape.Concatenates [S8192x1024x1x2, S8192x1024x1x2] S8192x1024x2x2 2
  shapeCasts_S8192x1024x2x2_S8192x512x2x4 : S8192x1024x2x2.ShapeCasts S8192x512x2x4
  slices_S8192x512x2x4_S8192x512x1x4_0_0_0_0 : S8192x512x2x4.Slices ![0, 0, 0, 0] S8192x512x1x4
  shapeCasts_S8192x512x1x4_S8192x512x4 : S8192x512x1x4.ShapeCasts S8192x512x4
  slices_S8192x512x2x4_S8192x512x1x4_0_0_1_0 : S8192x512x2x4.Slices ![0, 0, 1, 0] S8192x512x1x4
  bcast_S8192x512x4_S8192x512x1x4_0_1_3 : S8192x512x4.BroadcastsInDim S8192x512x1x4 (![0, 1, 3] : Fin 3 → Fin S8192x512x1x4.rank)
  concatenates_S8192x512x1x4_S8192x512x1x4_S8192x512x2x4_d2 : Shape.Concatenates [S8192x512x1x4, S8192x512x1x4] S8192x512x2x4 2
  shapeCasts_S8192x512x2x4_S8192x256x2x8 : S8192x512x2x4.ShapeCasts S8192x256x2x8
  slices_S8192x256x2x8_S8192x256x1x8_0_0_0_0 : S8192x256x2x8.Slices ![0, 0, 0, 0] S8192x256x1x8
  shapeCasts_S8192x256x1x8_S8192x256x8 : S8192x256x1x8.ShapeCasts S8192x256x8
  slices_S8192x256x2x8_S8192x256x1x8_0_0_1_0 : S8192x256x2x8.Slices ![0, 0, 1, 0] S8192x256x1x8
  bcast_S8192x256x8_S8192x256x1x8_0_1_3 : S8192x256x8.BroadcastsInDim S8192x256x1x8 (![0, 1, 3] : Fin 3 → Fin S8192x256x1x8.rank)
  concatenates_S8192x256x1x8_S8192x256x1x8_S8192x256x2x8_d2 : Shape.Concatenates [S8192x256x1x8, S8192x256x1x8] S8192x256x2x8 2
  shapeCasts_S8192x256x2x8_S8192x128x2x16 : S8192x256x2x8.ShapeCasts S8192x128x2x16
  slices_S8192x128x2x16_S8192x128x1x16_0_0_0_0 : S8192x128x2x16.Slices ![0, 0, 0, 0] S8192x128x1x16
  shapeCasts_S8192x128x1x16_S8192x128x16 : S8192x128x1x16.ShapeCasts S8192x128x16
  slices_S8192x128x2x16_S8192x128x1x16_0_0_1_0 : S8192x128x2x16.Slices ![0, 0, 1, 0] S8192x128x1x16
  bcast_S8192x128x16_S8192x128x1x16_0_1_3 : S8192x128x16.BroadcastsInDim S8192x128x1x16 (![0, 1, 3] : Fin 3 → Fin S8192x128x1x16.rank)
  concatenates_S8192x128x1x16_S8192x128x1x16_S8192x128x2x16_d2 : Shape.Concatenates [S8192x128x1x16, S8192x128x1x16] S8192x128x2x16 2
  shapeCasts_S8192x128x2x16_S8192x64x2x32 : S8192x128x2x16.ShapeCasts S8192x64x2x32
  slices_S8192x64x2x32_S8192x64x1x32_0_0_0_0 : S8192x64x2x32.Slices ![0, 0, 0, 0] S8192x64x1x32
  shapeCasts_S8192x64x1x32_S8192x64x32 : S8192x64x1x32.ShapeCasts S8192x64x32
  slices_S8192x64x2x32_S8192x64x1x32_0_0_1_0 : S8192x64x2x32.Slices ![0, 0, 1, 0] S8192x64x1x32
  bcast_S8192x64x32_S8192x64x1x32_0_1_3 : S8192x64x32.BroadcastsInDim S8192x64x1x32 (![0, 1, 3] : Fin 3 → Fin S8192x64x1x32.rank)
  concatenates_S8192x64x1x32_S8192x64x1x32_S8192x64x2x32_d2 : Shape.Concatenates [S8192x64x1x32, S8192x64x1x32] S8192x64x2x32 2
  shapeCasts_S8192x64x2x32_S8192x32x2x64 : S8192x64x2x32.ShapeCasts S8192x32x2x64
  slices_S8192x32x2x64_S8192x32x1x64_0_0_0_0 : S8192x32x2x64.Slices ![0, 0, 0, 0] S8192x32x1x64
  shapeCasts_S8192x32x1x64_S8192x32x64 : S8192x32x1x64.ShapeCasts S8192x32x64
  slices_S8192x32x2x64_S8192x32x1x64_0_0_1_0 : S8192x32x2x64.Slices ![0, 0, 1, 0] S8192x32x1x64
  bcast_S8192x32x64_S8192x32x1x64_0_1_3 : S8192x32x64.BroadcastsInDim S8192x32x1x64 (![0, 1, 3] : Fin 3 → Fin S8192x32x1x64.rank)
  concatenates_S8192x32x1x64_S8192x32x1x64_S8192x32x2x64_d2 : Shape.Concatenates [S8192x32x1x64, S8192x32x1x64] S8192x32x2x64 2
  shapeCasts_S8192x32x2x64_S8192x16x2x128 : S8192x32x2x64.ShapeCasts S8192x16x2x128
  slices_S8192x16x2x128_S8192x16x1x128_0_0_0_0 : S8192x16x2x128.Slices ![0, 0, 0, 0] S8192x16x1x128
  shapeCasts_S8192x16x1x128_S8192x16x128 : S8192x16x1x128.ShapeCasts S8192x16x128
  slices_S8192x16x2x128_S8192x16x1x128_0_0_1_0 : S8192x16x2x128.Slices ![0, 0, 1, 0] S8192x16x1x128
  bcast_S8192x16x128_S8192x16x1x128_0_1_3 : S8192x16x128.BroadcastsInDim S8192x16x1x128 (![0, 1, 3] : Fin 3 → Fin S8192x16x1x128.rank)
  concatenates_S8192x16x1x128_S8192x16x1x128_S8192x16x2x128_d2 : Shape.Concatenates [S8192x16x1x128, S8192x16x1x128] S8192x16x2x128 2
  shapeCasts_S8192x16x2x128_S8192x8x2x256 : S8192x16x2x128.ShapeCasts S8192x8x2x256
  slices_S8192x8x2x256_S8192x8x1x256_0_0_0_0 : S8192x8x2x256.Slices ![0, 0, 0, 0] S8192x8x1x256
  shapeCasts_S8192x8x1x256_S8192x8x256 : S8192x8x1x256.ShapeCasts S8192x8x256
  slices_S8192x8x2x256_S8192x8x1x256_0_0_1_0 : S8192x8x2x256.Slices ![0, 0, 1, 0] S8192x8x1x256
  bcast_S8192x8x256_S8192x8x1x256_0_1_3 : S8192x8x256.BroadcastsInDim S8192x8x1x256 (![0, 1, 3] : Fin 3 → Fin S8192x8x1x256.rank)
  concatenates_S8192x8x1x256_S8192x8x1x256_S8192x8x2x256_d2 : Shape.Concatenates [S8192x8x1x256, S8192x8x1x256] S8192x8x2x256 2
  shapeCasts_S8192x8x2x256_S8192x4x2x512 : S8192x8x2x256.ShapeCasts S8192x4x2x512
  slices_S8192x4x2x512_S8192x4x1x512_0_0_0_0 : S8192x4x2x512.Slices ![0, 0, 0, 0] S8192x4x1x512
  shapeCasts_S8192x4x1x512_S8192x4x512 : S8192x4x1x512.ShapeCasts S8192x4x512
  slices_S8192x4x2x512_S8192x4x1x512_0_0_1_0 : S8192x4x2x512.Slices ![0, 0, 1, 0] S8192x4x1x512
  bcast_S8192x4x512_S8192x4x1x512_0_1_3 : S8192x4x512.BroadcastsInDim S8192x4x1x512 (![0, 1, 3] : Fin 3 → Fin S8192x4x1x512.rank)
  concatenates_S8192x4x1x512_S8192x4x1x512_S8192x4x2x512_d2 : Shape.Concatenates [S8192x4x1x512, S8192x4x1x512] S8192x4x2x512 2
  shapeCasts_S8192x4x2x512_S8192x2x2x1024 : S8192x4x2x512.ShapeCasts S8192x2x2x1024
  slices_S8192x2x2x1024_S8192x2x1x1024_0_0_0_0 : S8192x2x2x1024.Slices ![0, 0, 0, 0] S8192x2x1x1024
  shapeCasts_S8192x2x1x1024_S8192x2x1024 : S8192x2x1x1024.ShapeCasts S8192x2x1024
  slices_S8192x2x2x1024_S8192x2x1x1024_0_0_1_0 : S8192x2x2x1024.Slices ![0, 0, 1, 0] S8192x2x1x1024
  bcast_S8192x2x1024_S8192x2x1x1024_0_1_3 : S8192x2x1024.BroadcastsInDim S8192x2x1x1024 (![0, 1, 3] : Fin 3 → Fin S8192x2x1x1024.rank)
  concatenates_S8192x2x1x1024_S8192x2x1x1024_S8192x2x2x1024_d2 : Shape.Concatenates [S8192x2x1x1024, S8192x2x1x1024] S8192x2x2x1024 2
  shapeCasts_S8192x2x2x1024_S8192x1x2x2048 : S8192x2x2x1024.ShapeCasts S8192x1x2x2048
  slices_S8192x1x2x2048_S8192x1x1x2048_0_0_0_0 : S8192x1x2x2048.Slices ![0, 0, 0, 0] S8192x1x1x2048
  shapeCasts_S8192x1x1x2048_S8192x1x2048 : S8192x1x1x2048.ShapeCasts S8192x1x2048
  slices_S8192x1x2x2048_S8192x1x1x2048_0_0_1_0 : S8192x1x2x2048.Slices ![0, 0, 1, 0] S8192x1x1x2048
  bcast_S8192x1x2048_S8192x1x1x2048_0_1_3 : S8192x1x2048.BroadcastsInDim S8192x1x1x2048 (![0, 1, 3] : Fin 3 → Fin S8192x1x1x2048.rank)
  concatenates_S8192x1x1x2048_S8192x1x1x2048_S8192x1x2x2048_d2 : Shape.Concatenates [S8192x1x1x2048, S8192x1x1x2048] S8192x1x2x2048 2
  shapeCasts_S8192x1x2x2048_S4x2048x4096 : S8192x1x2x2048.ShapeCasts S4x2048x4096
  bcast_S_S4x2048x4096 : S_.BroadcastsInDim S4x2048x4096 (![] : Fin 0 → Fin S4x2048x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.LibButterfly.lean ====
/-
  One butterfly stage of a fast Walsh–Hadamard transform, as array operations, read at coordinates.

  An array of shape [R, q, 2, h] holds R rows, each cut into q blocks of two halves of h entries. A stage takes the
  two halves a = X[:, :, 0, :] and b = X[:, :, 1, :] (each re-laid as [R, q, h]), forms a + b and a - b, gives each
  back its unit axis and stacks them along that axis: the new lower half is a + b, the new upper half a - b.
  Re-laying the result as [R, q/2, 2, 2h] pairs consecutive blocks for the next stage: block j' and half s' of the
  new array is the old block 2j' + s', and position l' in it is half l' / h, position l' % h of the old one.
-/
import Idealize.ShloMosaic.Lib.Pipeline.Value
import Idealize.ShloMosaic.Lib.ValueIdx
import Idealize.ShloMosaic.PureOps.Ideal

noncomputable section

namespace Cert.LibButterfly

open Idealize.ShloMosaic Idealize.ShloMosaic.ValueIdx

variable {R q h : Nat}

/-- The lower half of every block, re-laid as [R, q, h], read at (r, j, l). -/
theorem half_lo_apply (X : FVec Ideal ⟨4, ![R, q, 2, h]⟩ .f32)
    (hs : (⟨4, ![R, q, 2, h]⟩ : Shape).Slices ![0, 0, 0, 0] ⟨4, ![R, q, 1, h]⟩)
    (hc : (⟨4, ![R, q, 1, h]⟩ : Shape).ShapeCasts ⟨3, ![R, q, h]⟩) (r : Fin R) (j : Fin q) (l : Fin h) :
    shapeCast ⟨3, ![R, q, h]⟩ (extractStridedSlice ⟨4, ![R, q, 1, h]⟩ ![0, 0, 0, 0] X hs) hc (ix3 r j l)
      = X (ix4 r j (0 : Fin 2) l) := by
  refine (shapeCast_apply _ hc (ix3 r j l) (ix4 r j (0 : Fin 1) l) ?_).trans ?_
  · rw [Shape.rowMajor_val_four, Shape.rowMajor_val_three]
    show ((r.val * q + j.val) * 1 + 0) * h + l.val = (r.val * q + j.val) * h + l.val
    rw [Nat.mul_one, Nat.add_zero]
  · exact extractStridedSlice_apply _ X hs _ (ix4 r j (0 : Fin 2) l) (fun a => match a with
      | ⟨0, _⟩ => by show r.val = 0 + r.val; omega
      | ⟨1, _⟩ => by show j.val = 0 + j.val; omega
      | ⟨2, _⟩ => by show (0 : Nat) = 0 + 0; rfl
      | ⟨3, _⟩ => by show l.val = 0 + l.val; omega)

/-- The upper half of every block, re-laid as [R, q, h], read at (r, j, l). -/
theorem half_hi_apply (X : FVec Ideal ⟨4, ![R, q, 2, h]⟩ .f32)
    (hs : (⟨4, ![R, q, 2, h]⟩ : Shape).Slices ![0, 0, 1, 0] ⟨4, ![R, q, 1, h]⟩)
    (hc : (⟨4, ![R, q, 1, h]⟩ : Shape).ShapeCasts ⟨3, ![R, q, h]⟩) (r : Fin R) (j : Fin q) (l : Fin h) :
    shapeCast ⟨3, ![R, q, h]⟩ (extractStridedSlice ⟨4, ![R, q, 1, h]⟩ ![0, 0, 1, 0] X hs) hc (ix3 r j l)
      = X (ix4 r j (1 : Fin 2) l) := by
  refine (shapeCast_apply _ hc (ix3 r j l) (ix4 r j (0 : Fin 1) l) ?_).trans ?_
  · rw [Shape.rowMajor_val_four, Shape.rowMajor_val_three]
    show ((r.val * q + j.val) * 1 + 0) * h + l.val = (r.val * q + j.val) * h + l.val
    rw [Nat.mul_one, Nat.add_zero]
  · exact extractStridedSlice_apply _ X hs _ (ix4 r j (1 : Fin 2) l) (fun a => match a with
      | ⟨0, _⟩ => by show r.val = 0 + r.val; omega
      | ⟨1, _⟩ => by show j.val = 0 + j.val; omega
      | ⟨2, _⟩ => by show (1 : Nat) = 1 + 0; rfl
      | ⟨3, _⟩ => by show l.val = 0 + l.val; omega)

/-- An [R, q, h] array given back its unit axis, read at (r, j, 0, l). -/
theorem unit_axis_apply (A : FVec Ideal ⟨3, ![R, q, h]⟩ .f32)
    (hb : (⟨3, ![R, q, h]⟩ : Shape).BroadcastsInDim ⟨4, ![R, q, 1, h]⟩ ![0, 1, 3]) (r : Fin R) (j : Fin q) (l : Fin h) :
    broadcastInDim ⟨4, ![R, q, 1, h]⟩ ![0, 1, 3] hb A (ix4 r j (0 : Fin 1) l) = A (ix3 r j l) := by
  have hr := r.isLt
  have hj := j.isLt
  have hl := l.isLt
  exact broadcastInDim_apply _ hb A _ (ix3 r j l) (fun a => match a with
    | ⟨0, _⟩ => by show r.val = if R = 1 then 0 else r.val; split <;> omega
    | ⟨1, _⟩ => by show j.val = if q = 1 then 0 else j.val; split <;> omega
    | ⟨2, _⟩ => by show l.val = if h = 1 then 0 else l.val; split <;> omega)

/-- The stage's result: the sum of the two halves stacked on their difference. -/
def stage (X : FVec Ideal ⟨4, ![R, q, 2, h]⟩ .f32)
    (hs0 : (⟨4, ![R, q, 2, h]⟩ : Shape).Slices ![0, 0, 0, 0] ⟨4, ![R, q, 1, h]⟩)
    (hs1 : (⟨4, ![R, q, 2, h]⟩ : Shape).Slices ![0, 0, 1, 0] ⟨4, ![R, q, 1, h]⟩)
    (hc : (⟨4, ![R, q, 1, h]⟩ : Shape).ShapeCasts ⟨3, ![R, q, h]⟩)
    (hb : (⟨3, ![R, q, h]⟩ : Shape).BroadcastsInDim ⟨4, ![R, q, 1, h]⟩ ![0, 1, 3])
    (hcat : Shape.Concatenates [⟨4, ![R, q, 1, h]⟩, ⟨4, ![R, q, 1, h]⟩] ⟨4, ![R, q, 2, h]⟩ 2) :
    FVec Ideal ⟨4, ![R, q, 2, h]⟩ .f32 :=
  concatenate ⟨4, ![R, q, 2, h]⟩ 2
    [⟨⟨4, ![R, q, 1, h]⟩, broadcastInDim ⟨4, ![R, q, 1, h]⟩ ![0, 1, 3] hb
        (addf (shapeCast ⟨3, ![R, q, h]⟩ (extractStridedSlice ⟨4, ![R, q, 1, h]⟩ ![0, 0, 0, 0] X hs0) hc)
              (shapeCast ⟨3, ![R, q, h]⟩ (extractStridedSlice ⟨4, ![R, q, 1, h]⟩ ![0, 0, 1, 0] X hs1) hc))⟩,
     ⟨⟨4, ![R, q, 1, h]⟩, broadcastInDim ⟨4, ![R, q, 1, h]⟩ ![0, 1, 3] hb
        (subf (shapeCast ⟨3, ![R, q, h]⟩ (extractStridedSlice ⟨4, ![R, q, 1, h]⟩ ![0, 0, 0, 0] X hs0) hc)
              (shapeCast ⟨3, ![R, q, h]⟩ (extractStridedSlice ⟨4, ![R, q, 1, h]⟩ ![0, 0, 1, 0] X hs1) hc))⟩] hcat

/-- The new lower half is the sum of the old halves. -/
theorem stage_lo (X : FVec Ideal ⟨4, ![R, q, 2, h]⟩ .f32) (hs0 hs1 hc hb hcat) (r : Fin R) (j : Fin q) (l : Fin h) :
    (stage X hs0 hs1 hc hb hcat (ix4 r j (0 : Fin 2) l) : EReal)
      = X (ix4 r j (0 : Fin 2) l) + X (ix4 r j (1 : Fin 2) l) := by
  unfold stage
  refine (concatenate_pair_apply_left 2 _ _ hcat (ix4 r j (0 : Fin 2) l) rfl (ix4 r j (0 : Fin 1) l) (fun b => match b with
    | ⟨0, _⟩ => rfl
    | ⟨1, _⟩ => rfl
    | ⟨2, _⟩ => rfl
    | ⟨3, _⟩ => rfl)).trans ?_
  rw [unit_axis_apply _ hb r j l, addf_apply, half_lo_apply X hs0 hc r j l, half_hi_apply X hs1 hc r j l]

/-- The new upper half is the difference of the old halves. -/
theorem stage_hi (X : FVec Ideal ⟨4, ![R, q, 2, h]⟩ .f32) (hs0 hs1 hc hb hcat) (r : Fin R) (j : Fin q) (l : Fin h) :
    (stage X hs0 hs1 hc hb hcat (ix4 r j (1 : Fin 2) l) : EReal)
      = X (ix4 r j (0 : Fin 2) l) - X (ix4 r j (1 : Fin 2) l) := by
  unfold stage
  refine (concatenate_pair_apply_right 2 _ _ hcat (ix4 r j (1 : Fin 2) l) rfl rfl (ix4 r j (0 : Fin 1) l)
    (fun b hb' => match b with
      | ⟨0, _⟩ => rfl
      | ⟨1, _⟩ => rfl
      | ⟨2, _⟩ => absurd rfl hb'
      | ⟨3, _⟩ => rfl) rfl).trans ?_
  rw [unit_axis_apply _ hb r j l, subf_apply, half_lo_apply X hs0 hc r j l, half_hi_apply X hs1 hc r j l]

/-- Pairing consecutive blocks: an [R, q, 2, h] array re-laid as [R, q', 2, h2] with q = 2 q' and h2 = 2 h, read at
    (r, j', s', l'), is the old array at block 2 j' + s', half l' / h, position l' % h. -/
theorem regroup_apply (q' h2 : Nat) (hq : q = 2 * q') (hh : h2 = 2 * h) (hpos : 0 < h)
    (Y : FVec Ideal ⟨4, ![R, q, 2, h]⟩ .f32)
    (hrs : (⟨4, ![R, q, 2, h]⟩ : Shape).ShapeCasts ⟨4, ![R, q', 2, h2]⟩)
    (r : Fin R) (j' : Fin q') (s' : Fin 2) (l' : Fin h2) :
    shapeCast ⟨4, ![R, q', 2, h2]⟩ Y hrs (ix4 r j' s' l')
      = Y (ix4 r ⟨2 * j'.val + s'.val, by have := j'.isLt; have := s'.isLt; omega⟩
              ⟨l'.val / h, by have := l'.isLt; rw [Nat.div_lt_iff_lt_mul hpos]; omega⟩
              ⟨l'.val % h, Nat.mod_lt _ hpos⟩) := by
  refine shapeCast_apply Y hrs _ _ ?_
  rw [Shape.rowMajor_val_four, Shape.rowMajor_val_four]
  show ((r.val * q + (2 * j'.val + s'.val)) * 2 + l'.val / h) * h + l'.val % h
      = ((r.val * q' + j'.val) * 2 + s'.val) * h2 + l'.val
  have e := Nat.div_add_mod l'.val h
  subst hq hh
  generalize l'.val / h = a at e ⊢
  generalize l'.val % h = b at e ⊢
  rw [← e]
  ring

end Cert.LibButterfly

end
-- ==== Proof.RefRun.lean ====
/-
  The reference's run, read a stage at a time.

  The reference re-lays the activations x : [4, 2048, 4096] as 8192 rows cut into blocks, passes them through twelve
  butterfly stages of ten host lines each, re-lays the result back, multiplies by 2⁻⁶, contracts with the weight over the
  last axis and adds the bias. Its 129 host lines are two lines that re-lay the input, the twelve stages, and seven
  closing lines. Each stage's input array is named, X0 … X11; the result is  refOut x W bias.
-/
import proofs.«169559_j2336462209049_1_alg».proof.Proof.Gen.ReferenceIdeal
import proofs.«169559_j2336462209049_1_alg».proof.Proof.LibButterfly
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem
open Idealize.ShloMosaic.StableHlo Cert.LibButterfly

/-- The activations' rows cut into 2048 blocks of two halves of one entry. -/
def X0 (A : FVec Ideal S4x2048x4096 .f32) : FVec Ideal S8192x2048x2x1 .f32 :=
  shapeCast S8192x2048x2x1 (shapeCast S8192x4096 A shapeCasts_S4x2048x4096_S8192x4096) shapeCasts_S8192x4096_S8192x2048x2x1

/-- After stage 1: blocks of two halves of 2 entries. -/
def X1 (A : FVec Ideal S4x2048x4096 .f32) : FVec Ideal S8192x1024x2x2 .f32 :=
  shapeCast S8192x1024x2x2 (stage (R := 8192) (q := 2048) (h := 1) (X0 A) slices_S8192x2048x2x1_S8192x2048x1x1_0_0_0_0 slices_S8192x2048x2x1_S8192x2048x1x1_0_0_1_0 shapeCasts_S8192x2048x1x1_S8192x2048x1 bcast_S8192x2048x1_S8192x2048x1x1_0_1_3 concatenates_S8192x2048x1x1_S8192x2048x1x1_S8192x2048x2x1_d2) shapeCasts_S8192x2048x2x1_S8192x1024x2x2

/-- After stage 2: blocks of two halves of 4 entries. -/
def X2 (A : FVec Ideal S4x2048x4096 .f32) : FVec Ideal S8192x512x2x4 .f32 :=
  shapeCast S8192x512x2x4 (stage (R := 8192) (q := 1024) (h := 2) (X1 A) slices_S8192x1024x2x2_S8192x1024x1x2_0_0_0_0 slices_S8192x1024x2x2_S8192x1024x1x2_0_0_1_0 shapeCasts_S8192x1024x1x2_S8192x1024x2 bcast_S8192x1024x2_S8192x1024x1x2_0_1_3 concatenates_S8192x1024x1x2_S8192x1024x1x2_S8192x1024x2x2_d2) shapeCasts_S8192x1024x2x2_S8192x512x2x4

/-- After stage 3: blocks of two halves of 8 entries. -/
def X3 (A : FVec Ideal S4x2048x4096 .f32) : FVec Ideal S8192x256x2x8 .f32 :=
  shapeCast S8192x256x2x8 (stage (R := 8192) (q := 512) (h := 4) (X2 A) slices_S8192x512x2x4_S8192x512x1x4_0_0_0_0 slices_S8192x512x2x4_S8192x512x1x4_0_0_1_0 shapeCasts_S8192x512x1x4_S8192x512x4 bcast_S8192x512x4_S8192x512x1x4_0_1_3 concatenates_S8192x512x1x4_S8192x512x1x4_S8192x512x2x4_d2) shapeCasts_S8192x512x2x4_S8192x256x2x8

/-- After stage 4: blocks of two halves of 16 entries. -/
def X4 (A : FVec Ideal S4x2048x4096 .f32) : FVec Ideal S8192x128x2x16 .f32 :=
  shapeCast S8192x128x2x16 (stage (R := 8192) (q := 256) (h := 8) (X3 A) slices_S8192x256x2x8_S8192x256x1x8_0_0_0_0 slices_S8192x256x2x8_S8192x256x1x8_0_0_1_0 shapeCasts_S8192x256x1x8_S8192x256x8 bcast_S8192x256x8_S8192x256x1x8_0_1_3 concatenates_S8192x256x1x8_S8192x256x1x8_S8192x256x2x8_d2) shapeCasts_S8192x256x2x8_S8192x128x2x16

/-- After stage 5: blocks of two halves of 32 entries. -/
def X5 (A : FVec Ideal S4x2048x4096 .f32) : FVec Ideal S8192x64x2x32 .f32 :=
  shapeCast S8192x64x2x32 (stage (R := 8192) (q := 128) (h := 16) (X4 A) slices_S8192x128x2x16_S8192x128x1x16_0_0_0_0 slices_S8192x128x2x16_S8192x128x1x16_0_0_1_0 shapeCasts_S8192x128x1x16_S8192x128x16 bcast_S8192x128x16_S8192x128x1x16_0_1_3 concatenates_S8192x128x1x16_S8192x128x1x16_S8192x128x2x16_d2) shapeCasts_S8192x128x2x16_S8192x64x2x32

/-- After stage 6: blocks of two halves of 64 entries. -/
def X6 (A : FVec Ideal S4x2048x4096 .f32) : FVec Ideal S8192x32x2x64 .f32 :=
  shapeCast S8192x32x2x64 (stage (R := 8192) (q := 64) (h := 32) (X5 A) slices_S8192x64x2x32_S8192x64x1x32_0_0_0_0 slices_S8192x64x2x32_S8192x64x1x32_0_0_1_0 shapeCasts_S8192x64x1x32_S8192x64x32 bcast_S8192x64x32_S8192x64x1x32_0_1_3 concatenates_S8192x64x1x32_S8192x64x1x32_S8192x64x2x32_d2) shapeCasts_S8192x64x2x32_S8192x32x2x64

/-- After stage 7: blocks of two halves of 128 entries. -/
def X7 (A : FVec Ideal S4x2048x4096 .f32) : FVec Ideal S8192x16x2x128 .f32 :=
  shapeCast S8192x16x2x128 (stage (R := 8192) (q := 32) (h := 64) (X6 A) slices_S8192x32x2x64_S8192x32x1x64_0_0_0_0 slices_S8192x32x2x64_S8192x32x1x64_0_0_1_0 shapeCasts_S8192x32x1x64_S8192x32x64 bcast_S8192x32x64_S8192x32x1x64_0_1_3 concatenates_S8192x32x1x64_S8192x32x1x64_S8192x32x2x64_d2) shapeCasts_S8192x32x2x64_S8192x16x2x128

/-- After stage 8: blocks of two halves of 256 entries. -/
def X8 (A : FVec Ideal S4x2048x4096 .f32) : FVec Ideal S8192x8x2x256 .f32 :=
  shapeCast S8192x8x2x256 (stage (R := 8192) (q := 16) (h := 128) (X7 A) slices_S8192x16x2x128_S8192x16x1x128_0_0_0_0 slices_S8192x16x2x128_S8192x16x1x128_0_0_1_0 shapeCasts_S8192x16x1x128_S8192x16x128 bcast_S8192x16x128_S8192x16x1x128_0_1_3 concatenates_S8192x16x1x128_S8192x16x1x128_S8192x16x2x128_d2) shapeCasts_S8192x16x2x128_S8192x8x2x256

/-- After stage 9: blocks of two halves of 512 entries. -/
def X9 (A : FVec Ideal S4x2048x4096 .f32) : FVec Ideal S8192x4x2x512 .f32 :=
  shapeCast S8192x4x2x512 (stage (R := 8192) (q := 8) (h := 256) (X8 A) slices_S8192x8x2x256_S8192x8x1x256_0_0_0_0 slices_S8192x8x2x256_S8192x8x1x256_0_0_1_0 shapeCasts_S8192x8x1x256_S8192x8x256 bcast_S8192x8x256_S8192x8x1x256_0_1_3 concatenates_S8192x8x1x256_S8192x8x1x256_S8192x8x2x256_d2) shapeCasts_S8192x8x2x256_S8192x4x2x512

/-- After stage 10: blocks of two halves of 1024 entries. -/
def X10 (A : FVec Ideal S4x2048x4096 .f32) : FVec Ideal S8192x2x2x1024 .f32 :=
  shapeCast S8192x2x2x1024 (stage (R := 8192) (q := 4) (h := 512) (X9 A) slices_S8192x4x2x512_S8192x4x1x512_0_0_0_0 slices_S8192x4x2x512_S8192x4x1x512_0_0_1_0 shapeCasts_S8192x4x1x512_S8192x4x512 bcast_S8192x4x512_S8192x4x1x512_0_1_3 concatenates_S8192x4x1x512_S8192x4x1x512_S8192x4x2x512_d2) shapeCasts_S8192x4x2x512_S8192x2x2x1024

/-- After stage 11: blocks of two halves of 2048 entries. -/
def X11 (A : FVec Ideal S4x2048x4096 .f32) : FVec Ideal S8192x1x2x2048 .f32 :=
  shapeCast S8192x1x2x2048 (stage (R := 8192) (q := 2) (h := 1024) (X10 A) slices_S8192x2x2x1024_S8192x2x1x1024_0_0_0_0 slices_S8192x2x2x1024_S8192x2x1x1024_0_0_1_0 shapeCasts_S8192x2x1x1024_S8192x2x1024 bcast_S8192x2x1024_S8192x2x1x1024_0_1_3 concatenates_S8192x2x1x1024_S8192x2x1x1024_S8192x2x2x1024_d2) shapeCasts_S8192x2x2x1024_S8192x1x2x2048

/-- The rotated activations: the twelfth stage, re-laid as [4, 2048, 4096], scaled by 2⁻⁶. -/
def Xrot (A : FVec Ideal S4x2048x4096 .f32) : FVec Ideal S4x2048x4096 .f32 :=
  mulf (shapeCast S4x2048x4096 (stage (R := 8192) (q := 1) (h := 2048) (X11 A) slices_S8192x1x2x2048_S8192x1x1x2048_0_0_0_0 slices_S8192x1x2x2048_S8192x1x1x2048_0_0_1_0 shapeCasts_S8192x1x1x2048_S8192x1x2048 bcast_S8192x1x2048_S8192x1x1x2048_0_1_3 concatenates_S8192x1x1x2048_S8192x1x1x2048_S8192x1x2x2048_d2) shapeCasts_S8192x1x2x2048_S4x2048x4096)
    (broadcastInDim S4x2048x4096 ![] bcast_S_S4x2048x4096 (constant S_ .f32 0x3C800000#32))

/-- The reference's result array, of its three arguments. -/
def refOut (A : FVec Ideal S4x2048x4096 .f32) (W : FVec Ideal S11008x4096 .f32) (B : FVec Ideal S11008 .f32) : FVec Ideal S4x2048x11008 .f32 :=
  addf (Host.dotGeneral dot_S4x2048x4096_S11008x4096_S4x2048x11008_2_1_01_0_n_n none (Xrot A) W)
    (broadcastInDim S4x2048x11008 ![0, 1, 2] bcast_S1x1x11008_S4x2048x11008_0_1_2
      (broadcastInDim S1x1x11008 ![2] bcast_S11008_S1x1x11008_2 B))

/-! ## The host lines -/

variable {F : FTy → Type} [FloatOps F]

/-- The two lines that re-lay the input. -/
abbrev pre : List (HloOp τ sig (Elt F)) :=
  [ StableHlo.reshape main_arg0 main_v0 rfl shapeCasts_S4x2048x4096_S8192x4096,
    StableHlo.reshape main_v0 main_v1 rfl shapeCasts_S8192x4096_S8192x2048x2x1 ]

/-- The ten lines of stage 1. -/
abbrev seg0 : List (HloOp τ sig (Elt F)) :=
  [ StableHlo.unary main_v1 main_v2 ((extractStridedSlice S8192x2048x1x1 ![0, 0, 0, 0] · slices_S8192x2048x2x1_S8192x2048x1x1_0_0_0_0) : (⟨S8192x2048x2x1, .f32⟩ : BufTy).Contents (Elt F) → (⟨S8192x2048x1x1, .f32⟩ : BufTy).Contents (Elt F)),
    StableHlo.reshape main_v2 main_v3 rfl shapeCasts_S8192x2048x1x1_S8192x2048x1,
    StableHlo.unary main_v1 main_v4 ((extractStridedSlice S8192x2048x1x1 ![0, 0, 1, 0] · slices_S8192x2048x2x1_S8192x2048x1x1_0_0_1_0) : (⟨S8192x2048x2x1, .f32⟩ : BufTy).Contents (Elt F) → (⟨S8192x2048x1x1, .f32⟩ : BufTy).Contents (Elt F)),
    StableHlo.reshape main_v4 main_v5 rfl shapeCasts_S8192x2048x1x1_S8192x2048x1,
    StableHlo.binary main_v3 main_v5 main_v6 (addf : (⟨S8192x2048x1, .f32⟩ : BufTy).Contents (Elt F) → (⟨S8192x2048x1, .f32⟩ : BufTy).Contents (Elt F) → (⟨S8192x2048x1, .f32⟩ : BufTy).Contents (Elt F)),
    StableHlo.binary main_v3 main_v5 main_v7 (subf : (⟨S8192x2048x1, .f32⟩ : BufTy).Contents (Elt F) → (⟨S8192x2048x1, .f32⟩ : BufTy).Contents (Elt F) → (⟨S8192x2048x1, .f32⟩ : BufTy).Contents (Elt F)),
    StableHlo.unary main_v6 main_v8 (broadcastInDim S8192x2048x1x1 ![0, 1, 3] bcast_S8192x2048x1_S8192x2048x1x1_0_1_3 : (⟨S8192x2048x1, .f32⟩ : BufTy).Contents (Elt F) → (⟨S8192x2048x1x1, .f32⟩ : BufTy).Contents (Elt F)),
    StableHlo.unary main_v7 main_v9 (broadcastInDim S8192x2048x1x1 ![0, 1, 3] bcast_S8192x2048x1_S8192x2048x1x1_0_1_3 : (⟨S8192x2048x1, .f32⟩ : BufTy).Contents (Elt F) → (⟨S8192x2048x1x1, .f32⟩ : BufTy).Contents (Elt F)),
    StableHlo.binary main_v8 main_v9 main_v10 ((fun a b => concatenate S8192x2048x2x1 2 [⟨S8192x2048x1x1, a⟩, ⟨S8192x2048x1x1, b⟩] concatenates_S8192x2048x1x1_S8192x2048x1x1_S8192x2048x2x1_d2) : (⟨S8192x2048x1x1, .f32⟩ : BufTy).Contents (Elt F) → (⟨S8192x2048x1x1, .f32⟩ : BufTy).Contents (Elt F) → (⟨S8192x2048x2x1, .f32⟩ : BufTy).Contents (Elt F)),
    StableHlo.reshape main_v10 main_v11 rfl shapeCasts_S8192x2048x2x1_S8192x1024x2x2 ]

/-- The ten lines of stage 2. -/
abbrev seg1 : List (HloOp τ sig (Elt F)) :=
  [ StableHlo.unary main_v11 main_v12 ((extractStridedSlice S8192x1024x1x2 ![0, 0, 0, 0] · slices_S8192x1024x2x2_S8192x1024x1x2_0_0_0_0) : (⟨S8192x1024x2x2, .f32⟩ : BufTy).Contents (Elt F) → (⟨S8192x1024x1x2, .f32⟩ : BufTy).Contents (Elt F)),
    StableHlo.reshape main_v12 main_v13 rfl shapeCasts_S8192x1024x1x2_S8192x1024x2,
    StableHlo.unary main_v11 main_v14 ((extractStridedSlice S8192x1024x1x2 ![0, 0, 1, 0] · slices_S8192x1024x2x2_S8192x1024x1x2_0_0_1_0) : (⟨S8192x1024x2x2, .f32⟩ : BufTy).Contents (Elt F) → (⟨S8192x1024x1x2, .f32⟩ : BufTy).Contents (Elt F)),
    StableHlo.reshape main_v14 main_v15 rfl shapeCasts_S8192x1024x1x2_S8192x1024x2,
    StableHlo.binary main_v13 main_v15 main_v16 (addf : (⟨S8192x1024x2, .f32⟩ : BufTy).Contents (Elt F) → (⟨S8192x1024x2, .f32⟩ : BufTy).Contents (Elt F) → (⟨S8192x1024x2, .f32⟩ : BufTy).Contents (Elt F)),
    StableHlo.binary main_v13 main_v15 main_v17 (subf : (⟨S8192x1024x2, .f32⟩ : BufTy).Contents (Elt F) → (⟨S8192x1024x2, .f32⟩ : BufTy).Contents (Elt F) → (⟨S8192x1024x2, .f32⟩ : BufTy).Contents (Elt F)),
    StableHlo.unary main_v16 main_v18 (broadcastInDim S8192x1024x1x2 ![0, 1, 3] bcast_S8192x1024x2_S8192x1024x1x2_0_1_3 : (⟨S8192x1024x2, .f32⟩ : BufTy).Contents (Elt F) → (⟨S8192x1024x1x2, .f32⟩ : BufTy).Contents (Elt F)),
    StableHlo.unary main_v17 main_v19 (broadcastInDim S8192x1024x1x2 ![0, 1, 3] bcast_S8192x1024x2_S8192x1024x1x2_0_1_3 : (⟨S8192x1024x2, .f32⟩ : BufTy).Contents (Elt F) → (⟨S8192x1024x1x2, .f32⟩ : BufTy).Contents (Elt F)),
    StableHlo.binary main_v18 main_v19 main_v20 ((fun a b => concatenate S8192x1024x2x2 2 [⟨S8192x1024x1x2, a⟩, ⟨S8192x1024x1x2, b⟩] concatenates_S8192x1024x1x2_S8192x1024x1x2_S8192x1024x2x2_d2) : (⟨S8192x1024x1x2, .f32⟩ : BufTy).Contents (Elt F) → (⟨S8192x1024x1x2, .f32⟩ : BufTy).Contents (Elt F) → (⟨S8192x1024x2x2, .f32⟩ : BufTy).Contents (Elt F)),
    StableHlo.reshape main_v20 main_v21 rfl shapeCasts_S8192x1024x2x2_S8192x512x2x4 ]

/-- The ten lines of stage 3. -/
abbrev seg2 : List (HloOp τ sig (Elt F)) :=
  [ StableHlo.unary main_v21 main_v22 ((extractStridedSlice S8192x512x1x4 ![0, 0, 0, 0] · slices_S8192x512x2x4_S8192x512x1x4_0_0_0_0) : (⟨S8192x512x2x4, .f32⟩ : BufTy).Contents (Elt F) → (⟨S8192x512x1x4, .f32⟩ : BufTy).Contents (Elt F)),
    StableHlo.reshape main_v22 main_v23 rfl shapeCasts_S8192x512x1x4_S8192x512x4,
    StableHlo.unary main_v21 main_v24 ((extractStridedSlice S8192x512x1x4 ![0, 0, 1, 0] · slices_S8192x512x2x4_S8192x512x1x4_0_0_1_0) : (⟨S8192x512x2x4, .f32⟩ : BufTy).Contents (Elt F) → (⟨S8192x512x1x4, .f32⟩ : BufTy).Contents (Elt F)),
    StableHlo.reshape main_v24 main_v25 rfl shapeCasts_S8192x512x1x4_S8192x512x4,
    StableHlo.binary main_v23 main_v25 main_v26 (addf : (⟨S8192x512x4, .f32⟩ : BufTy).Contents (Elt F) → (⟨S8192x512x4, .f32⟩ : BufTy).Contents (Elt F) → (⟨S8192x512x4, .f32⟩ : BufTy).Contents (Elt F)),
    StableHlo.binary main_v23 main_v25 main_v27 (subf : (⟨S8192x512x4, .f32⟩ : BufTy).Contents (Elt F) → (⟨S8192x512x4, .f32⟩ : BufTy).Contents (Elt F) → (⟨S8192x512x4, .f32⟩ : BufTy).Contents (Elt F)),
    StableHlo.unary main_v26 main_v28 (broadcastInDim S8192x512x1x4 ![0, 1, 3] bcast_S8192x512x4_S8192x512x1x4_0_1_3 : (⟨S8192x512x4, .f32⟩ : BufTy).Contents (Elt F) → (⟨S8192x512x1x4, .f32⟩ : BufTy).Contents (Elt F)),
    StableHlo.unary main_v27 main_v29 (broadcastInDim S8192x512x1x4 ![0, 1, 3] bcast_S8192x512x4_S8192x512x1x4_0_1_3 : (⟨S8192x512x4, .f32⟩ : BufTy).Contents (Elt F) → (⟨S8192x512x1x4, .f32⟩ : BufTy).Contents (Elt F)),
    StableHlo.binary main_v28 main_v29 main_v30 ((fun a b => concatenate S8192x512x2x4 2 [⟨S8192x512x1x4, a⟩, ⟨S8192x512x1x4, b⟩] concatenates_S8192x512x1x4_S8192x512x1x4_S8192x512x2x4_d2) : (⟨S8192x512x1x4, .f32⟩ : BufTy).Contents (Elt F) → (⟨S8192x512x1x4, .f32⟩ : BufTy).Contents (Elt F) → (⟨S8192x512x2x4, .f32⟩ : BufTy).Contents (Elt F)),
    StableHlo.reshape main_v30 main_v31 rfl shapeCasts_S8192x512x2x4_S8192x256x2x8 ]

/-- The ten lines of stage 4. -/
abbrev seg3 : List (HloOp τ sig (Elt F)) :=
  [ StableHlo.unary main_v31 main_v32 ((extractStridedSlice S8192x256x1x8 ![0, 0, 0, 0] · slices_S8192x256x2x8_S8192x256x1x8_0_0_0_0) : (⟨S8192x256x2x8, .f32⟩ : BufTy).Contents (Elt F) → (⟨S8192x256x1x8, .f32⟩ : BufTy).Contents (Elt F)),
    StableHlo.reshape main_v32 main_v33 rfl shapeCasts_S8192x256x1x8_S8192x256x8,
    StableHlo.unary main_v31 main_v34 ((extractStridedSlice S8192x256x1x8 ![0, 0, 1, 0] · slices_S8192x256x2x8_S8192x256x1x8_0_0_1_0) : (⟨S8192x256x2x8, .f32⟩ : BufTy).Contents (Elt F) → (⟨S8192x256x1x8, .f32⟩ : BufTy).Contents (Elt F)),
    StableHlo.reshape main_v34 main_v35 rfl shapeCasts_S8192x256x1x8_S8192x256x8,
    StableHlo.binary main_v33 main_v35 main_v36 (addf : (⟨S8192x256x8, .f32⟩ : BufTy).Contents (Elt F) → (⟨S8192x256x8, .f32⟩ : BufTy).Contents (Elt F) → (⟨S8192x256x8, .f32⟩ : BufTy).Contents (Elt F)),
    StableHlo.binary main_v33 main_v35 main_v37 (subf : (⟨S8192x256x8, .f32⟩ : BufTy).Contents (Elt F) → (⟨S8192x256x8, .f32⟩ : BufTy).Contents (Elt F) → (⟨S8192x256x8, .f32⟩ : BufTy).Contents (Elt F)),
    StableHlo.unary main_v36 main_v38 (broadcastInDim S8192x256x1x8 ![0, 1, 3] bcast_S8192x256x8_S8192x256x1x8_0_1_3 : (⟨S8192x256x8, .f32⟩ : BufTy).Contents (Elt F) → (⟨S8192x256x1x8, .f32⟩ : BufTy).Contents (Elt F)),
    StableHlo.unary main_v37 main_v39 (broadcastInDim S8192x256x1x8 ![0, 1, 3] bcast_S8192x256x8_S8192x256x1x8_0_1_3 : (⟨S8192x256x8, .f32⟩ : BufTy).Contents (Elt F) → (⟨S8192x256x1x8, .f32⟩ : BufTy).Contents (Elt F)),
    StableHlo.binary main_v38 main_v39 main_v40 ((fun a b => concatenate S8192x256x2x8 2 [⟨S8192x256x1x8, a⟩, ⟨S8192x256x1x8, b⟩] concatenates_S8192x256x1x8_S8192x256x1x8_S8192x256x2x8_d2) : (⟨S8192x256x1x8, .f32⟩ : BufTy).Contents (Elt F) → (⟨S8192x256x1x8, .f32⟩ : BufTy).Contents (Elt F) → (⟨S8192x256x2x8, .f32⟩ : BufTy).Contents (Elt F)),
    StableHlo.reshape main_v40 main_v41 rfl shapeCasts_S8192x256x2x8_S8192x128x2x16 ]

/-- The ten lines of stage 5. -/
abbrev seg4 : List (HloOp τ sig (Elt F)) :=
  [ StableHlo.unary main_v41 main_v42 ((extractStridedSlice S8192x128x1x16 ![0, 0, 0, 0] · slices_S8192x128x2x16_S8192x128x1x16_0_0_0_0) : (⟨S8192x128x2x16, .f32⟩ : BufTy).Contents (Elt F) → (⟨S8192x128x1x16, .f32⟩ : BufTy).Contents (Elt F)),
    StableHlo.reshape main_v42 main_v43 rfl shapeCasts_S8192x128x1x16_S8192x128x16,
    StableHlo.unary main_v41 main_v44 ((extractStridedSlice S8192x128x1x16 ![0, 0, 1, 0] · slices_S8192x128x2x16_S8192x128x1x16_0_0_1_0) : (⟨S8192x128x2x16, .f32⟩ : BufTy).Contents (Elt F) → (⟨S8192x128x1x16, .f32⟩ : BufTy).Contents (Elt F)),
    StableHlo.reshape main_v44 main_v45 rfl shapeCasts_S8192x128x1x16_S8192x128x16,
    StableHlo.binary main_v43 main_v45 main_v46 (addf : (⟨S8192x128x16, .f32⟩ : BufTy).Contents (Elt F) → (⟨S8192x128x16, .f32⟩ : BufTy).Contents (Elt F) → (⟨S8192x128x16, .f32⟩ : BufTy).Contents (Elt F)),
    StableHlo.binary main_v43 main_v45 main_v47 (subf : (⟨S8192x128x16, .f32⟩ : BufTy).Contents (Elt F) → (⟨S8192x128x16, .f32⟩ : BufTy).Contents (Elt F) → (⟨S8192x128x16, .f32⟩ : BufTy).Contents (Elt F)),
    StableHlo.unary main_v46 main_v48 (broadcastInDim S8192x128x1x16 ![0, 1, 3] bcast_S8192x128x16_S8192x128x1x16_0_1_3 : (⟨S8192x128x16, .f32⟩ : BufTy).Contents (Elt F) → (⟨S8192x128x1x16, .f32⟩ : BufTy).Contents (Elt F)),
    StableHlo.unary main_v47 main_v49 (broadcastInDim S8192x128x1x16 ![0, 1, 3] bcast_S8192x128x16_S8192x128x1x16_0_1_3 : (⟨S8192x128x16, .f32⟩ : BufTy).Contents (Elt F) → (⟨S8192x128x1x16, .f32⟩ : BufTy).Contents (Elt F)),
    StableHlo.binary main_v48 main_v49 main_v50 ((fun a b => concatenate S8192x128x2x16 2 [⟨S8192x128x1x16, a⟩, ⟨S8192x128x1x16, b⟩] concatenates_S8192x128x1x16_S8192x128x1x16_S8192x128x2x16_d2) : (⟨S8192x128x1x16, .f32⟩ : BufTy).Contents (Elt F) → (⟨S8192x128x1x16, .f32⟩ : BufTy).Contents (Elt F) → (⟨S8192x128x2x16, .f32⟩ : BufTy).Contents (Elt F)),
    StableHlo.reshape main_v50 main_v51 rfl shapeCasts_S8192x128x2x16_S8192x64x2x32 ]

/-- The ten lines of stage 6. -/
abbrev seg5 : List (HloOp τ sig (Elt F)) :=
  [ StableHlo.unary main_v51 main_v52 ((extractStridedSlice S8192x64x1x32 ![0, 0, 0, 0] · slices_S8192x64x2x32_S8192x64x1x32_0_0_0_0) : (⟨S8192x64x2x32, .f32⟩ : BufTy).Contents (Elt F) → (⟨S8192x64x1x32, .f32⟩ : BufTy).Contents (Elt F)),
    StableHlo.reshape main_v52 main_v53 rfl shapeCasts_S8192x64x1x32_S8192x64x32,
    StableHlo.unary main_v51 main_v54 ((extractStridedSlice S8192x64x1x32 ![0, 0, 1, 0] · slices_S8192x64x2x32_S8192x64x1x32_0_0_1_0) : (⟨S8192x64x2x32, .f32⟩ : BufTy).Contents (Elt F) → (⟨S8192x64x1x32, .f32⟩ : BufTy).Contents (Elt F)),
    StableHlo.reshape main_v54 main_v55 rfl shapeCasts_S8192x64x1x32_S8192x64x32,
    StableHlo.binary main_v53 main_v55 main_v56 (addf : (⟨S8192x64x32, .f32⟩ : BufTy).Contents (Elt F) → (⟨S8192x64x32, .f32⟩ : BufTy).Contents (Elt F) → (⟨S8192x64x32, .f32⟩ : BufTy).Contents (Elt F)),
    StableHlo.binary main_v53 main_v55 main_v57 (subf : (⟨S8192x64x32, .f32⟩ : BufTy).Contents (Elt F) → (⟨S8192x64x32, .f32⟩ : BufTy).Contents (Elt F) → (⟨S8192x64x32, .f32⟩ : BufTy).Contents (Elt F)),
    StableHlo.unary main_v56 main_v58 (broadcastInDim S8192x64x1x32 ![0, 1, 3] bcast_S8192x64x32_S8192x64x1x32_0_1_3 : (⟨S8192x64x32, .f32⟩ : BufTy).Contents (Elt F) → (⟨S8192x64x1x32, .f32⟩ : BufTy).Contents (Elt F)),
    StableHlo.unary main_v57 main_v59 (broadcastInDim S8192x64x1x32 ![0, 1, 3] bcast_S8192x64x32_S8192x64x1x32_0_1_3 : (⟨S8192x64x32, .f32⟩ : BufTy).Contents (Elt F) → (⟨S8192x64x1x32, .f32⟩ : BufTy).Contents (Elt F)),
    StableHlo.binary main_v58 main_v59 main_v60 ((fun a b => concatenate S8192x64x2x32 2 [⟨S8192x64x1x32, a⟩, ⟨S8192x64x1x32, b⟩] concatenates_S8192x64x1x32_S8192x64x1x32_S8192x64x2x32_d2) : (⟨S8192x64x1x32, .f32⟩ : BufTy).Contents (Elt F) → (⟨S8192x64x1x32, .f32⟩ : BufTy).Contents (Elt F) → (⟨S8192x64x2x32, .f32⟩ : BufTy).Contents (Elt F)),
    StableHlo.reshape main_v60 main_v61 rfl shapeCasts_S8192x64x2x32_S8192x32x2x64 ]

/-- The ten lines of stage 7. -/
abbrev seg6 : List (HloOp τ sig (Elt F)) :=
  [ StableHlo.unary main_v61 main_v62 ((extractStridedSlice S8192x32x1x64 ![0, 0, 0, 0] · slices_S8192x32x2x64_S8192x32x1x64_0_0_0_0) : (⟨S8192x32x2x64, .f32⟩ : BufTy).Contents (Elt F) → (⟨S8192x32x1x64, .f32⟩ : BufTy).Contents (Elt F)),
    StableHlo.reshape main_v62 main_v63 rfl shapeCasts_S8192x32x1x64_S8192x32x64,
    StableHlo.unary main_v61 main_v64 ((extractStridedSlice S8192x32x1x64 ![0, 0, 1, 0] · slices_S8192x32x2x64_S8192x32x1x64_0_0_1_0) : (⟨S8192x32x2x64, .f32⟩ : BufTy).Contents (Elt F) → (⟨S8192x32x1x64, .f32⟩ : BufTy).Contents (Elt F)),
    StableHlo.reshape main_v64 main_v65 rfl shapeCasts_S8192x32x1x64_S8192x32x64,
    StableHlo.binary main_v63 main_v65 main_v66 (addf : (⟨S8192x32x64, .f32⟩ : BufTy).Contents (Elt F) → (⟨S8192x32x64, .f32⟩ : BufTy).Contents (Elt F) → (⟨S8192x32x64, .f32⟩ : BufTy).Contents (Elt F)),
    StableHlo.binary main_v63 main_v65 main_v67 (subf : (⟨S8192x32x64, .f32⟩ : BufTy).Contents (Elt F) → (⟨S8192x32x64, .f32⟩ : BufTy).Contents (Elt F) → (⟨S8192x32x64, .f32⟩ : BufTy).Contents (Elt F)),
    StableHlo.unary main_v66 main_v68 (broadcastInDim S8192x32x1x64 ![0, 1, 3] bcast_S8192x32x64_S8192x32x1x64_0_1_3 : (⟨S8192x32x64, .f32⟩ : BufTy).Contents (Elt F) → (⟨S8192x32x1x64, .f32⟩ : BufTy).Contents (Elt F)),
    StableHlo.unary main_v67 main_v69 (broadcastInDim S8192x32x1x64 ![0, 1, 3] bcast_S8192x32x64_S8192x32x1x64_0_1_3 : (⟨S8192x32x64, .f32⟩ : BufTy).Contents (Elt F) → (⟨S8192x32x1x64, .f32⟩ : BufTy).Contents (Elt F)),
    StableHlo.binary main_v68 main_v69 main_v70 ((fun a b => concatenate S8192x32x2x64 2 [⟨S8192x32x1x64, a⟩, ⟨S8192x32x1x64, b⟩] concatenates_S8192x32x1x64_S8192x32x1x64_S8192x32x2x64_d2) : (⟨S8192x32x1x64, .f32⟩ : BufTy).Contents (Elt F) → (⟨S8192x32x1x64, .f32⟩ : BufTy).Contents (Elt F) → (⟨S8192x32x2x64, .f32⟩ : BufTy).Contents (Elt F)),
    StableHlo.reshape main_v70 main_v71 rfl shapeCasts_S8192x32x2x64_S8192x16x2x128 ]

/-- The ten lines of stage 8. -/
abbrev seg7 : List (HloOp τ sig (Elt F)) :=
  [ StableHlo.unary main_v71 main_v72 ((extractStridedSlice S8192x16x1x128 ![0, 0, 0, 0] · slices_S8192x16x2x128_S8192x16x1x128_0_0_0_0) : (⟨S8192x16x2x128, .f32⟩ : BufTy).Contents (Elt F) → (⟨S8192x16x1x128, .f32⟩ : BufTy).Contents (Elt F)),
    StableHlo.reshape main_v72 main_v73 rfl shapeCasts_S8192x16x1x128_S8192x16x128,
    StableHlo.unary main_v71 main_v74 ((extractStridedSlice S8192x16x1x128 ![0, 0, 1, 0] · slices_S8192x16x2x128_S8192x16x1x128_0_0_1_0) : (⟨S8192x16x2x128, .f32⟩ : BufTy).Contents (Elt F) → (⟨S8192x16x1x128, .f32⟩ : BufTy).Contents (Elt F)),
    StableHlo.reshape main_v74 main_v75 rfl shapeCasts_S8192x16x1x128_S8192x16x128,
    StableHlo.binary main_v73 main_v75 main_v76 (addf : (⟨S8192x16x128, .f32⟩ : BufTy).Contents (Elt F) → (⟨S8192x16x128, .f32⟩ : BufTy).Contents (Elt F) → (⟨S8192x16x128, .f32⟩ : BufTy).Contents (Elt F)),
    StableHlo.binary main_v73 main_v75 main_v77 (subf : (⟨S8192x16x128, .f32⟩ : BufTy).Contents (Elt F) → (⟨S8192x16x128, .f32⟩ : BufTy).Contents (Elt F) → (⟨S8192x16x128, .f32⟩ : BufTy).Contents (Elt F)),
    StableHlo.unary main_v76 main_v78 (broadcastInDim S8192x16x1x128 ![0, 1, 3] bcast_S8192x16x128_S8192x16x1x128_0_1_3 : (⟨S8192x16x128, .f32⟩ : BufTy).Contents (Elt F) → (⟨S8192x16x1x128, .f32⟩ : BufTy).Contents (Elt F)),
    StableHlo.unary main_v77 main_v79 (broadcastInDim S8192x16x1x128 ![0, 1, 3] bcast_S8192x16x128_S8192x16x1x128_0_1_3 : (⟨S8192x16x128, .f32⟩ : BufTy).Contents (Elt F) → (⟨S8192x16x1x128, .f32⟩ : BufTy).Contents (Elt F)),
    StableHlo.binary main_v78 main_v79 main_v80 ((fun a b => concatenate S8192x16x2x128 2 [⟨S8192x16x1x128, a⟩, ⟨S8192x16x1x128, b⟩] concatenates_S8192x16x1x128_S8192x16x1x128_S8192x16x2x128_d2) : (⟨S8192x16x1x128, .f32⟩ : BufTy).Contents (Elt F) → (⟨S8192x16x1x128, .f32⟩ : BufTy).Contents (Elt F) → (⟨S8192x16x2x128, .f32⟩ : BufTy).Contents (Elt F)),
    StableHlo.reshape main_v80 main_v81 rfl shapeCasts_S8192x16x2x128_S8192x8x2x256 ]

/-- The ten lines of stage 9. -/
abbrev seg8 : List (HloOp τ sig (Elt F)) :=
  [ StableHlo.unary main_v81 main_v82 ((extractStridedSlice S8192x8x1x256 ![0, 0, 0, 0] · slices_S8192x8x2x256_S8192x8x1x256_0_0_0_0) : (⟨S8192x8x2x256, .f32⟩ : BufTy).Contents (Elt F) → (⟨S8192x8x1x256, .f32⟩ : BufTy).Contents (Elt F)),
    StableHlo.reshape main_v82 main_v83 rfl shapeCasts_S8192x8x1x256_S8192x8x256,
    StableHlo.unary main_v81 main_v84 ((extractStridedSlice S8192x8x1x256 ![0, 0, 1, 0] · slices_S8192x8x2x256_S8192x8x1x256_0_0_1_0) : (⟨S8192x8x2x256, .f32⟩ : BufTy).Contents (Elt F) → (⟨S8192x8x1x256, .f32⟩ : BufTy).Contents (Elt F)),
    StableHlo.reshape main_v84 main_v85 rfl shapeCasts_S8192x8x1x256_S8192x8x256,
    StableHlo.binary main_v83 main_v85 main_v86 (addf : (⟨S8192x8x256, .f32⟩ : BufTy).Contents (Elt F) → (⟨S8192x8x256, .f32⟩ : BufTy).Contents (Elt F) → (⟨S8192x8x256, .f32⟩ : BufTy).Contents (Elt F)),
    StableHlo.binary main_v83 main_v85 main_v87 (subf : (⟨S8192x8x256, .f32⟩ : BufTy).Contents (Elt F) → (⟨S8192x8x256, .f32⟩ : BufTy).Contents (Elt F) → (⟨S8192x8x256, .f32⟩ : BufTy).Contents (Elt F)),
    StableHlo.unary main_v86 main_v88 (broadcastInDim S8192x8x1x256 ![0, 1, 3] bcast_S8192x8x256_S8192x8x1x256_0_1_3 : (⟨S8192x8x256, .f32⟩ : BufTy).Contents (Elt F) → (⟨S8192x8x1x256, .f32⟩ : BufTy).Contents (Elt F)),
    StableHlo.unary main_v87 main_v89 (broadcastInDim S8192x8x1x256 ![0, 1, 3] bcast_S8192x8x256_S8192x8x1x256_0_1_3 : (⟨S8192x8x256, .f32⟩ : BufTy).Contents (Elt F) → (⟨S8192x8x1x256, .f32⟩ : BufTy).Contents (Elt F)),
    StableHlo.binary main_v88 main_v89 main_v90 ((fun a b => concatenate S8192x8x2x256 2 [⟨S8192x8x1x256, a⟩, ⟨S8192x8x1x256, b⟩] concatenates_S8192x8x1x256_S8192x8x1x256_S8192x8x2x256_d2) : (⟨S8192x8x1x256, .f32⟩ : BufTy).Contents (Elt F) → (⟨S8192x8x1x256, .f32⟩ : BufTy).Contents (Elt F) → (⟨S8192x8x2x256, .f32⟩ : BufTy).Contents (Elt F)),
    StableHlo.reshape main_v90 main_v91 rfl shapeCasts_S8192x8x2x256_S8192x4x2x512 ]

/-- The ten lines of stage 10. -/
abbrev seg9 : List (HloOp τ sig (Elt F)) :=
  [ StableHlo.unary main_v91 main_v92 ((extractStridedSlice S8192x4x1x512 ![0, 0, 0, 0] · slices_S8192x4x2x512_S8192x4x1x512_0_0_0_0) : (⟨S8192x4x2x512, .f32⟩ : BufTy).Contents (Elt F) → (⟨S8192x4x1x512, .f32⟩ : BufTy).Contents (Elt F)),
    StableHlo.reshape main_v92 main_v93 rfl shapeCasts_S8192x4x1x512_S8192x4x512,
    StableHlo.unary main_v91 main_v94 ((extractStridedSlice S8192x4x1x512 ![0, 0, 1, 0] · slices_S8192x4x2x512_S8192x4x1x512_0_0_1_0) : (⟨S8192x4x2x512, .f32⟩ : BufTy).Contents (Elt F) → (⟨S8192x4x1x512, .f32⟩ : BufTy).Contents (Elt F)),
    StableHlo.reshape main_v94 main_v95 rfl shapeCasts_S8192x4x1x512_S8192x4x512,
    StableHlo.binary main_v93 main_v95 main_v96 (addf : (⟨S8192x4x512, .f32⟩ : BufTy).Contents (Elt F) → (⟨S8192x4x512, .f32⟩ : BufTy).Contents (Elt F) → (⟨S8192x4x512, .f32⟩ : BufTy).Contents (Elt F)),
    StableHlo.binary main_v93 main_v95 main_v97 (subf : (⟨S8192x4x512, .f32⟩ : BufTy).Contents (Elt F) → (⟨S8192x4x512, .f32⟩ : BufTy).Contents (Elt F) → (⟨S8192x4x512, .f32⟩ : BufTy).Contents (Elt F)),
    StableHlo.unary main_v96 main_v98 (broadcastInDim S8192x4x1x512 ![0, 1, 3] bcast_S8192x4x512_S8192x4x1x512_0_1_3 : (⟨S8192x4x512, .f32⟩ : BufTy).Contents (Elt F) → (⟨S8192x4x1x512, .f32⟩ : BufTy).Contents (Elt F)),
    StableHlo.unary main_v97 main_v99 (broadcastInDim S8192x4x1x512 ![0, 1, 3] bcast_S8192x4x512_S8192x4x1x512_0_1_3 : (⟨S8192x4x512, .f32⟩ : BufTy).Contents (Elt F) → (⟨S8192x4x1x512, .f32⟩ : BufTy).Contents (Elt F)),
    StableHlo.binary main_v98 main_v99 main_v100 ((fun a b => concatenate S8192x4x2x512 2 [⟨S8192x4x1x512, a⟩, ⟨S8192x4x1x512, b⟩] concatenates_S8192x4x1x512_S8192x4x1x512_S8192x4x2x512_d2) : (⟨S8192x4x1x512, .f32⟩ : BufTy).Contents (Elt F) → (⟨S8192x4x1x512, .f32⟩ : BufTy).Contents (Elt F) → (⟨S8192x4x2x512, .f32⟩ : BufTy).Contents (Elt F)),
    StableHlo.reshape main_v100 main_v101 rfl shapeCasts_S8192x4x2x512_S8192x2x2x1024 ]

/-- The ten lines of stage 11. -/
abbrev seg10 : List (HloOp τ sig (Elt F)) :=
  [ StableHlo.unary main_v101 main_v102 ((extractStridedSlice S8192x2x1x1024 ![0, 0, 0, 0] · slices_S8192x2x2x1024_S8192x2x1x1024_0_0_0_0) : (⟨S8192x2x2x1024, .f32⟩ : BufTy).Contents (Elt F) → (⟨S8192x2x1x1024, .f32⟩ : BufTy).Contents (Elt F)),
    StableHlo.reshape main_v102 main_v103 rfl shapeCasts_S8192x2x1x1024_S8192x2x1024,
    StableHlo.unary main_v101 main_v104 ((extractStridedSlice S8192x2x1x1024 ![0, 0, 1, 0] · slices_S8192x2x2x1024_S8192x2x1x1024_0_0_1_0) : (⟨S8192x2x2x1024, .f32⟩ : BufTy).Contents (Elt F) → (⟨S8192x2x1x1024, .f32⟩ : BufTy).Contents (Elt F)),
    StableHlo.reshape main_v104 main_v105 rfl shapeCasts_S8192x2x1x1024_S8192x2x1024,
    StableHlo.binary main_v103 main_v105 main_v106 (addf : (⟨S8192x2x1024, .f32⟩ : BufTy).Contents (Elt F) → (⟨S8192x2x1024, .f32⟩ : BufTy).Contents (Elt F) → (⟨S8192x2x1024, .f32⟩ : BufTy).Contents (Elt F)),
    StableHlo.binary main_v103 main_v105 main_v107 (subf : (⟨S8192x2x1024, .f32⟩ : BufTy).Contents (Elt F) → (⟨S8192x2x1024, .f32⟩ : BufTy).Contents (Elt F) → (⟨S8192x2x1024, .f32⟩ : BufTy).Contents (Elt F)),
    StableHlo.unary main_v106 main_v108 (broadcastInDim S8192x2x1x1024 ![0, 1, 3] bcast_S8192x2x1024_S8192x2x1x1024_0_1_3 : (⟨S8192x2x1024, .f32⟩ : BufTy).Contents (Elt F) → (⟨S8192x2x1x1024, .f32⟩ : BufTy).Contents (Elt F)),
    StableHlo.unary main_v107 main_v109 (broadcastInDim S8192x2x1x1024 ![0, 1, 3] bcast_S8192x2x1024_S8192x2x1x1024_0_1_3 : (⟨S8192x2x1024, .f32⟩ : BufTy).Contents (Elt F) → (⟨S8192x2x1x1024, .f32⟩ : BufTy).Contents (Elt F)),
    StableHlo.binary main_v108 main_v109 main_v110 ((fun a b => concatenate S8192x2x2x1024 2 [⟨S8192x2x1x1024, a⟩, ⟨S8192x2x1x1024, b⟩] concatenates_S8192x2x1x1024_S8192x2x1x1024_S8192x2x2x1024_d2) : (⟨S8192x2x1x1024, .f32⟩ : BufTy).Contents (Elt F) → (⟨S8192x2x1x1024, .f32⟩ : BufTy).Contents (Elt F) → (⟨S8192x2x2x1024, .f32⟩ : BufTy).Contents (Elt F)),
    StableHlo.reshape main_v110 main_v111 rfl shapeCasts_S8192x2x2x1024_S8192x1x2x2048 ]

/-- The ten lines of stage 12. -/
abbrev seg11 : List (HloOp τ sig (Elt F)) :=
  [ StableHlo.unary main_v111 main_v112 ((extractStridedSlice S8192x1x1x2048 ![0, 0, 0, 0] · slices_S8192x1x2x2048_S8192x1x1x2048_0_0_0_0) : (⟨S8192x1x2x2048, .f32⟩ : BufTy).Contents (Elt F) → (⟨S8192x1x1x2048, .f32⟩ : BufTy).Contents (Elt F)),
    StableHlo.reshape main_v112 main_v113 rfl shapeCasts_S8192x1x1x2048_S8192x1x2048,
    StableHlo.unary main_v111 main_v114 ((extractStridedSlice S8192x1x1x2048 ![0, 0, 1, 0] · slices_S8192x1x2x2048_S8192x1x1x2048_0_0_1_0) : (⟨S8192x1x2x2048, .f32⟩ : BufTy).Contents (Elt F) → (⟨S8192x1x1x2048, .f32⟩ : BufTy).Contents (Elt F)),
    StableHlo.reshape main_v114 main_v115 rfl shapeCasts_S8192x1x1x2048_S8192x1x2048,
    StableHlo.binary main_v113 main_v115 main_v116 (addf : (⟨S8192x1x2048, .f32⟩ : BufTy).Contents (Elt F) → (⟨S8192x1x2048, .f32⟩ : BufTy).Contents (Elt F) → (⟨S8192x1x2048, .f32⟩ : BufTy).Contents (Elt F)),
    StableHlo.binary main_v113 main_v115 main_v117 (subf : (⟨S8192x1x2048, .f32⟩ : BufTy).Contents (Elt F) → (⟨S8192x1x2048, .f32⟩ : BufTy).Contents (Elt F) → (⟨S8192x1x2048, .f32⟩ : BufTy).Contents (Elt F)),
    StableHlo.unary main_v116 main_v118 (broadcastInDim S8192x1x1x2048 ![0, 1, 3] bcast_S8192x1x2048_S8192x1x1x2048_0_1_3 : (⟨S8192x1x2048, .f32⟩ : BufTy).Contents (Elt F) → (⟨S8192x1x1x2048, .f32⟩ : BufTy).Contents (Elt F)),
    StableHlo.unary main_v117 main_v119 (broadcastInDim S8192x1x1x2048 ![0, 1, 3] bcast_S8192x1x2048_S8192x1x1x2048_0_1_3 : (⟨S8192x1x2048, .f32⟩ : BufTy).Contents (Elt F) → (⟨S8192x1x1x2048, .f32⟩ : BufTy).Contents (Elt F)),
    StableHlo.binary main_v118 main_v119 main_v120 ((fun a b => concatenate S8192x1x2x2048 2 [⟨S8192x1x1x2048, a⟩, ⟨S8192x1x1x2048, b⟩] concatenates_S8192x1x1x2048_S8192x1x1x2048_S8192x1x2x2048_d2) : (⟨S8192x1x1x2048, .f32⟩ : BufTy).Contents (Elt F) → (⟨S8192x1x1x2048, .f32⟩ : BufTy).Contents (Elt F) → (⟨S8192x1x2x2048, .f32⟩ : BufTy).Contents (Elt F)),
    StableHlo.reshape main_v120 main_v121 rfl shapeCasts_S8192x1x2x2048_S4x2048x4096 ]

/-- The seven closing lines: the scale, the contraction with the weight, the bias. -/
abbrev post : List (HloOp τ sig (Elt F)) :=
  [ StableHlo.nullary main_cst (constant S_ .f32 0x3C800000#32),
    StableHlo.unary main_cst main_v122 (broadcastInDim S4x2048x4096 ![] bcast_S_S4x2048x4096 : (⟨S_, .f32⟩ : BufTy).Contents (Elt F) → (⟨S4x2048x4096, .f32⟩ : BufTy).Contents (Elt F)),
    StableHlo.binary main_v121 main_v122 main_v123 (mulf : (⟨S4x2048x4096, .f32⟩ : BufTy).Contents (Elt F) → (⟨S4x2048x4096, .f32⟩ : BufTy).Contents (Elt F) → (⟨S4x2048x4096, .f32⟩ : BufTy).Contents (Elt F)),
    StableHlo.binary main_v123 main_arg1 main_v124 ((fun l r => Host.dotGeneral dot_S4x2048x4096_S11008x4096_S4x2048x11008_2_1_01_0_n_n none l r) : (⟨S4x2048x4096, .f32⟩ : BufTy).Contents (Elt F) → (⟨S11008x4096, .f32⟩ : BufTy).Contents (Elt F) → (⟨S4x2048x11008, .f32⟩ : BufTy).Contents (Elt F)),
    StableHlo.unary main_arg2 main_v125 (broadcastInDim S1x1x11008 ![2] bcast_S11008_S1x1x11008_2 : (⟨S11008, .f32⟩ : BufTy).Contents (Elt F) → (⟨S1x1x11008, .f32⟩ : BufTy).Contents (Elt F)),
    StableHlo.unary main_v125 main_v126 (broadcastInDim S4x2048x11008 ![0, 1, 2] bcast_S1x1x11008_S4x2048x11008_0_1_2 : (⟨S1x1x11008, .f32⟩ : BufTy).Contents (Elt F) → (⟨S4x2048x11008, .f32⟩ : BufTy).Contents (Elt F)),
    StableHlo.binary main_v124 main_v126 main_v127 (addf : (⟨S4x2048x11008, .f32⟩ : BufTy).Contents (Elt F) → (⟨S4x2048x11008, .f32⟩ : BufTy).Contents (Elt F) → (⟨S4x2048x11008, .f32⟩ : BufTy).Contents (Elt F)) ]

/-- @main's 129 host lines, in order. -/
abbrev ops : List (HloOp τ sig (Elt F)) :=
  [ StableHlo.reshape main_arg0 main_v0 rfl shapeCasts_S4x2048x4096_S8192x4096,
    StableHlo.reshape main_v0 main_v1 rfl shapeCasts_S8192x4096_S8192x2048x2x1,
    StableHlo.unary main_v1 main_v2 ((extractStridedSlice S8192x2048x1x1 ![0, 0, 0, 0] · slices_S8192x2048x2x1_S8192x2048x1x1_0_0_0_0) : (⟨S8192x2048x2x1, .f32⟩ : BufTy).Contents (Elt F) → (⟨S8192x2048x1x1, .f32⟩ : BufTy).Contents (Elt F)),
    StableHlo.reshape main_v2 main_v3 rfl shapeCasts_S8192x2048x1x1_S8192x2048x1,
    StableHlo.unary main_v1 main_v4 ((extractStridedSlice S8192x2048x1x1 ![0, 0, 1, 0] · slices_S8192x2048x2x1_S8192x2048x1x1_0_0_1_0) : (⟨S8192x2048x2x1, .f32⟩ : BufTy).Contents (Elt F) → (⟨S8192x2048x1x1, .f32⟩ : BufTy).Contents (Elt F)),
    StableHlo.reshape main_v4 main_v5 rfl shapeCasts_S8192x2048x1x1_S8192x2048x1,
    StableHlo.binary main_v3 main_v5 main_v6 (addf : (⟨S8192x2048x1, .f32⟩ : BufTy).Contents (Elt F) → (⟨S8192x2048x1, .f32⟩ : BufTy).Contents (Elt F) → (⟨S8192x2048x1, .f32⟩ : BufTy).Contents (Elt F)),
    StableHlo.binary main_v3 main_v5 main_v7 (subf : (⟨S8192x2048x1, .f32⟩ : BufTy).Contents (Elt F) → (⟨S8192x2048x1, .f32⟩ : BufTy).Contents (Elt F) → (⟨S8192x2048x1, .f32⟩ : BufTy).Contents (Elt F)),
    StableHlo.unary main_v6 main_v8 (broadcastInDim S8192x2048x1x1 ![0, 1, 3] bcast_S8192x2048x1_S8192x2048x1x1_0_1_3 : (⟨S8192x2048x1, .f32⟩ : BufTy).Contents (Elt F) → (⟨S8192x2048x1x1, .f32⟩ : BufTy).Contents (Elt F)),
    StableHlo.unary main_v7 main_v9 (broadcastInDim S8192x2048x1x1 ![0, 1, 3] bcast_S8192x2048x1_S8192x2048x1x1_0_1_3 : (⟨S8192x2048x1, .f32⟩ : BufTy).Contents (Elt F) → (⟨S8192x2048x1x1, .f32⟩ : BufTy).Contents (Elt F)),
    StableHlo.binary main_v8 main_v9 main_v10 ((fun a b => concatenate S8192x2048x2x1 2 [⟨S8192x2048x1x1, a⟩, ⟨S8192x2048x1x1, b⟩] concatenates_S8192x2048x1x1_S8192x2048x1x1_S8192x2048x2x1_d2) : (⟨S8192x2048x1x1, .f32⟩ : BufTy).Contents (Elt F) → (⟨S8192x2048x1x1, .f32⟩ : BufTy).Contents (Elt F) → (⟨S8192x2048x2x1, .f32⟩ : BufTy).Contents (Elt F)),
    StableHlo.reshape main_v10 main_v11 rfl shapeCasts_S8192x2048x2x1_S8192x1024x2x2,
    StableHlo.unary main_v11 main_v12 ((extractStridedSlice S8192x1024x1x2 ![0, 0, 0, 0] · slices_S8192x1024x2x2_S8192x1024x1x2_0_0_0_0) : (⟨S8192x1024x2x2, .f32⟩ : BufTy).Contents (Elt F) → (⟨S8192x1024x1x2, .f32⟩ : BufTy).Contents (Elt F)),
    StableHlo.reshape main_v12 main_v13 rfl shapeCasts_S8192x1024x1x2_S8192x1024x2,
    StableHlo.unary main_v11 main_v14 ((extractStridedSlice S8192x1024x1x2 ![0, 0, 1, 0] · slices_S8192x1024x2x2_S8192x1024x1x2_0_0_1_0) : (⟨S8192x1024x2x2, .f32⟩ : BufTy).Contents (Elt F) → (⟨S8192x1024x1x2, .f32⟩ : BufTy).Contents (Elt F)),
    StableHlo.reshape main_v14 main_v15 rfl shapeCasts_S8192x1024x1x2_S8192x1024x2,
    StableHlo.binary main_v13 main_v15 main_v16 (addf : (⟨S8192x1024x2, .f32⟩ : BufTy).Contents (Elt F) → (⟨S8192x1024x2, .f32⟩ : BufTy).Contents (Elt F) → (⟨S8192x1024x2, .f32⟩ : BufTy).Contents (Elt F)),
    StableHlo.binary main_v13 main_v15 main_v17 (subf : (⟨S8192x1024x2, .f32⟩ : BufTy).Contents (Elt F) → (⟨S8192x1024x2, .f32⟩ : BufTy).Contents (Elt F) → (⟨S8192x1024x2, .f32⟩ : BufTy).Contents (Elt F)),
    StableHlo.unary main_v16 main_v18 (broadcastInDim S8192x1024x1x2 ![0, 1, 3] bcast_S8192x1024x2_S8192x1024x1x2_0_1_3 : (⟨S8192x1024x2, .f32⟩ : BufTy).Contents (Elt F) → (⟨S8192x1024x1x2, .f32⟩ : BufTy).Contents (Elt F)),
    StableHlo.unary main_v17 main_v19 (broadcastInDim S8192x1024x1x2 ![0, 1, 3] bcast_S8192x1024x2_S8192x1024x1x2_0_1_3 : (⟨S8192x1024x2, .f32⟩ : BufTy).Contents (Elt F) → (⟨S8192x1024x1x2, .f32⟩ : BufTy).Contents (Elt F)),
    StableHlo.binary main_v18 main_v19 main_v20 ((fun a b => concatenate S8192x1024x2x2 2 [⟨S8192x1024x1x2, a⟩, ⟨S8192x1024x1x2, b⟩] concatenates_S8192x1024x1x2_S8192x1024x1x2_S8192x1024x2x2_d2) : (⟨S8192x1024x1x2, .f32⟩ : BufTy).Contents (Elt F) → (⟨S8192x1024x1x2, .f32⟩ : BufTy).Contents (Elt F) → (⟨S8192x1024x2x2, .f32⟩ : BufTy).Contents (Elt F)),
    StableHlo.reshape main_v20 main_v21 rfl shapeCasts_S8192x1024x2x2_S8192x512x2x4,
    StableHlo.unary main_v21 main_v22 ((extractStridedSlice S8192x512x1x4 ![0, 0, 0, 0] · slices_S8192x512x2x4_S8192x512x1x4_0_0_0_0) : (⟨S8192x512x2x4, .f32⟩ : BufTy).Contents (Elt F) → (⟨S8192x512x1x4, .f32⟩ : BufTy).Contents (Elt F)),
    StableHlo.reshape main_v22 main_v23 rfl shapeCasts_S8192x512x1x4_S8192x512x4,
    StableHlo.unary main_v21 main_v24 ((extractStridedSlice S8192x512x1x4 ![0, 0, 1, 0] · slices_S8192x512x2x4_S8192x512x1x4_0_0_1_0) : (⟨S8192x512x2x4, .f32⟩ : BufTy).Contents (Elt F) → (⟨S8192x512x1x4, .f32⟩ : BufTy).Contents (Elt F)),
    StableHlo.reshape main_v24 main_v25 rfl shapeCasts_S8192x512x1x4_S8192x512x4,
    StableHlo.binary main_v23 main_v25 main_v26 (addf : (⟨S8192x512x4, .f32⟩ : BufTy).Contents (Elt F) → (⟨S8192x512x4, .f32⟩ : BufTy).Contents (Elt F) → (⟨S8192x512x4, .f32⟩ : BufTy).Contents (Elt F)),
    StableHlo.binary main_v23 main_v25 main_v27 (subf : (⟨S8192x512x4, .f32⟩ : BufTy).Contents (Elt F) → (⟨S8192x512x4, .f32⟩ : BufTy).Contents (Elt F) → (⟨S8192x512x4, .f32⟩ : BufTy).Contents (Elt F)),
    StableHlo.unary main_v26 main_v28 (broadcastInDim S8192x512x1x4 ![0, 1, 3] bcast_S8192x512x4_S8192x512x1x4_0_1_3 : (⟨S8192x512x4, .f32⟩ : BufTy).Contents (Elt F) → (⟨S8192x512x1x4, .f32⟩ : BufTy).Contents (Elt F)),
    StableHlo.unary main_v27 main_v29 (broadcastInDim S8192x512x1x4 ![0, 1, 3] bcast_S8192x512x4_S8192x512x1x4_0_1_3 : (⟨S8192x512x4, .f32⟩ : BufTy).Contents (Elt F) → (⟨S8192x512x1x4, .f32⟩ : BufTy).Contents (Elt F)),
    StableHlo.binary main_v28 main_v29 main_v30 ((fun a b => concatenate S8192x512x2x4 2 [⟨S8192x512x1x4, a⟩, ⟨S8192x512x1x4, b⟩] concatenates_S8192x512x1x4_S8192x512x1x4_S8192x512x2x4_d2) : (⟨S8192x512x1x4, .f32⟩ : BufTy).Contents (Elt F) → (⟨S8192x512x1x4, .f32⟩ : BufTy).Contents (Elt F) → (⟨S8192x512x2x4, .f32⟩ : BufTy).Contents (Elt F)),
    StableHlo.reshape main_v30 main_v31 rfl shapeCasts_S8192x512x2x4_S8192x256x2x8,
    StableHlo.unary main_v31 main_v32 ((extractStridedSlice S8192x256x1x8 ![0, 0, 0, 0] · slices_S8192x256x2x8_S8192x256x1x8_0_0_0_0) : (⟨S8192x256x2x8, .f32⟩ : BufTy).Contents (Elt F) → (⟨S8192x256x1x8, .f32⟩ : BufTy).Contents (Elt F)),
    StableHlo.reshape main_v32 main_v33 rfl shapeCasts_S8192x256x1x8_S8192x256x8,
    StableHlo.unary main_v31 main_v34 ((extractStridedSlice S8192x256x1x8 ![0, 0, 1, 0] · slices_S8192x256x2x8_S8192x256x1x8_0_0_1_0) : (⟨S8192x256x2x8, .f32⟩ : BufTy).Contents (Elt F) → (⟨S8192x256x1x8, .f32⟩ : BufTy).Contents (Elt F)),
    StableHlo.reshape main_v34 main_v35 rfl shapeCasts_S8192x256x1x8_S8192x256x8,
    StableHlo.binary main_v33 main_v35 main_v36 (addf : (⟨S8192x256x8, .f32⟩ : BufTy).Contents (Elt F) → (⟨S8192x256x8, .f32⟩ : BufTy).Contents (Elt F) → (⟨S8192x256x8, .f32⟩ : BufTy).Contents (Elt F)),
    StableHlo.binary main_v33 main_v35 main_v37 (subf : (⟨S8192x256x8, .f32⟩ : BufTy).Contents (Elt F) → (⟨S8192x256x8, .f32⟩ : BufTy).Contents (Elt F) → (⟨S8192x256x8, .f32⟩ : BufTy).Contents (Elt F)),
    StableHlo.unary main_v36 main_v38 (broadcastInDim S8192x256x1x8 ![0, 1, 3] bcast_S8192x256x8_S8192x256x1x8_0_1_3 : (⟨S8192x256x8, .f32⟩ : BufTy).Contents (Elt F) → (⟨S8192x256x1x8, .f32⟩ : BufTy).Contents (Elt F)),
    StableHlo.unary main_v37 main_v39 (broadcastInDim S8192x256x1x8 ![0, 1, 3] bcast_S8192x256x8_S8192x256x1x8_0_1_3 : (⟨S8192x256x8, .f32⟩ : BufTy).Contents (Elt F) → (⟨S8192x256x1x8, .f32⟩ : BufTy).Contents (Elt F)),
    StableHlo.binary main_v38 main_v39 main_v40 ((fun a b => concatenate S8192x256x2x8 2 [⟨S8192x256x1x8, a⟩, ⟨S8192x256x1x8, b⟩] concatenates_S8192x256x1x8_S8192x256x1x8_S8192x256x2x8_d2) : (⟨S8192x256x1x8, .f32⟩ : BufTy).Contents (Elt F) → (⟨S8192x256x1x8, .f32⟩ : BufTy).Contents (Elt F) → (⟨S8192x256x2x8, .f32⟩ : BufTy).Contents (Elt F)),
    StableHlo.reshape main_v40 main_v41 rfl shapeCasts_S8192x256x2x8_S8192x128x2x16,
    StableHlo.unary main_v41 main_v42 ((extractStridedSlice S8192x128x1x16 ![0, 0, 0, 0] · slices_S8192x128x2x16_S8192x128x1x16_0_0_0_0) : (⟨S8192x128x2x16, .f32⟩ : BufTy).Contents (Elt F) → (⟨S8192x128x1x16, .f32⟩ : BufTy).Contents (Elt F)),
    StableHlo.reshape main_v42 main_v43 rfl shapeCasts_S8192x128x1x16_S8192x128x16,
    StableHlo.unary main_v41 main_v44 ((extractStridedSlice S8192x128x1x16 ![0, 0, 1, 0] · slices_S8192x128x2x16_S8192x128x1x16_0_0_1_0) : (⟨S8192x128x2x16, .f32⟩ : BufTy).Contents (Elt F) → (⟨S8192x128x1x16, .f32⟩ : BufTy).Contents (Elt F)),
    StableHlo.reshape main_v44 main_v45 rfl shapeCasts_S8192x128x1x16_S8192x128x16,
    StableHlo.binary main_v43 main_v45 main_v46 (addf : (⟨S8192x128x16, .f32⟩ : BufTy).Contents (Elt F) → (⟨S8192x128x16, .f32⟩ : BufTy).Contents (Elt F) → (⟨S8192x128x16, .f32⟩ : BufTy).Contents (Elt F)),
    StableHlo.binary main_v43 main_v45 main_v47 (subf : (⟨S8192x128x16, .f32⟩ : BufTy).Contents (Elt F) → (⟨S8192x128x16, .f32⟩ : BufTy).Contents (Elt F) → (⟨S8192x128x16, .f32⟩ : BufTy).Contents (Elt F)),
    StableHlo.unary main_v46 main_v48 (broadcastInDim S8192x128x1x16 ![0, 1, 3] bcast_S8192x128x16_S8192x128x1x16_0_1_3 : (⟨S8192x128x16, .f32⟩ : BufTy).Contents (Elt F) → (⟨S8192x128x1x16, .f32⟩ : BufTy).Contents (Elt F)),
    StableHlo.unary main_v47 main_v49 (broadcastInDim S8192x128x1x16 ![0, 1, 3] bcast_S8192x128x16_S8192x128x1x16_0_1_3 : (⟨S8192x128x16, .f32⟩ : BufTy).Contents (Elt F) → (⟨S8192x128x1x16, .f32⟩ : BufTy).Contents (Elt F)),
    StableHlo.binary main_v48 main_v49 main_v50 ((fun a b => concatenate S8192x128x2x16 2 [⟨S8192x128x1x16, a⟩, ⟨S8192x128x1x16, b⟩] concatenates_S8192x128x1x16_S8192x128x1x16_S8192x128x2x16_d2) : (⟨S8192x128x1x16, .f32⟩ : BufTy).Contents (Elt F) → (⟨S8192x128x1x16, .f32⟩ : BufTy).Contents (Elt F) → (⟨S8192x128x2x16, .f32⟩ : BufTy).Contents (Elt F)),
    StableHlo.reshape main_v50 main_v51 rfl shapeCasts_S8192x128x2x16_S8192x64x2x32,
    StableHlo.unary main_v51 main_v52 ((extractStridedSlice S8192x64x1x32 ![0, 0, 0, 0] · slices_S8192x64x2x32_S8192x64x1x32_0_0_0_0) : (⟨S8192x64x2x32, .f32⟩ : BufTy).Contents (Elt F) → (⟨S8192x64x1x32, .f32⟩ : BufTy).Contents (Elt F)),
    StableHlo.reshape main_v52 main_v53 rfl shapeCasts_S8192x64x1x32_S8192x64x32,
    StableHlo.unary main_v51 main_v54 ((extractStridedSlice S8192x64x1x32 ![0, 0, 1, 0] · slices_S8192x64x2x32_S8192x64x1x32_0_0_1_0) : (⟨S8192x64x2x32, .f32⟩ : BufTy).Contents (Elt F) → (⟨S8192x64x1x32, .f32⟩ : BufTy).Contents (Elt F)),
    StableHlo.reshape main_v54 main_v55 rfl shapeCasts_S8192x64x1x32_S8192x64x32,
    StableHlo.binary main_v53 main_v55 main_v56 (addf : (⟨S8192x64x32, .f32⟩ : BufTy).Contents (Elt F) → (⟨S8192x64x32, .f32⟩ : BufTy).Contents (Elt F) → (⟨S8192x64x32, .f32⟩ : BufTy).Contents (Elt F)),
    StableHlo.binary main_v53 main_v55 main_v57 (subf : (⟨S8192x64x32, .f32⟩ : BufTy).Contents (Elt F) → (⟨S8192x64x32, .f32⟩ : BufTy).Contents (Elt F) → (⟨S8192x64x32, .f32⟩ : BufTy).Contents (Elt F)),
    StableHlo.unary main_v56 main_v58 (broadcastInDim S8192x64x1x32 ![0, 1, 3] bcast_S8192x64x32_S8192x64x1x32_0_1_3 : (⟨S8192x64x32, .f32⟩ : BufTy).Contents (Elt F) → (⟨S8192x64x1x32, .f32⟩ : BufTy).Contents (Elt F)),
    StableHlo.unary main_v57 main_v59 (broadcastInDim S8192x64x1x32 ![0, 1, 3] bcast_S8192x64x32_S8192x64x1x32_0_1_3 : (⟨S8192x64x32, .f32⟩ : BufTy).Contents (Elt F) → (⟨S8192x64x1x32, .f32⟩ : BufTy).Contents (Elt F)),
    StableHlo.binary main_v58 main_v59 main_v60 ((fun a b => concatenate S8192x64x2x32 2 [⟨S8192x64x1x32, a⟩, ⟨S8192x64x1x32, b⟩] concatenates_S8192x64x1x32_S8192x64x1x32_S8192x64x2x32_d2) : (⟨S8192x64x1x32, .f32⟩ : BufTy).Contents (Elt F) → (⟨S8192x64x1x32, .f32⟩ : BufTy).Contents (Elt F) → (⟨S8192x64x2x32, .f32⟩ : BufTy).Contents (Elt F)),
    StableHlo.reshape main_v60 main_v61 rfl shapeCasts_S8192x64x2x32_S8192x32x2x64,
    StableHlo.unary main_v61 main_v62 ((extractStridedSlice S8192x32x1x64 ![0, 0, 0, 0] · slices_S8192x32x2x64_S8192x32x1x64_0_0_0_0) : (⟨S8192x32x2x64, .f32⟩ : BufTy).Contents (Elt F) → (⟨S8192x32x1x64, .f32⟩ : BufTy).Contents (Elt F)),
    StableHlo.reshape main_v62 main_v63 rfl shapeCasts_S8192x32x1x64_S8192x32x64,
    StableHlo.unary main_v61 main_v64 ((extractStridedSlice S8192x32x1x64 ![0, 0, 1, 0] · slices_S8192x32x2x64_S8192x32x1x64_0_0_1_0) : (⟨S8192x32x2x64, .f32⟩ : BufTy).Contents (Elt F) → (⟨S8192x32x1x64, .f32⟩ : BufTy).Contents (Elt F)),
    StableHlo.reshape main_v64 main_v65 rfl shapeCasts_S8192x32x1x64_S8192x32x64,
    StableHlo.binary main_v63 main_v65 main_v66 (addf : (⟨S8192x32x64, .f32⟩ : BufTy).Contents (Elt F) → (⟨S8192x32x64, .f32⟩ : BufTy).Contents (Elt F) → (⟨S8192x32x64, .f32⟩ : BufTy).Contents (Elt F)),
    StableHlo.binary main_v63 main_v65 main_v67 (subf : (⟨S8192x32x64, .f32⟩ : BufTy).Contents (Elt F) → (⟨S8192x32x64, .f32⟩ : BufTy).Contents (Elt F) → (⟨S8192x32x64, .f32⟩ : BufTy).Contents (Elt F)),
    StableHlo.unary main_v66 main_v68 (broadcastInDim S8192x32x1x64 ![0, 1, 3] bcast_S8192x32x64_S8192x32x1x64_0_1_3 : (⟨S8192x32x64, .f32⟩ : BufTy).Contents (Elt F) → (⟨S8192x32x1x64, .f32⟩ : BufTy).Contents (Elt F)),
    StableHlo.unary main_v67 main_v69 (broadcastInDim S8192x32x1x64 ![0, 1, 3] bcast_S8192x32x64_S8192x32x1x64_0_1_3 : (⟨S8192x32x64, .f32⟩ : BufTy).Contents (Elt F) → (⟨S8192x32x1x64, .f32⟩ : BufTy).Contents (Elt F)),
    StableHlo.binary main_v68 main_v69 main_v70 ((fun a b => concatenate S8192x32x2x64 2 [⟨S8192x32x1x64, a⟩, ⟨S8192x32x1x64, b⟩] concatenates_S8192x32x1x64_S8192x32x1x64_S8192x32x2x64_d2) : (⟨S8192x32x1x64, .f32⟩ : BufTy).Contents (Elt F) → (⟨S8192x32x1x64, .f32⟩ : BufTy).Contents (Elt F) → (⟨S8192x32x2x64, .f32⟩ : BufTy).Contents (Elt F)),
    StableHlo.reshape main_v70 main_v71 rfl shapeCasts_S8192x32x2x64_S8192x16x2x128,
    StableHlo.unary main_v71 main_v72 ((extractStridedSlice S8192x16x1x128 ![0, 0, 0, 0] · slices_S8192x16x2x128_S8192x16x1x128_0_0_0_0) : (⟨S8192x16x2x128, .f32⟩ : BufTy).Contents (Elt F) → (⟨S8192x16x1x128, .f32⟩ : BufTy).Contents (Elt F)),
    StableHlo.reshape main_v72 main_v73 rfl shapeCasts_S8192x16x1x128_S8192x16x128,
    StableHlo.unary main_v71 main_v74 ((extractStridedSlice S8192x16x1x128 ![0, 0, 1, 0] · slices_S8192x16x2x128_S8192x16x1x128_0_0_1_0) : (⟨S8192x16x2x128, .f32⟩ : BufTy).Contents (Elt F) → (⟨S8192x16x1x128, .f32⟩ : BufTy).Contents (Elt F)),
    StableHlo.reshape main_v74 main_v75 rfl shapeCasts_S8192x16x1x128_S8192x16x128,
    StableHlo.binary main_v73 main_v75 main_v76 (addf : (⟨S8192x16x128, .f32⟩ : BufTy).Contents (Elt F) → (⟨S8192x16x128, .f32⟩ : BufTy).Contents (Elt F) → (⟨S8192x16x128, .f32⟩ : BufTy).Contents (Elt F)),
    StableHlo.binary main_v73 main_v75 main_v77 (subf : (⟨S8192x16x128, .f32⟩ : BufTy).Contents (Elt F) → (⟨S8192x16x128, .f32⟩ : BufTy).Contents (Elt F) → (⟨S8192x16x128, .f32⟩ : BufTy).Contents (Elt F)),
    StableHlo.unary main_v76 main_v78 (broadcastInDim S8192x16x1x128 ![0, 1, 3] bcast_S8192x16x128_S8192x16x1x128_0_1_3 : (⟨S8192x16x128, .f32⟩ : BufTy).Contents (Elt F) → (⟨S8192x16x1x128, .f32⟩ : BufTy).Contents (Elt F)),
    StableHlo.unary main_v77 main_v79 (broadcastInDim S8192x16x1x128 ![0, 1, 3] bcast_S8192x16x128_S8192x16x1x128_0_1_3 : (⟨S8192x16x128, .f32⟩ : BufTy).Contents (Elt F) → (⟨S8192x16x1x128, .f32⟩ : BufTy).Contents (Elt F)),
    StableHlo.binary main_v78 main_v79 main_v80 ((fun a b => concatenate S8192x16x2x128 2 [⟨S8192x16x1x128, a⟩, ⟨S8192x16x1x128, b⟩] concatenates_S8192x16x1x128_S8192x16x1x128_S8192x16x2x128_d2) : (⟨S8192x16x1x128, .f32⟩ : BufTy).Contents (Elt F) → (⟨S8192x16x1x128, .f32⟩ : BufTy).Contents (Elt F) → (⟨S8192x16x2x128, .f32⟩ : BufTy).Contents (Elt F)),
    StableHlo.reshape main_v80 main_v81 rfl shapeCasts_S8192x16x2x128_S8192x8x2x256,
    StableHlo.unary main_v81 main_v82 ((extractStridedSlice S8192x8x1x256 ![0, 0, 0, 0] · slices_S8192x8x2x256_S8192x8x1x256_0_0_0_0) : (⟨S8192x8x2x256, .f32⟩ : BufTy).Contents (Elt F) → (⟨S8192x8x1x256, .f32⟩ : BufTy).Contents (Elt F)),
    StableHlo.reshape main_v82 main_v83 rfl shapeCasts_S8192x8x1x256_S8192x8x256,
    StableHlo.unary main_v81 main_v84 ((extractStridedSlice S8192x8x1x256 ![0, 0, 1, 0] · slices_S8192x8x2x256_S8192x8x1x256_0_0_1_0) : (⟨S8192x8x2x256, .f32⟩ : BufTy).Contents (Elt F) → (⟨S8192x8x1x256, .f32⟩ : BufTy).Contents (Elt F)),
    StableHlo.reshape main_v84 main_v85 rfl shapeCasts_S8192x8x1x256_S8192x8x256,
    StableHlo.binary main_v83 main_v85 main_v86 (addf : (⟨S8192x8x256, .f32⟩ : BufTy).Contents (Elt F) → (⟨S8192x8x256, .f32⟩ : BufTy).Contents (Elt F) → (⟨S8192x8x256, .f32⟩ : BufTy).Contents (Elt F)),
    StableHlo.binary main_v83 main_v85 main_v87 (subf : (⟨S8192x8x256, .f32⟩ : BufTy).Contents (Elt F) → (⟨S8192x8x256, .f32⟩ : BufTy).Contents (Elt F) → (⟨S8192x8x256, .f32⟩ : BufTy).Contents (Elt F)),
    StableHlo.unary main_v86 main_v88 (broadcastInDim S8192x8x1x256 ![0, 1, 3] bcast_S8192x8x256_S8192x8x1x256_0_1_3 : (⟨S8192x8x256, .f32⟩ : BufTy).Contents (Elt F) → (⟨S8192x8x1x256, .f32⟩ : BufTy).Contents (Elt F)),
    StableHlo.unary main_v87 main_v89 (broadcastInDim S8192x8x1x256 ![0, 1, 3] bcast_S8192x8x256_S8192x8x1x256_0_1_3 : (⟨S8192x8x256, .f32⟩ : BufTy).Contents (Elt F) → (⟨S8192x8x1x256, .f32⟩ : BufTy).Contents (Elt F)),
    StableHlo.binary main_v88 main_v89 main_v90 ((fun a b => concatenate S8192x8x2x256 2 [⟨S8192x8x1x256, a⟩, ⟨S8192x8x1x256, b⟩] concatenates_S8192x8x1x256_S8192x8x1x256_S8192x8x2x256_d2) : (⟨S8192x8x1x256, .f32⟩ : BufTy).Contents (Elt F) → (⟨S8192x8x1x256, .f32⟩ : BufTy).Contents (Elt F) → (⟨S8192x8x2x256, .f32⟩ : BufTy).Contents (Elt F)),
    StableHlo.reshape main_v90 main_v91 rfl shapeCasts_S8192x8x2x256_S8192x4x2x512,
    StableHlo.unary main_v91 main_v92 ((extractStridedSlice S8192x4x1x512 ![0, 0, 0, 0] · slices_S8192x4x2x512_S8192x4x1x512_0_0_0_0) : (⟨S8192x4x2x512, .f32⟩ : BufTy).Contents (Elt F) → (⟨S8192x4x1x512, .f32⟩ : BufTy).Contents (Elt F)),
    StableHlo.reshape main_v92 main_v93 rfl shapeCasts_S8192x4x1x512_S8192x4x512,
    StableHlo.unary main_v91 main_v94 ((extractStridedSlice S8192x4x1x512 ![0, 0, 1, 0] · slices_S8192x4x2x512_S8192x4x1x512_0_0_1_0) : (⟨S8192x4x2x512, .f32⟩ : BufTy).Contents (Elt F) → (⟨S8192x4x1x512, .f32⟩ : BufTy).Contents (Elt F)),
    StableHlo.reshape main_v94 main_v95 rfl shapeCasts_S8192x4x1x512_S8192x4x512,
    StableHlo.binary main_v93 main_v95 main_v96 (addf : (⟨S8192x4x512, .f32⟩ : BufTy).Contents (Elt F) → (⟨S8192x4x512, .f32⟩ : BufTy).Contents (Elt F) → (⟨S8192x4x512, .f32⟩ : BufTy).Contents (Elt F)),
    StableHlo.binary main_v93 main_v95 main_v97 (subf : (⟨S8192x4x512, .f32⟩ : BufTy).Contents (Elt F) → (⟨S8192x4x512, .f32⟩ : BufTy).Contents (Elt F) → (⟨S8192x4x512, .f32⟩ : BufTy).Contents (Elt F)),
    StableHlo.unary main_v96 main_v98 (broadcastInDim S8192x4x1x512 ![0, 1, 3] bcast_S8192x4x512_S8192x4x1x512_0_1_3 : (⟨S8192x4x512, .f32⟩ : BufTy).Contents (Elt F) → (⟨S8192x4x1x512, .f32⟩ : BufTy).Contents (Elt F)),
    StableHlo.unary main_v97 main_v99 (broadcastInDim S8192x4x1x512 ![0, 1, 3] bcast_S8192x4x512_S8192x4x1x512_0_1_3 : (⟨S8192x4x512, .f32⟩ : BufTy).Contents (Elt F) → (⟨S8192x4x1x512, .f32⟩ : BufTy).Contents (Elt F)),
    StableHlo.binary main_v98 main_v99 main_v100 ((fun a b => concatenate S8192x4x2x512 2 [⟨S8192x4x1x512, a⟩, ⟨S8192x4x1x512, b⟩] concatenates_S8192x4x1x512_S8192x4x1x512_S8192x4x2x512_d2) : (⟨S8192x4x1x512, .f32⟩ : BufTy).Contents (Elt F) → (⟨S8192x4x1x512, .f32⟩ : BufTy).Contents (Elt F) → (⟨S8192x4x2x512, .f32⟩ : BufTy).Contents (Elt F)),
    StableHlo.reshape main_v100 main_v101 rfl shapeCasts_S8192x4x2x512_S8192x2x2x1024,
    StableHlo.unary main_v101 main_v102 ((extractStridedSlice S8192x2x1x1024 ![0, 0, 0, 0] · slices_S8192x2x2x1024_S8192x2x1x1024_0_0_0_0) : (⟨S8192x2x2x1024, .f32⟩ : BufTy).Contents (Elt F) → (⟨S8192x2x1x1024, .f32⟩ : BufTy).Contents (Elt F)),
    StableHlo.reshape main_v102 main_v103 rfl shapeCasts_S8192x2x1x1024_S8192x2x1024,
    StableHlo.unary main_v101 main_v104 ((extractStridedSlice S8192x2x1x1024 ![0, 0, 1, 0] · slices_S8192x2x2x1024_S8192x2x1x1024_0_0_1_0) : (⟨S8192x2x2x1024, .f32⟩ : BufTy).Contents (Elt F) → (⟨S8192x2x1x1024, .f32⟩ : BufTy).Contents (Elt F)),
    StableHlo.reshape main_v104 main_v105 rfl shapeCasts_S8192x2x1x1024_S8192x2x1024,
    StableHlo.binary main_v103 main_v105 main_v106 (addf : (⟨S8192x2x1024, .f32⟩ : BufTy).Contents (Elt F) → (⟨S8192x2x1024, .f32⟩ : BufTy).Contents (Elt F) → (⟨S8192x2x1024, .f32⟩ : BufTy).Contents (Elt F)),
    StableHlo.binary main_v103 main_v105 main_v107 (subf : (⟨S8192x2x1024, .f32⟩ : BufTy).Contents (Elt F) → (⟨S8192x2x1024, .f32⟩ : BufTy).Contents (Elt F) → (⟨S8192x2x1024, .f32⟩ : BufTy).Contents (Elt F)),
    StableHlo.unary main_v106 main_v108 (broadcastInDim S8192x2x1x1024 ![0, 1, 3] bcast_S8192x2x1024_S8192x2x1x1024_0_1_3 : (⟨S8192x2x1024, .f32⟩ : BufTy).Contents (Elt F) → (⟨S8192x2x1x1024, .f32⟩ : BufTy).Contents (Elt F)),
    StableHlo.unary main_v107 main_v109 (broadcastInDim S8192x2x1x1024 ![0, 1, 3] bcast_S8192x2x1024_S8192x2x1x1024_0_1_3 : (⟨S8192x2x1024, .f32⟩ : BufTy).Contents (Elt F) → (⟨S8192x2x1x1024, .f32⟩ : BufTy).Contents (Elt F)),
    StableHlo.binary main_v108 main_v109 main_v110 ((fun a b => concatenate S8192x2x2x1024 2 [⟨S8192x2x1x1024, a⟩, ⟨S8192x2x1x1024, b⟩] concatenates_S8192x2x1x1024_S8192x2x1x1024_S8192x2x2x1024_d2) : (⟨S8192x2x1x1024, .f32⟩ : BufTy).Contents (Elt F) → (⟨S8192x2x1x1024, .f32⟩ : BufTy).Contents (Elt F) → (⟨S8192x2x2x1024, .f32⟩ : BufTy).Contents (Elt F)),
    StableHlo.reshape main_v110 main_v111 rfl shapeCasts_S8192x2x2x1024_S8192x1x2x2048,
    StableHlo.unary main_v111 main_v112 ((extractStridedSlice S8192x1x1x2048 ![0, 0, 0, 0] · slices_S8192x1x2x2048_S8192x1x1x2048_0_0_0_0) : (⟨S8192x1x2x2048, .f32⟩ : BufTy).Contents (Elt F) → (⟨S8192x1x1x2048, .f32⟩ : BufTy).Contents (Elt F)),
    StableHlo.reshape main_v112 main_v113 rfl shapeCasts_S8192x1x1x2048_S8192x1x2048,
    StableHlo.unary main_v111 main_v114 ((extractStridedSlice S8192x1x1x2048 ![0, 0, 1, 0] · slices_S8192x1x2x2048_S8192x1x1x2048_0_0_1_0) : (⟨S8192x1x2x2048, .f32⟩ : BufTy).Contents (Elt F) → (⟨S8192x1x1x2048, .f32⟩ : BufTy).Contents (Elt F)),
    StableHlo.reshape main_v114 main_v115 rfl shapeCasts_S8192x1x1x2048_S8192x1x2048,
    StableHlo.binary main_v113 main_v115 main_v116 (addf : (⟨S8192x1x2048, .f32⟩ : BufTy).Contents (Elt F) → (⟨S8192x1x2048, .f32⟩ : BufTy).Contents (Elt F) → (⟨S8192x1x2048, .f32⟩ : BufTy).Contents (Elt F)),
    StableHlo.binary main_v113 main_v115 main_v117 (subf : (⟨S8192x1x2048, .f32⟩ : BufTy).Contents (Elt F) → (⟨S8192x1x2048, .f32⟩ : BufTy).Contents (Elt F) → (⟨S8192x1x2048, .f32⟩ : BufTy).Contents (Elt F)),
    StableHlo.unary main_v116 main_v118 (broadcastInDim S8192x1x1x2048 ![0, 1, 3] bcast_S8192x1x2048_S8192x1x1x2048_0_1_3 : (⟨S8192x1x2048, .f32⟩ : BufTy).Contents (Elt F) → (⟨S8192x1x1x2048, .f32⟩ : BufTy).Contents (Elt F)),
    StableHlo.unary main_v117 main_v119 (broadcastInDim S8192x1x1x2048 ![0, 1, 3] bcast_S8192x1x2048_S8192x1x1x2048_0_1_3 : (⟨S8192x1x2048, .f32⟩ : BufTy).Contents (Elt F) → (⟨S8192x1x1x2048, .f32⟩ : BufTy).Contents (Elt F)),
    StableHlo.binary main_v118 main_v119 main_v120 ((fun a b => concatenate S8192x1x2x2048 2 [⟨S8192x1x1x2048, a⟩, ⟨S8192x1x1x2048, b⟩] concatenates_S8192x1x1x2048_S8192x1x1x2048_S8192x1x2x2048_d2) : (⟨S8192x1x1x2048, .f32⟩ : BufTy).Contents (Elt F) → (⟨S8192x1x1x2048, .f32⟩ : BufTy).Contents (Elt F) → (⟨S8192x1x2x2048, .f32⟩ : BufTy).Contents (Elt F)),
    StableHlo.reshape main_v120 main_v121 rfl shapeCasts_S8192x1x2x2048_S4x2048x4096,
    StableHlo.nullary main_cst (constant S_ .f32 0x3C800000#32),
    StableHlo.unary main_cst main_v122 (broadcastInDim S4x2048x4096 ![] bcast_S_S4x2048x4096 : (⟨S_, .f32⟩ : BufTy).Contents (Elt F) → (⟨S4x2048x4096, .f32⟩ : BufTy).Contents (Elt F)),
    StableHlo.binary main_v121 main_v122 main_v123 (mulf : (⟨S4x2048x4096, .f32⟩ : BufTy).Contents (Elt F) → (⟨S4x2048x4096, .f32⟩ : BufTy).Contents (Elt F) → (⟨S4x2048x4096, .f32⟩ : BufTy).Contents (Elt F)),
    StableHlo.binary main_v123 main_arg1 main_v124 ((fun l r => Host.dotGeneral dot_S4x2048x4096_S11008x4096_S4x2048x11008_2_1_01_0_n_n none l r) : (⟨S4x2048x4096, .f32⟩ : BufTy).Contents (Elt F) → (⟨S11008x4096, .f32⟩ : BufTy).Contents (Elt F) → (⟨S4x2048x11008, .f32⟩ : BufTy).Contents (Elt F)),
    StableHlo.unary main_arg2 main_v125 (broadcastInDim S1x1x11008 ![2] bcast_S11008_S1x1x11008_2 : (⟨S11008, .f32⟩ : BufTy).Contents (Elt F) → (⟨S1x1x11008, .f32⟩ : BufTy).Contents (Elt F)),
    StableHlo.unary main_v125 main_v126 (broadcastInDim S4x2048x11008 ![0, 1, 2] bcast_S1x1x11008_S4x2048x11008_0_1_2 : (⟨S1x1x11008, .f32⟩ : BufTy).Contents (Elt F) → (⟨S4x2048x11008, .f32⟩ : BufTy).Contents (Elt F)),
    StableHlo.binary main_v124 main_v126 main_v127 (addf : (⟨S4x2048x11008, .f32⟩ : BufTy).Contents (Elt F) → (⟨S4x2048x11008, .f32⟩ : BufTy).Contents (Elt F) → (⟨S4x2048x11008, .f32⟩ : BufTy).Contents (Elt F)) ]

/-- They are these fourteen stretches, in order. -/
theorem ops_split : (ops (F := F))
    = pre ++ (seg0 ++ (seg1 ++ (seg2 ++ (seg3 ++ (seg4 ++ (seg5 ++ (seg6 ++ (seg7 ++ (seg8 ++ (seg9 ++ (seg10 ++ (seg11 ++ post)))))))))))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨StableHlo.reshape_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

variable (V : Valuation τ sig (Elt Ideal))

theorem pre_x : after (pre (F := Ideal)) V (Proc.devRef .tc main_v1) = X0 (V (Proc.devRef .tc main_arg0)) := by
  dsimp only [pre]
  after_results <;> rfl
theorem pre_a0 : after (pre (F := Ideal)) V (Proc.devRef .tc main_arg0) = V (Proc.devRef .tc main_arg0) := by
  dsimp only [pre]
  after_results
theorem pre_a1 : after (pre (F := Ideal)) V (Proc.devRef .tc main_arg1) = V (Proc.devRef .tc main_arg1) := by
  dsimp only [pre]
  after_results
theorem pre_a2 : after (pre (F := Ideal)) V (Proc.devRef .tc main_arg2) = V (Proc.devRef .tc main_arg2) := by
  dsimp only [pre]
  after_results

theorem seg0_x : after (seg0 (F := Ideal)) V (Proc.devRef .tc main_v11)
    = shapeCast S8192x1024x2x2 (stage (R := 8192) (q := 2048) (h := 1) (V (Proc.devRef .tc main_v1)) slices_S8192x2048x2x1_S8192x2048x1x1_0_0_0_0 slices_S8192x2048x2x1_S8192x2048x1x1_0_0_1_0 shapeCasts_S8192x2048x1x1_S8192x2048x1 bcast_S8192x2048x1_S8192x2048x1x1_0_1_3 concatenates_S8192x2048x1x1_S8192x2048x1x1_S8192x2048x2x1_d2) shapeCasts_S8192x2048x2x1_S8192x1024x2x2 := by
  dsimp only [seg0]
  after_results <;> rfl
theorem seg0_a0 : after (seg0 (F := Ideal)) V (Proc.devRef .tc main_arg0) = V (Proc.devRef .tc main_arg0) := by
  dsimp only [seg0]
  after_results
theorem seg0_a1 : after (seg0 (F := Ideal)) V (Proc.devRef .tc main_arg1) = V (Proc.devRef .tc main_arg1) := by
  dsimp only [seg0]
  after_results
theorem seg0_a2 : after (seg0 (F := Ideal)) V (Proc.devRef .tc main_arg2) = V (Proc.devRef .tc main_arg2) := by
  dsimp only [seg0]
  after_results

theorem seg1_x : after (seg1 (F := Ideal)) V (Proc.devRef .tc main_v21)
    = shapeCast S8192x512x2x4 (stage (R := 8192) (q := 1024) (h := 2) (V (Proc.devRef .tc main_v11)) slices_S8192x1024x2x2_S8192x1024x1x2_0_0_0_0 slices_S8192x1024x2x2_S8192x1024x1x2_0_0_1_0 shapeCasts_S8192x1024x1x2_S8192x1024x2 bcast_S8192x1024x2_S8192x1024x1x2_0_1_3 concatenates_S8192x1024x1x2_S8192x1024x1x2_S8192x1024x2x2_d2) shapeCasts_S8192x1024x2x2_S8192x512x2x4 := by
  dsimp only [seg1]
  after_results <;> rfl
theorem seg1_a0 : after (seg1 (F := Ideal)) V (Proc.devRef .tc main_arg0) = V (Proc.devRef .tc main_arg0) := by
  dsimp only [seg1]
  after_results
theorem seg1_a1 : after (seg1 (F := Ideal)) V (Proc.devRef .tc main_arg1) = V (Proc.devRef .tc main_arg1) := by
  dsimp only [seg1]
  after_results
theorem seg1_a2 : after (seg1 (F := Ideal)) V (Proc.devRef .tc main_arg2) = V (Proc.devRef .tc main_arg2) := by
  dsimp only [seg1]
  after_results

theorem seg2_x : after (seg2 (F := Ideal)) V (Proc.devRef .tc main_v31)
    = shapeCast S8192x256x2x8 (stage (R := 8192) (q := 512) (h := 4) (V (Proc.devRef .tc main_v21)) slices_S8192x512x2x4_S8192x512x1x4_0_0_0_0 slices_S8192x512x2x4_S8192x512x1x4_0_0_1_0 shapeCasts_S8192x512x1x4_S8192x512x4 bcast_S8192x512x4_S8192x512x1x4_0_1_3 concatenates_S8192x512x1x4_S8192x512x1x4_S8192x512x2x4_d2) shapeCasts_S8192x512x2x4_S8192x256x2x8 := by
  dsimp only [seg2]
  after_results <;> rfl
theorem seg2_a0 : after (seg2 (F := Ideal)) V (Proc.devRef .tc main_arg0) = V (Proc.devRef .tc main_arg0) := by
  dsimp only [seg2]
  after_results
theorem seg2_a1 : after (seg2 (F := Ideal)) V (Proc.devRef .tc main_arg1) = V (Proc.devRef .tc main_arg1) := by
  dsimp only [seg2]
  after_results
theorem seg2_a2 : after (seg2 (F := Ideal)) V (Proc.devRef .tc main_arg2) = V (Proc.devRef .tc main_arg2) := by
  dsimp only [seg2]
  after_results

theorem seg3_x : after (seg3 (F := Ideal)) V (Proc.devRef .tc main_v41)
    = shapeCast S8192x128x2x16 (stage (R := 8192) (q := 256) (h := 8) (V (Proc.devRef .tc main_v31)) slices_S8192x256x2x8_S8192x256x1x8_0_0_0_0 slices_S8192x256x2x8_S8192x256x1x8_0_0_1_0 shapeCasts_S8192x256x1x8_S8192x256x8 bcast_S8192x256x8_S8192x256x1x8_0_1_3 concatenates_S8192x256x1x8_S8192x256x1x8_S8192x256x2x8_d2) shapeCasts_S8192x256x2x8_S8192x128x2x16 := by
  dsimp only [seg3]
  after_results <;> rfl
theorem seg3_a0 : after (seg3 (F := Ideal)) V (Proc.devRef .tc main_arg0) = V (Proc.devRef .tc main_arg0) := by
  dsimp only [seg3]
  after_results
theorem seg3_a1 : after (seg3 (F := Ideal)) V (Proc.devRef .tc main_arg1) = V (Proc.devRef .tc main_arg1) := by
  dsimp only [seg3]
  after_results
theorem seg3_a2 : after (seg3 (F := Ideal)) V (Proc.devRef .tc main_arg2) = V (Proc.devRef .tc main_arg2) := by
  dsimp only [seg3]
  after_results

theorem seg4_x : after (seg4 (F := Ideal)) V (Proc.devRef .tc main_v51)
    = shapeCast S8192x64x2x32 (stage (R := 8192) (q := 128) (h := 16) (V (Proc.devRef .tc main_v41)) slices_S8192x128x2x16_S8192x128x1x16_0_0_0_0 slices_S8192x128x2x16_S8192x128x1x16_0_0_1_0 shapeCasts_S8192x128x1x16_S8192x128x16 bcast_S8192x128x16_S8192x128x1x16_0_1_3 concatenates_S8192x128x1x16_S8192x128x1x16_S8192x128x2x16_d2) shapeCasts_S8192x128x2x16_S8192x64x2x32 := by
  dsimp only [seg4]
  after_results <;> rfl
theorem seg4_a0 : after (seg4 (F := Ideal)) V (Proc.devRef .tc main_arg0) = V (Proc.devRef .tc main_arg0) := by
  dsimp only [seg4]
  after_results
theorem seg4_a1 : after (seg4 (F := Ideal)) V (Proc.devRef .tc main_arg1) = V (Proc.devRef .tc main_arg1) := by
  dsimp only [seg4]
  after_results
theorem seg4_a2 : after (seg4 (F := Ideal)) V (Proc.devRef .tc main_arg2) = V (Proc.devRef .tc main_arg2) := by
  dsimp only [seg4]
  after_results

theorem seg5_x : after (seg5 (F := Ideal)) V (Proc.devRef .tc main_v61)
    = shapeCast S8192x32x2x64 (stage (R := 8192) (q := 64) (h := 32) (V (Proc.devRef .tc main_v51)) slices_S8192x64x2x32_S8192x64x1x32_0_0_0_0 slices_S8192x64x2x32_S8192x64x1x32_0_0_1_0 shapeCasts_S8192x64x1x32_S8192x64x32 bcast_S8192x64x32_S8192x64x1x32_0_1_3 concatenates_S8192x64x1x32_S8192x64x1x32_S8192x64x2x32_d2) shapeCasts_S8192x64x2x32_S8192x32x2x64 := by
  dsimp only [seg5]
  after_results <;> rfl
theorem seg5_a0 : after (seg5 (F := Ideal)) V (Proc.devRef .tc main_arg0) = V (Proc.devRef .tc main_arg0) := by
  dsimp only [seg5]
  after_results
theorem seg5_a1 : after (seg5 (F := Ideal)) V (Proc.devRef .tc main_arg1) = V (Proc.devRef .tc main_arg1) := by
  dsimp only [seg5]
  after_results
theorem seg5_a2 : after (seg5 (F := Ideal)) V (Proc.devRef .tc main_arg2) = V (Proc.devRef .tc main_arg2) := by
  dsimp only [seg5]
  after_results

theorem seg6_x : after (seg6 (F := Ideal)) V (Proc.devRef .tc main_v71)
    = shapeCast S8192x16x2x128 (stage (R := 8192) (q := 32) (h := 64) (V (Proc.devRef .tc main_v61)) slices_S8192x32x2x64_S8192x32x1x64_0_0_0_0 slices_S8192x32x2x64_S8192x32x1x64_0_0_1_0 shapeCasts_S8192x32x1x64_S8192x32x64 bcast_S8192x32x64_S8192x32x1x64_0_1_3 concatenates_S8192x32x1x64_S8192x32x1x64_S8192x32x2x64_d2) shapeCasts_S8192x32x2x64_S8192x16x2x128 := by
  dsimp only [seg6]
  after_results <;> rfl
theorem seg6_a0 : after (seg6 (F := Ideal)) V (Proc.devRef .tc main_arg0) = V (Proc.devRef .tc main_arg0) := by
  dsimp only [seg6]
  after_results
theorem seg6_a1 : after (seg6 (F := Ideal)) V (Proc.devRef .tc main_arg1) = V (Proc.devRef .tc main_arg1) := by
  dsimp only [seg6]
  after_results
theorem seg6_a2 : after (seg6 (F := Ideal)) V (Proc.devRef .tc main_arg2) = V (Proc.devRef .tc main_arg2) := by
  dsimp only [seg6]
  after_results

theorem seg7_x : after (seg7 (F := Ideal)) V (Proc.devRef .tc main_v81)
    = shapeCast S8192x8x2x256 (stage (R := 8192) (q := 16) (h := 128) (V (Proc.devRef .tc main_v71)) slices_S8192x16x2x128_S8192x16x1x128_0_0_0_0 slices_S8192x16x2x128_S8192x16x1x128_0_0_1_0 shapeCasts_S8192x16x1x128_S8192x16x128 bcast_S8192x16x128_S8192x16x1x128_0_1_3 concatenates_S8192x16x1x128_S8192x16x1x128_S8192x16x2x128_d2) shapeCasts_S8192x16x2x128_S8192x8x2x256 := by
  dsimp only [seg7]
  after_results <;> rfl
theorem seg7_a0 : after (seg7 (F := Ideal)) V (Proc.devRef .tc main_arg0) = V (Proc.devRef .tc main_arg0) := by
  dsimp only [seg7]
  after_results
theorem seg7_a1 : after (seg7 (F := Ideal)) V (Proc.devRef .tc main_arg1) = V (Proc.devRef .tc main_arg1) := by
  dsimp only [seg7]
  after_results
theorem seg7_a2 : after (seg7 (F := Ideal)) V (Proc.devRef .tc main_arg2) = V (Proc.devRef .tc main_arg2) := by
  dsimp only [seg7]
  after_results

theorem seg8_x : after (seg8 (F := Ideal)) V (Proc.devRef .tc main_v91)
    = shapeCast S8192x4x2x512 (stage (R := 8192) (q := 8) (h := 256) (V (Proc.devRef .tc main_v81)) slices_S8192x8x2x256_S8192x8x1x256_0_0_0_0 slices_S8192x8x2x256_S8192x8x1x256_0_0_1_0 shapeCasts_S8192x8x1x256_S8192x8x256 bcast_S8192x8x256_S8192x8x1x256_0_1_3 concatenates_S8192x8x1x256_S8192x8x1x256_S8192x8x2x256_d2) shapeCasts_S8192x8x2x256_S8192x4x2x512 := by
  dsimp only [seg8]
  after_results <;> rfl
theorem seg8_a0 : after (seg8 (F := Ideal)) V (Proc.devRef .tc main_arg0) = V (Proc.devRef .tc main_arg0) := by
  dsimp only [seg8]
  after_results
theorem seg8_a1 : after (seg8 (F := Ideal)) V (Proc.devRef .tc main_arg1) = V (Proc.devRef .tc main_arg1) := by
  dsimp only [seg8]
  after_results
theorem seg8_a2 : after (seg8 (F := Ideal)) V (Proc.devRef .tc main_arg2) = V (Proc.devRef .tc main_arg2) := by
  dsimp only [seg8]
  after_results

theorem seg9_x : after (seg9 (F := Ideal)) V (Proc.devRef .tc main_v101)
    = shapeCast S8192x2x2x1024 (stage (R := 8192) (q := 4) (h := 512) (V (Proc.devRef .tc main_v91)) slices_S8192x4x2x512_S8192x4x1x512_0_0_0_0 slices_S8192x4x2x512_S8192x4x1x512_0_0_1_0 shapeCasts_S8192x4x1x512_S8192x4x512 bcast_S8192x4x512_S8192x4x1x512_0_1_3 concatenates_S8192x4x1x512_S8192x4x1x512_S8192x4x2x512_d2) shapeCasts_S8192x4x2x512_S8192x2x2x1024 := by
  dsimp only [seg9]
  after_results <;> rfl
theorem seg9_a0 : after (seg9 (F := Ideal)) V (Proc.devRef .tc main_arg0) = V (Proc.devRef .tc main_arg0) := by
  dsimp only [seg9]
  after_results
theorem seg9_a1 : after (seg9 (F := Ideal)) V (Proc.devRef .tc main_arg1) = V (Proc.devRef .tc main_arg1) := by
  dsimp only [seg9]
  after_results
theorem seg9_a2 : after (seg9 (F := Ideal)) V (Proc.devRef .tc main_arg2) = V (Proc.devRef .tc main_arg2) := by
  dsimp only [seg9]
  after_results

theorem seg10_x : after (seg10 (F := Ideal)) V (Proc.devRef .tc main_v111)
    = shapeCast S8192x1x2x2048 (stage (R := 8192) (q := 2) (h := 1024) (V (Proc.devRef .tc main_v101)) slices_S8192x2x2x1024_S8192x2x1x1024_0_0_0_0 slices_S8192x2x2x1024_S8192x2x1x1024_0_0_1_0 shapeCasts_S8192x2x1x1024_S8192x2x1024 bcast_S8192x2x1024_S8192x2x1x1024_0_1_3 concatenates_S8192x2x1x1024_S8192x2x1x1024_S8192x2x2x1024_d2) shapeCasts_S8192x2x2x1024_S8192x1x2x2048 := by
  dsimp only [seg10]
  after_results <;> rfl
theorem seg10_a0 : after (seg10 (F := Ideal)) V (Proc.devRef .tc main_arg0) = V (Proc.devRef .tc main_arg0) := by
  dsimp only [seg10]
  after_results
theorem seg10_a1 : after (seg10 (F := Ideal)) V (Proc.devRef .tc main_arg1) = V (Proc.devRef .tc main_arg1) := by
  dsimp only [seg10]
  after_results
theorem seg10_a2 : after (seg10 (F := Ideal)) V (Proc.devRef .tc main_arg2) = V (Proc.devRef .tc main_arg2) := by
  dsimp only [seg10]
  after_results

theorem seg11_x : after (seg11 (F := Ideal)) V (Proc.devRef .tc main_v121)
    = shapeCast S4x2048x4096 (stage (R := 8192) (q := 1) (h := 2048) (V (Proc.devRef .tc main_v111)) slices_S8192x1x2x2048_S8192x1x1x2048_0_0_0_0 slices_S8192x1x2x2048_S8192x1x1x2048_0_0_1_0 shapeCasts_S8192x1x1x2048_S8192x1x2048 bcast_S8192x1x2048_S8192x1x1x2048_0_1_3 concatenates_S8192x1x1x2048_S8192x1x1x2048_S8192x1x2x2048_d2) shapeCasts_S8192x1x2x2048_S4x2048x4096 := by
  dsimp only [seg11]
  after_results <;> rfl
theorem seg11_a0 : after (seg11 (F := Ideal)) V (Proc.devRef .tc main_arg0) = V (Proc.devRef .tc main_arg0) := by
  dsimp only [seg11]
  after_results
theorem seg11_a1 : after (seg11 (F := Ideal)) V (Proc.devRef .tc main_arg1) = V (Proc.devRef .tc main_arg1) := by
  dsimp only [seg11]
  after_results
theorem seg11_a2 : after (seg11 (F := Ideal)) V (Proc.devRef .tc main_arg2) = V (Proc.devRef .tc main_arg2) := by
  dsimp only [seg11]
  after_results

theorem post_out : (after (post (F := Ideal)) V (Proc.devRef .tc main_v127) : FVec Ideal S4x2048x11008 .f32)
    = addf (F := Ideal) (Host.dotGeneral (F := Ideal) (φ₁ := .f32) (φ₂ := .f32) dot_S4x2048x4096_S11008x4096_S4x2048x11008_2_1_01_0_n_n none
          (mulf (F := Ideal) (V (Proc.devRef .tc main_v121) : FVec Ideal S4x2048x4096 .f32) (broadcastInDim S4x2048x4096 ![] bcast_S_S4x2048x4096 (constant S_ .f32 0x3C800000#32)))
          (V (Proc.devRef .tc main_arg1) : FVec Ideal S11008x4096 .f32))
        (broadcastInDim S4x2048x11008 ![0, 1, 2] bcast_S1x1x11008_S4x2048x11008_0_1_2
          (broadcastInDim S1x1x11008 ![2] bcast_S11008_S1x1x11008_2 (V (Proc.devRef .tc main_arg2) : FVec Ideal S11008 .f32))) := by
  dsimp only [post]
  after_results <;> rfl
theorem post_a0 : after (post (F := Ideal)) V (Proc.devRef .tc main_arg0) = V (Proc.devRef .tc main_arg0) := by
  dsimp only [post]
  after_results
theorem post_a1 : after (post (F := Ideal)) V (Proc.devRef .tc main_arg1) = V (Proc.devRef .tc main_arg1) := by
  dsimp only [post]
  after_results
theorem post_a2 : after (post (F := Ideal)) V (Proc.devRef .tc main_arg2) = V (Proc.devRef .tc main_arg2) := by
  dsimp only [post]
  after_results

/-- After all the lines the result buffer holds refOut of the three arguments. -/
theorem after_out : after (ops (F := Ideal)) V (Proc.devRef .tc main_v127)
    = refOut (V (Proc.devRef .tc main_arg0)) (V (Proc.devRef .tc main_arg1)) (V (Proc.devRef .tc main_arg2)) := by
  rw [ops_split]
  simp only [StableHlo.after_append]
  rw [post_out, seg11_x, seg10_x, seg9_x, seg8_x, seg7_x, seg6_x, seg5_x, seg4_x, seg3_x, seg2_x, seg1_x, seg0_x, pre_x,
    seg11_a1, seg10_a1, seg9_a1, seg8_a1, seg7_a1, seg6_a1, seg5_a1, seg4_a1, seg3_a1, seg2_a1, seg1_a1, seg0_a1, pre_a1,
    seg11_a2, seg10_a2, seg9_a2, seg8_a2, seg7_a2, seg6_a2, seg5_a2, seg4_a2, seg3_a2, seg2_a2, seg1_a2, seg0_a2, pre_a2]
  all_goals rfl
theorem after_a0 : after (ops (F := Ideal)) V (Proc.devRef .tc main_arg0) = V (Proc.devRef .tc main_arg0) := by
  rw [ops_split]
  simp only [StableHlo.after_append]
  rw [post_a0, seg11_a0, seg10_a0, seg9_a0, seg8_a0, seg7_a0, seg6_a0, seg5_a0, seg4_a0, seg3_a0, seg2_a0, seg1_a0, seg0_a0, pre_a0]
theorem after_a1 : after (ops (F := Ideal)) V (Proc.devRef .tc main_arg1) = V (Proc.devRef .tc main_arg1) := by
  rw [ops_split]
  simp only [StableHlo.after_append]
  rw [post_a1, seg11_a1, seg10_a1, seg9_a1, seg8_a1, seg7_a1, seg6_a1, seg5_a1, seg4_a1, seg3_a1, seg2_a1, seg1_a1, seg0_a1, pre_a1]
theorem after_a2 : after (ops (F := Ideal)) V (Proc.devRef .tc main_arg2) = V (Proc.devRef .tc main_arg2) := by
  rw [ops_split]
  simp only [StableHlo.after_append]
  rw [post_a2, seg11_a2, seg10_a2, seg9_a2, seg8_a2, seg7_a2, seg6_a2, seg5_a2, seg4_a2, seg3_a2, seg2_a2, seg1_a2, seg0_a2, pre_a2]

/-- Every weakly fair execution of the reference terminates with its result at refOut of the arguments, the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v127)
          = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v127).trans (after_out _), (h c main_arg0).trans (after_a0 _),
      (h c main_arg1).trans (after_a1 _), (h c main_arg2).trans (after_a2 _)⟩)
    (run_seq scopedRefs_eq scopedSems_eq defs main (fun _ => ops) main_eq (fun _ => ops_sub) m ρ)

end Cert.ReferenceIdeal.RefRun

end
-- ==== Proof.LibWalsh.lean ====
/-
  The sign matrix of the Walsh–Hadamard transform.

  For a length 2^k the (unnormalised) Walsh–Hadamard matrix H_k has entry (p, p') equal to (-1) raised to the number
  of binary digits, among the lowest k, that p and p' both have set. It is built by the block recursion
  H_0 = [1],  H_{k+1} = [[H_k, H_k], [H_k, -H_k]]: the top digit of the row and of the column index selects the block,
  the only negative block being the one where both top digits are set. Hence a sum against a row of H_{k+1} splits
  into the sum and the difference of two sums against the corresponding row of H_k, over the lower and the upper half
  of the index range. H_k is symmetric, so in a dot product the transform (and any common scalar factor) can be moved
  from one factor to the other:  <c · H x, w> = <x, c · H w>.
-/
import Mathlib.Data.Real.Basic
import Mathlib.Algebra.BigOperators.Ring.Finset
import Mathlib.Algebra.BigOperators.Group.Finset.Sigma
import Mathlib.Tactic.Ring

namespace Cert.LibWalsh

open Finset

/-- The sign matrix of the Walsh–Hadamard transform of length 2^k: entry (p, p') is (-1)^(number of binary digits,
among the lowest k, that p and p' both have set). -/
def sgn : ℕ → ℕ → ℕ → ℝ
  | 0, _, _ => 1
  | k + 1, p, p' =>
      (if (p / 2 ^ k) % 2 = 1 ∧ (p' / 2 ^ k) % 2 = 1 then -1 else 1) * sgn k (p % 2 ^ k) (p' % 2 ^ k)

/-- The sign matrix is symmetric. -/
theorem sgn_symm (k p p' : ℕ) : sgn k p p' = sgn k p' p := by
  induction k generalizing p p' with
  | zero => rfl
  | succ k ih =>
    simp only [sgn]
    rw [ih (p % 2 ^ k) (p' % 2 ^ k)]
    simp only [and_comm]

/-- An index below 2^k has top digit 0 and is its own remainder. -/
private theorem lo_div (k p : ℕ) (hp : p < 2 ^ k) : p / 2 ^ k = 0 := Nat.div_eq_of_lt hp

private theorem lo_mod (k p : ℕ) (hp : p < 2 ^ k) : p % 2 ^ k = p := Nat.mod_eq_of_lt hp

/-- An index 2^k + p with p below 2^k has top digit 1 and remainder p. -/
private theorem hi_div (k p : ℕ) (hp : p < 2 ^ k) : (2 ^ k + p) / 2 ^ k = 1 := by
  have h2 : 0 < 2 ^ k := Nat.two_pow_pos k
  rw [Nat.add_div_left _ h2, Nat.div_eq_of_lt hp]

private theorem hi_mod (k p : ℕ) (hp : p < 2 ^ k) : (2 ^ k + p) % 2 ^ k = p := by
  rw [Nat.add_mod_left, Nat.mod_eq_of_lt hp]

/-- The four blocks of H_{k+1}: upper left. -/
theorem sgn_succ_lo_lo (k l p : ℕ) (hl : l < 2 ^ k) (hp : p < 2 ^ k) :
    sgn (k + 1) l p = sgn k l p := by
  simp [sgn, lo_div k l hl, lo_mod k l hl, lo_mod k p hp]

/-- Upper right block. -/
theorem sgn_succ_lo_hi (k l p : ℕ) (hl : l < 2 ^ k) (hp : p < 2 ^ k) :
    sgn (k + 1) l (2 ^ k + p) = sgn k l p := by
  simp [sgn, lo_div k l hl, lo_mod k l hl, hi_mod k p hp]

/-- Lower left block. -/
theorem sgn_succ_hi_lo (k l p : ℕ) (hl : l < 2 ^ k) (hp : p < 2 ^ k) :
    sgn (k + 1) (2 ^ k + l) p = sgn k l p := by
  simp [sgn, lo_div k p hp, lo_mod k p hp, hi_mod k l hl]

/-- Lower right block: the only one with a sign change. -/
theorem sgn_succ_hi_hi (k l p : ℕ) (hl : l < 2 ^ k) (hp : p < 2 ^ k) :
    sgn (k + 1) (2 ^ k + l) (2 ^ k + p) = - sgn k l p := by
  simp [sgn, hi_div k l hl, hi_div k p hp, hi_mod k l hl, hi_mod k p hp]

/-- position l of the LOWER half (l < 2^k) of a block of length 2·2^k -/
theorem sum_sgn_succ_lo (k l : ℕ) (hl : l < 2 ^ k) (f : ℕ → ℝ) :
    ∑ p ∈ range (2 * 2 ^ k), sgn (k + 1) l p * f p
      = ∑ p ∈ range (2 ^ k), sgn k l p * f p + ∑ p ∈ range (2 ^ k), sgn k l p * f (2 ^ k + p) := by
  rw [two_mul, Finset.sum_range_add]
  congr 1
  · apply Finset.sum_congr rfl
    intro p hp
    rw [sgn_succ_lo_lo k l p hl (Finset.mem_range.mp hp)]
  · apply Finset.sum_congr rfl
    intro p hp
    rw [sgn_succ_lo_hi k l p hl (Finset.mem_range.mp hp)]

/-- position 2^k + l of the UPPER half -/
theorem sum_sgn_succ_hi (k l : ℕ) (hl : l < 2 ^ k) (f : ℕ → ℝ) :
    ∑ p ∈ range (2 * 2 ^ k), sgn (k + 1) (2 ^ k + l) p * f p
      = ∑ p ∈ range (2 ^ k), sgn k l p * f p - ∑ p ∈ range (2 ^ k), sgn k l p * f (2 ^ k + p) := by
  rw [two_mul, Finset.sum_range_add, sub_eq_add_neg, ← Finset.sum_neg_distrib]
  congr 1
  · apply Finset.sum_congr rfl
    intro p hp
    rw [sgn_succ_hi_lo k l p hl (Finset.mem_range.mp hp)]
  · apply Finset.sum_congr rfl
    intro p hp
    rw [sgn_succ_hi_hi k l p hl (Finset.mem_range.mp hp), neg_mul]

/-- base case -/
theorem sum_sgn_zero (f : ℕ → ℝ) : ∑ p ∈ range (2 ^ 0), sgn 0 0 p * f p = f 0 := by
  simp [sgn]

/-- moving the transform (scaled by c) from one factor of a dot product to the other -/
theorem pairing (K n : ℕ) (c : ℝ) (x w : ℕ → ℝ) :
    ∑ d ∈ range n, ((∑ p ∈ range n, sgn K d p * x p) * c) * w d
      = ∑ d ∈ range n, x d * ((∑ p ∈ range n, sgn K d p * w p) * c) := by
  have hL : ∀ d, ((∑ p ∈ range n, sgn K d p * x p) * c) * w d
      = ∑ p ∈ range n, sgn K d p * x p * c * w d := by
    intro d
    rw [Finset.sum_mul, Finset.sum_mul]
  have hR : ∀ d, x d * ((∑ p ∈ range n, sgn K d p * w p) * c)
      = ∑ p ∈ range n, x d * (sgn K d p * w p * c) := by
    intro d
    rw [Finset.sum_mul, Finset.mul_sum]
  simp only [hL, hR]
  rw [Finset.sum_comm]
  apply Finset.sum_congr rfl
  intro d _
  apply Finset.sum_congr rfl
  intro p _
  rw [sgn_symm K p d]
  ring

end Cert.LibWalsh
-- ==== Proof.Stages.lean ====
/-
  The fast Walsh–Hadamard transform, stage by stage.

  Rows of length n = q · 2h are cut into blocks of length h = 2^k. The invariant carried through the stages: after k
  stages every block of length 2^k holds the Walsh–Hadamard transform of the block of the ORIGINAL row at the same place:
  entry l of block number β is  Σ_{p < 2^k} sgn k l p · x₀(β · 2^k + p),  a real number. One more stage adds and
  subtracts the two halves of a block of length 2·2^k, which is the block recursion of the sign matrix, and pairing
  consecutive blocks re-establishes the invariant at k + 1.
-/
import proofs.«169559_j2336462209049_1_alg».proof.Proof.LibWalsh
import proofs.«169559_j2336462209049_1_alg».proof.Proof.LibButterfly

noncomputable section

namespace Cert.Stages

open Idealize.ShloMosaic Idealize.ShloMosaic.ValueIdx Cert.LibButterfly Cert.LibWalsh Finset

variable {R q h : Nat}

/-- After k stages: entry (r, j, s, l) — row r, block 2j + s of length h = 2^k, position l — is the transform of that
    block of the original row x₀ r, a real number. -/
def Inv (k : Nat) (x0 : Fin R → ℕ → ℝ) (X : FVec Ideal ⟨4, ![R, q, 2, h]⟩ .f32) : Prop :=
  ∀ (r : Fin R) (j : Fin q) (s : Fin 2) (l : Fin h),
    (X (ix4 r j s l) : EReal) = ((∑ p ∈ range h, sgn k l.val p * x0 r ((2 * j.val + s.val) * h + p) : ℝ) : EReal)

/-- One stage, lower half: position b of the doubled block j. -/
theorem stage_post_lo (k : Nat) (hh : h = 2 ^ k) (x0 : Fin R → ℕ → ℝ) (X : FVec Ideal ⟨4, ![R, q, 2, h]⟩ .f32)
    (hs0 hs1 hc hb hcat) (hX : Inv k x0 X) (r : Fin R) (j : Fin q) (b : Fin h) :
    (stage X hs0 hs1 hc hb hcat (ix4 r j (0 : Fin 2) b) : EReal)
      = ((∑ p ∈ range (2 * h), sgn (k + 1) b.val p * x0 r (j.val * (2 * h) + p) : ℝ) : EReal) := by
  subst hh
  rw [stage_lo, hX r j 0 b, hX r j 1 b, ← EReal.coe_add]
  congr 1
  rw [sum_sgn_succ_lo k b.val b.isLt (fun p => x0 r (j.val * (2 * 2 ^ k) + p))]
  congr 1
  · refine Finset.sum_congr rfl fun p _ => ?_
    congr 2
    show (2 * j.val + 0) * 2 ^ k + p = j.val * (2 * 2 ^ k) + p
    ring
  · refine Finset.sum_congr rfl fun p _ => ?_
    congr 2
    show (2 * j.val + 1) * 2 ^ k + p = j.val * (2 * 2 ^ k) + (2 ^ k + p)
    ring

/-- One stage, upper half: position h + b of the doubled block j. -/
theorem stage_post_hi (k : Nat) (hh : h = 2 ^ k) (x0 : Fin R → ℕ → ℝ) (X : FVec Ideal ⟨4, ![R, q, 2, h]⟩ .f32)
    (hs0 hs1 hc hb hcat) (hX : Inv k x0 X) (r : Fin R) (j : Fin q) (b : Fin h) :
    (stage X hs0 hs1 hc hb hcat (ix4 r j (1 : Fin 2) b) : EReal)
      = ((∑ p ∈ range (2 * h), sgn (k + 1) (h + b.val) p * x0 r (j.val * (2 * h) + p) : ℝ) : EReal) := by
  subst hh
  rw [stage_hi, hX r j 0 b, hX r j 1 b, ← EReal.coe_sub]
  congr 1
  rw [sum_sgn_succ_hi k b.val b.isLt (fun p => x0 r (j.val * (2 * 2 ^ k) + p))]
  congr 1
  · refine Finset.sum_congr rfl fun p _ => ?_
    congr 2
    show (2 * j.val + 0) * 2 ^ k + p = j.val * (2 * 2 ^ k) + p
    ring
  · refine Finset.sum_congr rfl fun p _ => ?_
    congr 2
    show (2 * j.val + 1) * 2 ^ k + p = j.val * (2 * 2 ^ k) + (2 ^ k + p)
    ring

/-- One stage at any position c < 2h of the doubled block j, the half and the place in it named by c / h and c % h. -/
theorem stage_post (k : Nat) (hh : h = 2 ^ k) (x0 : Fin R → ℕ → ℝ) (X : FVec Ideal ⟨4, ![R, q, 2, h]⟩ .f32)
    (hs0 hs1 hc hb hcat) (hX : Inv k x0 X) (r : Fin R) (j : Fin q) (c : Nat) (hc2 : c < 2 * h) (hpos : 0 < h) :
    (stage X hs0 hs1 hc hb hcat (ix4 r j ⟨c / h, by rw [Nat.div_lt_iff_lt_mul hpos]; omega⟩ ⟨c % h, Nat.mod_lt _ hpos⟩) : EReal)
      = ((∑ p ∈ range (2 * h), sgn (k + 1) c p * x0 r (j.val * (2 * h) + p) : ℝ) : EReal) := by
  by_cases hlt : c < h
  · have e0 : (⟨c / h, by rw [Nat.div_lt_iff_lt_mul hpos]; omega⟩ : Fin 2) = 0 := Fin.ext (Nat.div_eq_of_lt hlt)
    have e1 : (⟨c % h, Nat.mod_lt _ hpos⟩ : Fin h) = ⟨c, hlt⟩ := Fin.ext (Nat.mod_eq_of_lt hlt)
    rw [e0, e1, stage_post_lo k hh x0 X hs0 hs1 hc hb hcat hX r j ⟨c, hlt⟩]
  · have hge : h ≤ c := Nat.le_of_not_lt hlt
    have hlt' : c - h < h := by omega
    have ed : c / h = 1 := Nat.div_eq_of_lt_le (by omega) (by omega)
    have em : c % h = c - h := by rw [Nat.mod_eq_sub_mod hge, Nat.mod_eq_of_lt hlt']
    have e0 : (⟨c / h, by rw [Nat.div_lt_iff_lt_mul hpos]; omega⟩ : Fin 2) = 1 := Fin.ext ed
    have e1 : (⟨c % h, Nat.mod_lt _ hpos⟩ : Fin h) = ⟨c - h, hlt'⟩ := Fin.ext em
    rw [e0, e1, stage_post_hi k hh x0 X hs0 hs1 hc hb hcat hX r j ⟨c - h, hlt'⟩]
    have : h + (c - h) = c := by omega
    simp only [this]

/-- A stage followed by the pairing of consecutive blocks carries the invariant from k to k + 1. -/
theorem step (k q' h2 : Nat) (hh : h = 2 ^ k) (hq : q = 2 * q') (hh2 : h2 = 2 * h) (x0 : Fin R → ℕ → ℝ)
    (X : FVec Ideal ⟨4, ![R, q, 2, h]⟩ .f32) (hs0 hs1 hc hb hcat)
    (hrs : (⟨4, ![R, q, 2, h]⟩ : Shape).ShapeCasts ⟨4, ![R, q', 2, h2]⟩) (hX : Inv k x0 X) :
    Inv (k + 1) x0 (shapeCast ⟨4, ![R, q', 2, h2]⟩ (stage X hs0 hs1 hc hb hcat) hrs) := by
  have hpos : 0 < h := by rw [hh]; exact Nat.two_pow_pos k
  intro r j' s' l'
  rw [regroup_apply q' h2 hq hh2 hpos _ hrs r j' s' l']
  have hl := l'.isLt
  rw [stage_post k hh x0 X hs0 hs1 hc hb hcat hX r _ l'.val (by omega) hpos]
  subst hh2
  rfl

end Cert.Stages

end
-- ==== Proof.LibFinite.lean ====
/-
  Extended reals that are real numbers, and a "finite inputs" check read back.

  * `IsReal x`: the extended real `x` is (the coercion of) a real number. The coercion commutes with finite sums and
    with maxima (`coe_sum`, `coe_max`).
  * An extended real whose absolute value — the larger of `x` and `−x` — is below `+∞` (the word `0x7F800000`) is a
    real number (`isReal_of_abs_lt`).
  * A precondition's check of one array — compare every entry's absolute value with the splat of `+∞`, reduce the
    verdicts by "and" from "true" into one — that came out "true" says every entry of the array is a real number
    (`isReal_of_check`), whatever the array's shape.
-/
import Idealize.ShloMosaic.Lib.ReduceAll
import Idealize.ShloMosaic.Lib.Pipeline.Value
import Idealize.ShloMosaic.Lib.ValueIdx
import Idealize.ShloMosaic.PureOps.Ideal

noncomputable section

namespace Cert.LibFinite

open Idealize.ShloMosaic Idealize.ShloMosaic.ValueIdx

/-- An extended real that is a real number. -/
def IsReal (x : EReal) : Prop := ∃ r : ℝ, x = (r : EReal)

/-- The coercion of a finite sum of reals is the sum of the coercions. -/
theorem coe_sum {ι : Type} (t : Finset ι) (f : ι → ℝ) : ((∑ i ∈ t, f i : ℝ) : EReal) = ∑ i ∈ t, (f i : EReal) := by
  classical
  refine Finset.induction_on t ?_ ?_
  · simp
  · intro a t ha ih
    rw [Finset.sum_insert ha, Finset.sum_insert ha, EReal.coe_add, ih]

/-- The coercion of a maximum of reals is the maximum of the coercions. -/
theorem coe_max (a b : ℝ) : ((max a b : ℝ) : EReal) = max (a : EReal) (b : EReal) :=
  EReal.coe_strictMono.monotone.map_max

/-- The scalar shape has one index. -/
instance : Subsingleton (⟨0, ![]⟩ : Shape).Idx := ⟨fun _ _ => funext fun d => d.elim0⟩

/-- An extended real whose absolute value is below `+∞` is a real number. -/
theorem isReal_of_abs_lt (x : EReal) (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  by_cases ht : x = ⊤
  · subst ht; simp [Ideal.cmp] at h
  by_cases hb : x = ⊥
  · subst hb; simp [Ideal.cmp] at h
  lift x to ℝ using ⟨ht, hb⟩
  exact ⟨x, rfl⟩

/-- One array's check read back: if "every entry's absolute value is below `+∞`" came out true, every entry is real. -/
theorem isReal_of_check {s : Shape} {axes : List (Fin s.rank)} (x : FVec Ideal s .f32)
    (dims : Fin (⟨0, ![]⟩ : Shape).rank → Fin s.rank) (hb : (⟨0, ![]⟩ : Shape).BroadcastsInDim s dims)
    (hr : s.ReducesTo axes ⟨0, ![]⟩) (hu : 0 < (⟨0, ![]⟩ : Shape).numel)
    (e : Host.reduce IntOp.andi (cmpf .olt (Host.absf x) (broadcastInDim s dims hb (constant ⟨0, ![]⟩ .f32 0x7F800000#32)))
      (constantI ⟨0, ![]⟩ 1 1#1) hr hu ix0 = 1#1) (i : s.Idx) : IsReal (x i) := by
  have h := Host.reduce_andi_all _ _ hr hu ix0 e i
  have hb' : broadcastInDim s dims hb (constant (F := Ideal) ⟨0, ![]⟩ .f32 0x7F800000#32) i = Ideal.ofBits .f32 0x7F800000#32 :=
    broadcastInDim_apply dims hb _ i ix0 (fun a => a.elim0)
  apply isReal_of_abs_lt
  rw [← hb']
  exact h

end Cert.LibFinite

end
-- ==== Proof.RefValue.lean ====
/-
  The reference's result, entry by entry.

  The reference rotates the activations: x : [4, 2048, 4096] is re-laid as 8192 rows of length 4096, each row passes
  through the twelve butterfly stages, is re-laid back and multiplied by 2⁻⁶. Row r = 2048·b + s of the rotated array is
  therefore  2⁻⁶ · Σ_p sgn 12 d p · x(b, s, p)  at position d. The result is the contraction of that array with the weight
  matrix over the last axis, plus the bias:  out(b, s, o) = Σ_d xrot(b, s, d) · W(o, d) + bias(o).
-/
import proofs.«169559_j2336462209049_1_alg».proof.Proof.RefRun
import proofs.«169559_j2336462209049_1_alg».proof.Proof.Stages
import proofs.«169559_j2336462209049_1_alg».proof.Proof.LibFinite
import Idealize.ShloMosaic.PureOps.Ideal.Laws

noncomputable section

namespace Cert.ReferenceIdeal.RefValue

open Cert.ReferenceIdeal Cert.ReferenceIdeal.Gen Cert.ReferenceIdeal.RefRun
open Idealize.ShloMosaic Idealize.ShloMosaic.ValueIdx Idealize.ShloMosaic.TcCoe Idealize.ShloMosaic.StableHlo
open Cert.LibButterfly Cert.LibWalsh Cert.Stages Cert.LibFinite Finset

/-- The scale 2⁻⁶ = 1/64, the float word both programs multiply by. -/
theorem scale_word : Ideal.ofBits .f32 0x3C800000#32 = ((1 / 64 : ℝ) : EReal) := by
  simp [Ideal.ofBits, Ideal.ieee, -EReal.coe_mul]; norm_num

/-- Row r = 2048·b + s of the activations, as a sequence (zero past the row's end). -/
def xrow (xr : S4x2048x4096.Idx → ℝ) : Fin 8192 → ℕ → ℝ := fun r d =>
  if hd : d < 4096 then
    xr (ix3 ⟨r.val / 2048, by have := r.isLt; omega⟩ ⟨r.val % 2048, Nat.mod_lt _ (by norm_num)⟩ ⟨d, hd⟩)
  else 0

section
variable (A : FVec Ideal S4x2048x4096 .f32) (xr : S4x2048x4096.Idx → ℝ)
  (hx : ∀ i, (A i : EReal) = ((xr i : ℝ) : EReal))
include hx

/-- Before the first stage every block is one entry of the row. -/
theorem inv0 : Inv (R := 8192) (q := 2048) (h := 1) 0 (xrow xr) (X0 A) := by
  intro r j s l
  have hl : l.val = 0 := by have := l.isLt; omega
  have hr := r.isLt
  have hj := j.isLt
  have hs := s.isLt
  have hd : 2 * j.val + s.val < 4096 := by omega
  unfold X0
  refine (shapeCast_apply _ shapeCasts_S8192x4096_S8192x2048x2x1 _ (ix2 r ⟨2 * j.val + s.val, hd⟩) ?_).trans ?_
  · rw [Shape.rowMajor_val_two, Shape.rowMajor_val_four]
    show r.val * 4096 + (2 * j.val + s.val) = ((r.val * 2048 + j.val) * 2 + s.val) * 1 + l.val
    omega
  refine (shapeCast_apply _ shapeCasts_S4x2048x4096_S8192x4096 _
    (ix3 ⟨r.val / 2048, by omega⟩ ⟨r.val % 2048, Nat.mod_lt _ (by norm_num)⟩ ⟨2 * j.val + s.val, hd⟩) ?_).trans ?_
  · rw [Shape.rowMajor_val_three, Shape.rowMajor_val_two]
    show (r.val / 2048 * 2048 + r.val % 2048) * 4096 + (2 * j.val + s.val) = r.val * 4096 + (2 * j.val + s.val)
    omega
  rw [hx]
  congr 1
  have e : ∑ p ∈ range 1, sgn 0 l.val p * xrow xr r ((2 * j.val + s.val) * 1 + p) = xrow xr r (2 * j.val + s.val) := by
    simp only [Finset.sum_range_one, sgn, one_mul, Nat.mul_one, Nat.add_zero]
  rw [e]
  unfold xrow
  rw [dif_pos hd]

theorem inv1 : Inv (R := 8192) (q := 1024) (h := 2) 1 (xrow xr) (X1 A) :=
  step (R := 8192) (q := 2048) (h := 1) 0 1024 2 (by norm_num) (by norm_num) (by norm_num) (xrow xr) (X0 A)
    slices_S8192x2048x2x1_S8192x2048x1x1_0_0_0_0 slices_S8192x2048x2x1_S8192x2048x1x1_0_0_1_0 shapeCasts_S8192x2048x1x1_S8192x2048x1 bcast_S8192x2048x1_S8192x2048x1x1_0_1_3 concatenates_S8192x2048x1x1_S8192x2048x1x1_S8192x2048x2x1_d2
    shapeCasts_S8192x2048x2x1_S8192x1024x2x2 (inv0 A xr hx)

theorem inv2 : Inv (R := 8192) (q := 512) (h := 4) 2 (xrow xr) (X2 A) :=
  step (R := 8192) (q := 1024) (h := 2) 1 512 4 (by norm_num) (by norm_num) (by norm_num) (xrow xr) (X1 A)
    slices_S8192x1024x2x2_S8192x1024x1x2_0_0_0_0 slices_S8192x1024x2x2_S8192x1024x1x2_0_0_1_0 shapeCasts_S8192x1024x1x2_S8192x1024x2 bcast_S8192x1024x2_S8192x1024x1x2_0_1_3 concatenates_S8192x1024x1x2_S8192x1024x1x2_S8192x1024x2x2_d2
    shapeCasts_S8192x1024x2x2_S8192x512x2x4 (inv1 A xr hx)

theorem inv3 : Inv (R := 8192) (q := 256) (h := 8) 3 (xrow xr) (X3 A) :=
  step (R := 8192) (q := 512) (h := 4) 2 256 8 (by norm_num) (by norm_num) (by norm_num) (xrow xr) (X2 A)
    slices_S8192x512x2x4_S8192x512x1x4_0_0_0_0 slices_S8192x512x2x4_S8192x512x1x4_0_0_1_0 shapeCasts_S8192x512x1x4_S8192x512x4 bcast_S8192x512x4_S8192x512x1x4_0_1_3 concatenates_S8192x512x1x4_S8192x512x1x4_S8192x512x2x4_d2
    shapeCasts_S8192x512x2x4_S8192x256x2x8 (inv2 A xr hx)

theorem inv4 : Inv (R := 8192) (q := 128) (h := 16) 4 (xrow xr) (X4 A) :=
  step (R := 8192) (q := 256) (h := 8) 3 128 16 (by norm_num) (by norm_num) (by norm_num) (xrow xr) (X3 A)
    slices_S8192x256x2x8_S8192x256x1x8_0_0_0_0 slices_S8192x256x2x8_S8192x256x1x8_0_0_1_0 shapeCasts_S8192x256x1x8_S8192x256x8 bcast_S8192x256x8_S8192x256x1x8_0_1_3 concatenates_S8192x256x1x8_S8192x256x1x8_S8192x256x2x8_d2
    shapeCasts_S8192x256x2x8_S8192x128x2x16 (inv3 A xr hx)

theorem inv5 : Inv (R := 8192) (q := 64) (h := 32) 5 (xrow xr) (X5 A) :=
  step (R := 8192) (q := 128) (h := 16) 4 64 32 (by norm_num) (by norm_num) (by norm_num) (xrow xr) (X4 A)
    slices_S8192x128x2x16_S8192x128x1x16_0_0_0_0 slices_S8192x128x2x16_S8192x128x1x16_0_0_1_0 shapeCasts_S8192x128x1x16_S8192x128x16 bcast_S8192x128x16_S8192x128x1x16_0_1_3 concatenates_S8192x128x1x16_S8192x128x1x16_S8192x128x2x16_d2
    shapeCasts_S8192x128x2x16_S8192x64x2x32 (inv4 A xr hx)

theorem inv6 : Inv (R := 8192) (q := 32) (h := 64) 6 (xrow xr) (X6 A) :=
  step (R := 8192) (q := 64) (h := 32) 5 32 64 (by norm_num) (by norm_num) (by norm_num) (xrow xr) (X5 A)
    slices_S8192x64x2x32_S8192x64x1x32_0_0_0_0 slices_S8192x64x2x32_S8192x64x1x32_0_0_1_0 shapeCasts_S8192x64x1x32_S8192x64x32 bcast_S8192x64x32_S8192x64x1x32_0_1_3 concatenates_S8192x64x1x32_S8192x64x1x32_S8192x64x2x32_d2
    shapeCasts_S8192x64x2x32_S8192x32x2x64 (inv5 A xr hx)

theorem inv7 : Inv (R := 8192) (q := 16) (h := 128) 7 (xrow xr) (X7 A) :=
  step (R := 8192) (q := 32) (h := 64) 6 16 128 (by norm_num) (by norm_num) (by norm_num) (xrow xr) (X6 A)
    slices_S8192x32x2x64_S8192x32x1x64_0_0_0_0 slices_S8192x32x2x64_S8192x32x1x64_0_0_1_0 shapeCasts_S8192x32x1x64_S8192x32x64 bcast_S8192x32x64_S8192x32x1x64_0_1_3 concatenates_S8192x32x1x64_S8192x32x1x64_S8192x32x2x64_d2
    shapeCasts_S8192x32x2x64_S8192x16x2x128 (inv6 A xr hx)

theorem inv8 : Inv (R := 8192) (q := 8) (h := 256) 8 (xrow xr) (X8 A) :=
  step (R := 8192) (q := 16) (h := 128) 7 8 256 (by norm_num) (by norm_num) (by norm_num) (xrow xr) (X7 A)
    slices_S8192x16x2x128_S8192x16x1x128_0_0_0_0 slices_S8192x16x2x128_S8192x16x1x128_0_0_1_0 shapeCasts_S8192x16x1x128_S8192x16x128 bcast_S8192x16x128_S8192x16x1x128_0_1_3 concatenates_S8192x16x1x128_S8192x16x1x128_S8192x16x2x128_d2
    shapeCasts_S8192x16x2x128_S8192x8x2x256 (inv7 A xr hx)

theorem inv9 : Inv (R := 8192) (q := 4) (h := 512) 9 (xrow xr) (X9 A) :=
  step (R := 8192) (q := 8) (h := 256) 8 4 512 (by norm_num) (by norm_num) (by norm_num) (xrow xr) (X8 A)
    slices_S8192x8x2x256_S8192x8x1x256_0_0_0_0 slices_S8192x8x2x256_S8192x8x1x256_0_0_1_0 shapeCasts_S8192x8x1x256_S8192x8x256 bcast_S8192x8x256_S8192x8x1x256_0_1_3 concatenates_S8192x8x1x256_S8192x8x1x256_S8192x8x2x256_d2
    shapeCasts_S8192x8x2x256_S8192x4x2x512 (inv8 A xr hx)

theorem inv10 : Inv (R := 8192) (q := 2) (h := 1024) 10 (xrow xr) (X10 A) :=
  step (R := 8192) (q := 4) (h := 512) 9 2 1024 (by norm_num) (by norm_num) (by norm_num) (xrow xr) (X9 A)
    slices_S8192x4x2x512_S8192x4x1x512_0_0_0_0 slices_S8192x4x2x512_S8192x4x1x512_0_0_1_0 shapeCasts_S8192x4x1x512_S8192x4x512 bcast_S8192x4x512_S8192x4x1x512_0_1_3 concatenates_S8192x4x1x512_S8192x4x1x512_S8192x4x2x512_d2
    shapeCasts_S8192x4x2x512_S8192x2x2x1024 (inv9 A xr hx)

theorem inv11 : Inv (R := 8192) (q := 1) (h := 2048) 11 (xrow xr) (X11 A) :=
  step (R := 8192) (q := 2) (h := 1024) 10 1 2048 (by norm_num) (by norm_num) (by norm_num) (xrow xr) (X10 A)
    slices_S8192x2x2x1024_S8192x2x1x1024_0_0_0_0 slices_S8192x2x2x1024_S8192x2x1x1024_0_0_1_0 shapeCasts_S8192x2x1x1024_S8192x2x1024 bcast_S8192x2x1024_S8192x2x1x1024_0_1_3 concatenates_S8192x2x1x1024_S8192x2x1x1024_S8192x2x2x1024_d2
    shapeCasts_S8192x2x2x1024_S8192x1x2x2048 (inv10 A xr hx)

/-- Entry (b, s, d) of the rotated activations. -/
theorem xrot_apply (b : Fin 4) (s : Fin 2048) (d : Fin 4096) :
    (Xrot A (ix3 b s d) : EReal)
      = (((∑ p ∈ range 4096, sgn 12 d.val p * xrow xr ⟨b.val * 2048 + s.val, by have := b.isLt; have := s.isLt; omega⟩ p) * (1 / 64) : ℝ) : EReal) := by
  have hb := b.isLt
  have hs := s.isLt
  have hd := d.isLt
  unfold Xrot
  rw [mulf_apply]
  have e1 : shapeCast S4x2048x4096 (stage (R := 8192) (q := 1) (h := 2048) (X11 A) slices_S8192x1x2x2048_S8192x1x1x2048_0_0_0_0 slices_S8192x1x2x2048_S8192x1x1x2048_0_0_1_0 shapeCasts_S8192x1x1x2048_S8192x1x2048 bcast_S8192x1x2048_S8192x1x1x2048_0_1_3 concatenates_S8192x1x1x2048_S8192x1x1x2048_S8192x1x2x2048_d2) shapeCasts_S8192x1x2x2048_S4x2048x4096 (ix3 b s d)
      = stage (R := 8192) (q := 1) (h := 2048) (X11 A) slices_S8192x1x2x2048_S8192x1x1x2048_0_0_0_0 slices_S8192x1x2x2048_S8192x1x1x2048_0_0_1_0 shapeCasts_S8192x1x1x2048_S8192x1x2048 bcast_S8192x1x2048_S8192x1x1x2048_0_1_3 concatenates_S8192x1x1x2048_S8192x1x1x2048_S8192x1x2x2048_d2
          (ix4 (⟨b.val * 2048 + s.val, by omega⟩ : Fin 8192) (0 : Fin 1) ⟨d.val / 2048, by rw [Nat.div_lt_iff_lt_mul (by norm_num)]; omega⟩ ⟨d.val % 2048, Nat.mod_lt _ (by norm_num)⟩) :=
    shapeCast_apply _ _ _ _ (by
      rw [Shape.rowMajor_val_four, Shape.rowMajor_val_three]
      show (((b.val * 2048 + s.val) * 1 + 0) * 2 + d.val / 2048) * 2048 + d.val % 2048 = (b.val * 2048 + s.val) * 4096 + d.val
      omega)
  have e2 : broadcastInDim S4x2048x4096 ![] bcast_S_S4x2048x4096 (constant (F := Ideal) S_ .f32 0x3C800000#32) (ix3 b s d)
      = Ideal.ofBits .f32 0x3C800000#32 :=
    broadcastInDim_apply _ bcast_S_S4x2048x4096 _ _ ix0 (fun a => a.elim0)
  rw [e1, e2, scale_word,
    stage_post 11 (by norm_num) (xrow xr) (X11 A) slices_S8192x1x2x2048_S8192x1x1x2048_0_0_0_0 slices_S8192x1x2x2048_S8192x1x1x2048_0_0_1_0 shapeCasts_S8192x1x1x2048_S8192x1x2048 bcast_S8192x1x2048_S8192x1x1x2048_0_1_3 concatenates_S8192x1x1x2048_S8192x1x1x2048_S8192x1x2x2048_d2 (inv11 A xr hx)
      (⟨b.val * 2048 + s.val, by omega⟩ : Fin 8192) (0 : Fin 1) d.val (by omega) (by norm_num),
    ← EReal.coe_mul]
  congr 2

end

local notation "Dref" => dot_S4x2048x4096_S11008x4096_S4x2048x11008_2_1_01_0_n_n

/-- Entry (b, s, o) of the result: the rotated row against row o of the weight, plus the bias. -/
theorem refOut_apply (A : FVec Ideal S4x2048x4096 .f32) (W : FVec Ideal S11008x4096 .f32) (B : FVec Ideal S11008 .f32)
    (b : Fin 4) (s : Fin 2048) (o : Fin 11008) :
    (refOut A W B (ix3 b s o) : EReal)
      = (∑ k : Fin 4096, (Xrot A (ix3 b s k) : EReal) * (W (ix2 o k) : EReal)) + (B (ix1 o) : EReal) := by
  unfold refOut
  rw [addf_apply]
  congr 1
  · simp only [Host.dotGeneral]
    rw [Ideal.dotGeneral_apply]
    have hr : (Dref).contr.rank = 1 := rfl
    have hs : (Dref).contr.size ⟨0, by omega⟩ = 4096 := rfl
    rw [← Equiv.sum_comp (contrEquiv1 (Dref) 4096 hr hs).symm]
    refine Finset.sum_congr rfl fun k _ => ?_
    have hk := contrEquiv1_symm_val (Dref) 4096 hr hs k
    have el : (Dref).lhsIdx (ix3 b s o) ((contrEquiv1 (Dref) 4096 hr hs).symm k) = ix3 b s k := funext fun a => Fin.ext (by
      match a with
      | ⟨0, _⟩ => rfl
      | ⟨1, _⟩ => rfl
      | ⟨2, _⟩ => exact ((Dref).lhsIdx_val_of_single (cl := 2) rfl _ _).trans hk)
    have er : (Dref).rhsIdx (ix3 b s o) ((contrEquiv1 (Dref) 4096 hr hs).symm k) = ix2 o k := funext fun a => Fin.ext (by
      match a with
      | ⟨0, _⟩ => rfl
      | ⟨1, _⟩ => exact ((Dref).rhsIdx_val_of_single (cr := 1) rfl _ _).trans hk)
    rw [el, er]
  · refine (broadcastInDim_apply _ bcast_S1x1x11008_S4x2048x11008_0_1_2 _ _ (ix3 (0 : Fin 1) (0 : Fin 1) o) (fun a => match a with
      | ⟨0, _⟩ => rfl
      | ⟨1, _⟩ => rfl
      | ⟨2, _⟩ => rfl)).trans ?_
    exact broadcastInDim_apply _ bcast_S11008_S1x1x11008_2 _ _ (ix1 o) (fun a => match a with
      | ⟨0, _⟩ => rfl)

end Cert.ReferenceIdeal.RefValue

end
-- ==== Proof.KernelHost.lean ====
/-
  The kernel's preparation of its operands, before the launch.

  The weight matrix W : [11008, 4096] is rotated row by row: twelve butterfly stages over the rows cut into blocks of
  length 1, 2, 4, …, 2048, then every entry is multiplied by 2⁻⁶ and rounded to the narrower format (the identity on the
  extended reals). The activations are re-laid as [8192, 4096] and rounded; the bias is re-laid as one row [1, 11008].
  The host lines are read in order, a stage at a time: three lines that re-lay the inputs, twelve stages of ten lines,
  five closing lines. Each stage's input array is named, K0 … K11.
-/
import proofs.«169559_j2336462209049_1_alg».proof.Proof.Gen.KernelIdeal.Frame
import proofs.«169559_j2336462209049_1_alg».proof.Proof.LibButterfly
import Idealize.ShloMosaic.Lib.StableHlo.Run
import Idealize.ShloMosaic.Lib.Pipeline.Frame

noncomputable section

namespace Cert.KernelIdeal.HostPrefix

open Cert.KernelIdeal Cert.KernelIdeal.Gen Idealize.ShloMosaic Idealize.ShloMosaic.TcCoe Idealize.SL.Sem
open Idealize.ShloMosaic.StableHlo Cert.LibButterfly

/-- The weight rows cut into 2048 blocks of two halves of one entry. -/
def K0 (W : FVec Ideal S11008x4096 .f32) : FVec Ideal S11008x2048x2x1 .f32 :=
  shapeCast S11008x2048x2x1 W shapeCasts_S11008x4096_S11008x2048x2x1

/-- After stage 1: blocks of two halves of 2 entries. -/
def K1 (W : FVec Ideal S11008x4096 .f32) : FVec Ideal S11008x1024x2x2 .f32 :=
  shapeCast S11008x1024x2x2 (stage (R := 11008) (q := 2048) (h := 1) (K0 W) slices_S11008x2048x2x1_S11008x2048x1x1_0_0_0_0 slices_S11008x2048x2x1_S11008x2048x1x1_0_0_1_0 shapeCasts_S11008x2048x1x1_S11008x2048x1 bcast_S11008x2048x1_S11008x2048x1x1_0_1_3 concatenates_S11008x2048x1x1_S11008x2048x1x1_S11008x2048x2x1_d2) shapeCasts_S11008x2048x2x1_S11008x1024x2x2

/-- After stage 2: blocks of two halves of 4 entries. -/
def K2 (W : FVec Ideal S11008x4096 .f32) : FVec Ideal S11008x512x2x4 .f32 :=
  shapeCast S11008x512x2x4 (stage (R := 11008) (q := 1024) (h := 2) (K1 W) slices_S11008x1024x2x2_S11008x1024x1x2_0_0_0_0 slices_S11008x1024x2x2_S11008x1024x1x2_0_0_1_0 shapeCasts_S11008x1024x1x2_S11008x1024x2 bcast_S11008x1024x2_S11008x1024x1x2_0_1_3 concatenates_S11008x1024x1x2_S11008x1024x1x2_S11008x1024x2x2_d2) shapeCasts_S11008x1024x2x2_S11008x512x2x4

/-- After stage 3: blocks of two halves of 8 entries. -/
def K3 (W : FVec Ideal S11008x4096 .f32) : FVec Ideal S11008x256x2x8 .f32 :=
  shapeCast S11008x256x2x8 (stage (R := 11008) (q := 512) (h := 4) (K2 W) slices_S11008x512x2x4_S11008x512x1x4_0_0_0_0 slices_S11008x512x2x4_S11008x512x1x4_0_0_1_0 shapeCasts_S11008x512x1x4_S11008x512x4 bcast_S11008x512x4_S11008x512x1x4_0_1_3 concatenates_S11008x512x1x4_S11008x512x1x4_S11008x512x2x4_d2) shapeCasts_S11008x512x2x4_S11008x256x2x8

/-- After stage 4: blocks of two halves of 16 entries. -/
def K4 (W : FVec Ideal S11008x4096 .f32) : FVec Ideal S11008x128x2x16 .f32 :=
  shapeCast S11008x128x2x16 (stage (R := 11008) (q := 256) (h := 8) (K3 W) slices_S11008x256x2x8_S11008x256x1x8_0_0_0_0 slices_S11008x256x2x8_S11008x256x1x8_0_0_1_0 shapeCasts_S11008x256x1x8_S11008x256x8 bcast_S11008x256x8_S11008x256x1x8_0_1_3 concatenates_S11008x256x1x8_S11008x256x1x8_S11008x256x2x8_d2) shapeCasts_S11008x256x2x8_S11008x128x2x16

/-- After stage 5: blocks of two halves of 32 entries. -/
def K5 (W : FVec Ideal S11008x4096 .f32) : FVec Ideal S11008x64x2x32 .f32 :=
  shapeCast S11008x64x2x32 (stage (R := 11008) (q := 128) (h := 16) (K4 W) slices_S11008x128x2x16_S11008x128x1x16_0_0_0_0 slices_S11008x128x2x16_S11008x128x1x16_0_0_1_0 shapeCasts_S11008x128x1x16_S11008x128x16 bcast_S11008x128x16_S11008x128x1x16_0_1_3 concatenates_S11008x128x1x16_S11008x128x1x16_S11008x128x2x16_d2) shapeCasts_S11008x128x2x16_S11008x64x2x32

/-- After stage 6: blocks of two halves of 64 entries. -/
def K6 (W : FVec Ideal S11008x4096 .f32) : FVec Ideal S11008x32x2x64 .f32 :=
  shapeCast S11008x32x2x64 (stage (R := 11008) (q := 64) (h := 32) (K5 W) slices_S11008x64x2x32_S11008x64x1x32_0_0_0_0 slices_S11008x64x2x32_S11008x64x1x32_0_0_1_0 shapeCasts_S11008x64x1x32_S11008x64x32 bcast_S11008x64x32_S11008x64x1x32_0_1_3 concatenates_S11008x64x1x32_S11008x64x1x32_S11008x64x2x32_d2) shapeCasts_S11008x64x2x32_S11008x32x2x64

/-- After stage 7: blocks of two halves of 128 entries. -/
def K7 (W : FVec Ideal S11008x4096 .f32) : FVec Ideal S11008x16x2x128 .f32 :=
  shapeCast S11008x16x2x128 (stage (R := 11008) (q := 32) (h := 64) (K6 W) slices_S11008x32x2x64_S11008x32x1x64_0_0_0_0 slices_S11008x32x2x64_S11008x32x1x64_0_0_1_0 shapeCasts_S11008x32x1x64_S11008x32x64 bcast_S11008x32x64_S11008x32x1x64_0_1_3 concatenates_S11008x32x1x64_S11008x32x1x64_S11008x32x2x64_d2) shapeCasts_S11008x32x2x64_S11008x16x2x128

/-- After stage 8: blocks of two halves of 256 entries. -/
def K8 (W : FVec Ideal S11008x4096 .f32) : FVec Ideal S11008x8x2x256 .f32 :=
  shapeCast S11008x8x2x256 (stage (R := 11008) (q := 16) (h := 128) (K7 W) slices_S11008x16x2x128_S11008x16x1x128_0_0_0_0 slices_S11008x16x2x128_S11008x16x1x128_0_0_1_0 shapeCasts_S11008x16x1x128_S11008x16x128 bcast_S11008x16x128_S11008x16x1x128_0_1_3 concatenates_S11008x16x1x128_S11008x16x1x128_S11008x16x2x128_d2) shapeCasts_S11008x16x2x128_S11008x8x2x256

/-- After stage 9: blocks of two halves of 512 entries. -/
def K9 (W : FVec Ideal S11008x4096 .f32) : FVec Ideal S11008x4x2x512 .f32 :=
  shapeCast S11008x4x2x512 (stage (R := 11008) (q := 8) (h := 256) (K8 W) slices_S11008x8x2x256_S11008x8x1x256_0_0_0_0 slices_S11008x8x2x256_S11008x8x1x256_0_0_1_0 shapeCasts_S11008x8x1x256_S11008x8x256 bcast_S11008x8x256_S11008x8x1x256_0_1_3 concatenates_S11008x8x1x256_S11008x8x1x256_S11008x8x2x256_d2) shapeCasts_S11008x8x2x256_S11008x4x2x512

/-- After stage 10: blocks of two halves of 1024 entries. -/
def K10 (W : FVec Ideal S11008x4096 .f32) : FVec Ideal S11008x2x2x1024 .f32 :=
  shapeCast S11008x2x2x1024 (stage (R := 11008) (q := 4) (h := 512) (K9 W) slices_S11008x4x2x512_S11008x4x1x512_0_0_0_0 slices_S11008x4x2x512_S11008x4x1x512_0_0_1_0 shapeCasts_S11008x4x1x512_S11008x4x512 bcast_S11008x4x512_S11008x4x1x512_0_1_3 concatenates_S11008x4x1x512_S11008x4x1x512_S11008x4x2x512_d2) shapeCasts_S11008x4x2x512_S11008x2x2x1024

/-- After stage 11: blocks of two halves of 2048 entries. -/
def K11 (W : FVec Ideal S11008x4096 .f32) : FVec Ideal S11008x1x2x2048 .f32 :=
  shapeCast S11008x1x2x2048 (stage (R := 11008) (q := 2) (h := 1024) (K10 W) slices_S11008x2x2x1024_S11008x2x1x1024_0_0_0_0 slices_S11008x2x2x1024_S11008x2x1x1024_0_0_1_0 shapeCasts_S11008x2x1x1024_S11008x2x1024 bcast_S11008x2x1024_S11008x2x1x1024_0_1_3 concatenates_S11008x2x1x1024_S11008x2x1x1024_S11008x2x2x1024_d2) shapeCasts_S11008x2x2x1024_S11008x1x2x2048

/-- The rotated weight: the twelfth stage, re-laid as [11008, 4096], scaled by 2⁻⁶ and rounded. -/
def Wrot (W : FVec Ideal S11008x4096 .f32) : FVec Ideal S11008x4096 .bf16 :=
  truncf .bf16 (mulf (shapeCast S11008x4096 (stage (R := 11008) (q := 1) (h := 2048) (K11 W) slices_S11008x1x2x2048_S11008x1x1x2048_0_0_0_0 slices_S11008x1x2x2048_S11008x1x1x2048_0_0_1_0 shapeCasts_S11008x1x1x2048_S11008x1x2048 bcast_S11008x1x2048_S11008x1x1x2048_0_1_3 concatenates_S11008x1x1x2048_S11008x1x1x2048_S11008x1x2x2048_d2) shapeCasts_S11008x1x2x2048_S11008x4096)
    (broadcastInDim S11008x4096 ![] bcast_S_S11008x4096 (constant S_ .f32 0x3C800000#32))) bitsLt_bf16_f32

/-! ## The host lines, a stage at a time -/

variable {F : FTy → Type} [FloatOps F]

/-- The three lines that re-lay the inputs. -/
abbrev pre : List (HloOp τ sig (Elt F)) :=
  [ StableHlo.reshape main_arg0 main_v0 rfl shapeCasts_S4x2048x4096_S8192x4096,
    StableHlo.unary main_v0 main_v1 ((truncf .bf16 · bitsLt_bf16_f32) : (⟨S8192x4096, .f32⟩ : BufTy).Contents (Elt F) → (⟨S8192x4096, .bf16⟩ : BufTy).Contents (Elt F)),
    StableHlo.reshape main_arg1 main_v2 rfl shapeCasts_S11008x4096_S11008x2048x2x1 ]

/-- The ten lines of stage 1. -/
abbrev seg0 : List (HloOp τ sig (Elt F)) :=
  [ StableHlo.unary main_v2 main_v3 ((extractStridedSlice S11008x2048x1x1 ![0, 0, 0, 0] · slices_S11008x2048x2x1_S11008x2048x1x1_0_0_0_0) : (⟨S11008x2048x2x1, .f32⟩ : BufTy).Contents (Elt F) → (⟨S11008x2048x1x1, .f32⟩ : BufTy).Contents (Elt F)),
    StableHlo.reshape main_v3 main_v4 rfl shapeCasts_S11008x2048x1x1_S11008x2048x1,
    StableHlo.unary main_v2 main_v5 ((extractStridedSlice S11008x2048x1x1 ![0, 0, 1, 0] · slices_S11008x2048x2x1_S11008x2048x1x1_0_0_1_0) : (⟨S11008x2048x2x1, .f32⟩ : BufTy).Contents (Elt F) → (⟨S11008x2048x1x1, .f32⟩ : BufTy).Contents (Elt F)),
    StableHlo.reshape main_v5 main_v6 rfl shapeCasts_S11008x2048x1x1_S11008x2048x1,
    StableHlo.binary main_v4 main_v6 main_v7 (addf : (⟨S11008x2048x1, .f32⟩ : BufTy).Contents (Elt F) → (⟨S11008x2048x1, .f32⟩ : BufTy).Contents (Elt F) → (⟨S11008x2048x1, .f32⟩ : BufTy).Contents (Elt F)),
    StableHlo.binary main_v4 main_v6 main_v8 (subf : (⟨S11008x2048x1, .f32⟩ : BufTy).Contents (Elt F) → (⟨S11008x2048x1, .f32⟩ : BufTy).Contents (Elt F) → (⟨S11008x2048x1, .f32⟩ : BufTy).Contents (Elt F)),
    StableHlo.unary main_v7 main_v9 (broadcastInDim S11008x2048x1x1 ![0, 1, 3] bcast_S11008x2048x1_S11008x2048x1x1_0_1_3 : (⟨S11008x2048x1, .f32⟩ : BufTy).Contents (Elt F) → (⟨S11008x2048x1x1, .f32⟩ : BufTy).Contents (Elt F)),
    StableHlo.unary main_v8 main_v10 (broadcastInDim S11008x2048x1x1 ![0, 1, 3] bcast_S11008x2048x1_S11008x2048x1x1_0_1_3 : (⟨S11008x2048x1, .f32⟩ : BufTy).Contents (Elt F) → (⟨S11008x2048x1x1, .f32⟩ : BufTy).Contents (Elt F)),
    StableHlo.binary main_v9 main_v10 main_v11 ((fun a b => concatenate S11008x2048x2x1 2 [⟨S11008x2048x1x1, a⟩, ⟨S11008x2048x1x1, b⟩] concatenates_S11008x2048x1x1_S11008x2048x1x1_S11008x2048x2x1_d2) : (⟨S11008x2048x1x1, .f32⟩ : BufTy).Contents (Elt F) → (⟨S11008x2048x1x1, .f32⟩ : BufTy).Contents (Elt F) → (⟨S11008x2048x2x1, .f32⟩ : BufTy).Contents (Elt F)),
    StableHlo.reshape main_v11 main_v12 rfl shapeCasts_S11008x2048x2x1_S11008x1024x2x2 ]

/-- The ten lines of stage 2. -/
abbrev seg1 : List (HloOp τ sig (Elt F)) :=
  [ StableHlo.unary main_v12 main_v13 ((extractStridedSlice S11008x1024x1x2 ![0, 0, 0, 0] · slices_S11008x1024x2x2_S11008x1024x1x2_0_0_0_0) : (⟨S11008x1024x2x2, .f32⟩ : BufTy).Contents (Elt F) → (⟨S11008x1024x1x2, .f32⟩ : BufTy).Contents (Elt F)),
    StableHlo.reshape main_v13 main_v14 rfl shapeCasts_S11008x1024x1x2_S11008x1024x2,
    StableHlo.unary main_v12 main_v15 ((extractStridedSlice S11008x1024x1x2 ![0, 0, 1, 0] · slices_S11008x1024x2x2_S11008x1024x1x2_0_0_1_0) : (⟨S11008x1024x2x2, .f32⟩ : BufTy).Contents (Elt F) → (⟨S11008x1024x1x2, .f32⟩ : BufTy).Contents (Elt F)),
    StableHlo.reshape main_v15 main_v16 rfl shapeCasts_S11008x1024x1x2_S11008x1024x2,
    StableHlo.binary main_v14 main_v16 main_v17 (addf : (⟨S11008x1024x2, .f32⟩ : BufTy).Contents (Elt F) → (⟨S11008x1024x2, .f32⟩ : BufTy).Contents (Elt F) → (⟨S11008x1024x2, .f32⟩ : BufTy).Contents (Elt F)),
    StableHlo.binary main_v14 main_v16 main_v18 (subf : (⟨S11008x1024x2, .f32⟩ : BufTy).Contents (Elt F) → (⟨S11008x1024x2, .f32⟩ : BufTy).Contents (Elt F) → (⟨S11008x1024x2, .f32⟩ : BufTy).Contents (Elt F)),
    StableHlo.unary main_v17 main_v19 (broadcastInDim S11008x1024x1x2 ![0, 1, 3] bcast_S11008x1024x2_S11008x1024x1x2_0_1_3 : (⟨S11008x1024x2, .f32⟩ : BufTy).Contents (Elt F) → (⟨S11008x1024x1x2, .f32⟩ : BufTy).Contents (Elt F)),
    StableHlo.unary main_v18 main_v20 (broadcastInDim S11008x1024x1x2 ![0, 1, 3] bcast_S11008x1024x2_S11008x1024x1x2_0_1_3 : (⟨S11008x1024x2, .f32⟩ : BufTy).Contents (Elt F) → (⟨S11008x1024x1x2, .f32⟩ : BufTy).Contents (Elt F)),
    StableHlo.binary main_v19 main_v20 main_v21 ((fun a b => concatenate S11008x1024x2x2 2 [⟨S11008x1024x1x2, a⟩, ⟨S11008x1024x1x2, b⟩] concatenates_S11008x1024x1x2_S11008x1024x1x2_S11008x1024x2x2_d2) : (⟨S11008x1024x1x2, .f32⟩ : BufTy).Contents (Elt F) → (⟨S11008x1024x1x2, .f32⟩ : BufTy).Contents (Elt F) → (⟨S11008x1024x2x2, .f32⟩ : BufTy).Contents (Elt F)),
    StableHlo.reshape main_v21 main_v22 rfl shapeCasts_S11008x1024x2x2_S11008x512x2x4 ]

/-- The ten lines of stage 3. -/
abbrev seg2 : List (HloOp τ sig (Elt F)) :=
  [ StableHlo.unary main_v22 main_v23 ((extractStridedSlice S11008x512x1x4 ![0, 0, 0, 0] · slices_S11008x512x2x4_S11008x512x1x4_0_0_0_0) : (⟨S11008x512x2x4, .f32⟩ : BufTy).Contents (Elt F) → (⟨S11008x512x1x4, .f32⟩ : BufTy).Contents (Elt F)),
    StableHlo.reshape main_v23 main_v24 rfl shapeCasts_S11008x512x1x4_S11008x512x4,
    StableHlo.unary main_v22 main_v25 ((extractStridedSlice S11008x512x1x4 ![0, 0, 1, 0] · slices_S11008x512x2x4_S11008x512x1x4_0_0_1_0) : (⟨S11008x512x2x4, .f32⟩ : BufTy).Contents (Elt F) → (⟨S11008x512x1x4, .f32⟩ : BufTy).Contents (Elt F)),
    StableHlo.reshape main_v25 main_v26 rfl shapeCasts_S11008x512x1x4_S11008x512x4,
    StableHlo.binary main_v24 main_v26 main_v27 (addf : (⟨S11008x512x4, .f32⟩ : BufTy).Contents (Elt F) → (⟨S11008x512x4, .f32⟩ : BufTy).Contents (Elt F) → (⟨S11008x512x4, .f32⟩ : BufTy).Contents (Elt F)),
    StableHlo.binary main_v24 main_v26 main_v28 (subf : (⟨S11008x512x4, .f32⟩ : BufTy).Contents (Elt F) → (⟨S11008x512x4, .f32⟩ : BufTy).Contents (Elt F) → (⟨S11008x512x4, .f32⟩ : BufTy).Contents (Elt F)),
    StableHlo.unary main_v27 main_v29 (broadcastInDim S11008x512x1x4 ![0, 1, 3] bcast_S11008x512x4_S11008x512x1x4_0_1_3 : (⟨S11008x512x4, .f32⟩ : BufTy).Contents (Elt F) → (⟨S11008x512x1x4, .f32⟩ : BufTy).Contents (Elt F)),
    StableHlo.unary main_v28 main_v30 (broadcastInDim S11008x512x1x4 ![0, 1, 3] bcast_S11008x512x4_S11008x512x1x4_0_1_3 : (⟨S11008x512x4, .f32⟩ : BufTy).Contents (Elt F) → (⟨S11008x512x1x4, .f32⟩ : BufTy).Contents (Elt F)),
    StableHlo.binary main_v29 main_v30 main_v31 ((fun a b => concatenate S11008x512x2x4 2 [⟨S11008x512x1x4, a⟩, ⟨S11008x512x1x4, b⟩] concatenates_S11008x512x1x4_S11008x512x1x4_S11008x512x2x4_d2) : (⟨S11008x512x1x4, .f32⟩ : BufTy).Contents (Elt F) → (⟨S11008x512x1x4, .f32⟩ : BufTy).Contents (Elt F) → (⟨S11008x512x2x4, .f32⟩ : BufTy).Contents (Elt F)),
    StableHlo.reshape main_v31 main_v32 rfl shapeCasts_S11008x512x2x4_S11008x256x2x8 ]

/-- The ten lines of stage 4. -/
abbrev seg3 : List (HloOp τ sig (Elt F)) :=
  [ StableHlo.unary main_v32 main_v33 ((extractStridedSlice S11008x256x1x8 ![0, 0, 0, 0] · slices_S11008x256x2x8_S11008x256x1x8_0_0_0_0) : (⟨S11008x256x2x8, .f32⟩ : BufTy).Contents (Elt F) → (⟨S11008x256x1x8, .f32⟩ : BufTy).Contents (Elt F)),
    StableHlo.reshape main_v33 main_v34 rfl shapeCasts_S11008x256x1x8_S11008x256x8,
    StableHlo.unary main_v32 main_v35 ((extractStridedSlice S11008x256x1x8 ![0, 0, 1, 0] · slices_S11008x256x2x8_S11008x256x1x8_0_0_1_0) : (⟨S11008x256x2x8, .f32⟩ : BufTy).Contents (Elt F) → (⟨S11008x256x1x8, .f32⟩ : BufTy).Contents (Elt F)),
    StableHlo.reshape main_v35 main_v36 rfl shapeCasts_S11008x256x1x8_S11008x256x8,
    StableHlo.binary main_v34 main_v36 main_v37 (addf : (⟨S11008x256x8, .f32⟩ : BufTy).Contents (Elt F) → (⟨S11008x256x8, .f32⟩ : BufTy).Contents (Elt F) → (⟨S11008x256x8, .f32⟩ : BufTy).Contents (Elt F)),
    StableHlo.binary main_v34 main_v36 main_v38 (subf : (⟨S11008x256x8, .f32⟩ : BufTy).Contents (Elt F) → (⟨S11008x256x8, .f32⟩ : BufTy).Contents (Elt F) → (⟨S11008x256x8, .f32⟩ : BufTy).Contents (Elt F)),
    StableHlo.unary main_v37 main_v39 (broadcastInDim S11008x256x1x8 ![0, 1, 3] bcast_S11008x256x8_S11008x256x1x8_0_1_3 : (⟨S11008x256x8, .f32⟩ : BufTy).Contents (Elt F) → (⟨S11008x256x1x8, .f32⟩ : BufTy).Contents (Elt F)),
    StableHlo.unary main_v38 main_v40 (broadcastInDim S11008x256x1x8 ![0, 1, 3] bcast_S11008x256x8_S11008x256x1x8_0_1_3 : (⟨S11008x256x8, .f32⟩ : BufTy).Contents (Elt F) → (⟨S11008x256x1x8, .f32⟩ : BufTy).Contents (Elt F)),
    StableHlo.binary main_v39 main_v40 main_v41 ((fun a b => concatenate S11008x256x2x8 2 [⟨S11008x256x1x8, a⟩, ⟨S11008x256x1x8, b⟩] concatenates_S11008x256x1x8_S11008x256x1x8_S11008x256x2x8_d2) : (⟨S11008x256x1x8, .f32⟩ : BufTy).Contents (Elt F) → (⟨S11008x256x1x8, .f32⟩ : BufTy).Contents (Elt F) → (⟨S11008x256x2x8, .f32⟩ : BufTy).Contents (Elt F)),
    StableHlo.reshape main_v41 main_v42 rfl shapeCasts_S11008x256x2x8_S11008x128x2x16 ]

/-- The ten lines of stage 5. -/
abbrev seg4 : List (HloOp τ sig (Elt F)) :=
  [ StableHlo.unary main_v42 main_v43 ((extractStridedSlice S11008x128x1x16 ![0, 0, 0, 0] · slices_S11008x128x2x16_S11008x128x1x16_0_0_0_0) : (⟨S11008x128x2x16, .f32⟩ : BufTy).Contents (Elt F) → (⟨S11008x128x1x16, .f32⟩ : BufTy).Contents (Elt F)),
    StableHlo.reshape main_v43 main_v44 rfl shapeCasts_S11008x128x1x16_S11008x128x16,
    StableHlo.unary main_v42 main_v45 ((extractStridedSlice S11008x128x1x16 ![0, 0, 1, 0] · slices_S11008x128x2x16_S11008x128x1x16_0_0_1_0) : (⟨S11008x128x2x16, .f32⟩ : BufTy).Contents (Elt F) → (⟨S11008x128x1x16, .f32⟩ : BufTy).Contents (Elt F)),
    StableHlo.reshape main_v45 main_v46 rfl shapeCasts_S11008x128x1x16_S11008x128x16,
    StableHlo.binary main_v44 main_v46 main_v47 (addf : (⟨S11008x128x16, .f32⟩ : BufTy).Contents (Elt F) → (⟨S11008x128x16, .f32⟩ : BufTy).Contents (Elt F) → (⟨S11008x128x16, .f32⟩ : BufTy).Contents (Elt F)),
    StableHlo.binary main_v44 main_v46 main_v48 (subf : (⟨S11008x128x16, .f32⟩ : BufTy).Contents (Elt F) → (⟨S11008x128x16, .f32⟩ : BufTy).Contents (Elt F) → (⟨S11008x128x16, .f32⟩ : BufTy).Contents (Elt F)),
    StableHlo.unary main_v47 main_v49 (broadcastInDim S11008x128x1x16 ![0, 1, 3] bcast_S11008x128x16_S11008x128x1x16_0_1_3 : (⟨S11008x128x16, .f32⟩ : BufTy).Contents (Elt F) → (⟨S11008x128x1x16, .f32⟩ : BufTy).Contents (Elt F)),
    StableHlo.unary main_v48 main_v50 (broadcastInDim S11008x128x1x16 ![0, 1, 3] bcast_S11008x128x16_S11008x128x1x16_0_1_3 : (⟨S11008x128x16, .f32⟩ : BufTy).Contents (Elt F) → (⟨S11008x128x1x16, .f32⟩ : BufTy).Contents (Elt F)),
    StableHlo.binary main_v49 main_v50 main_v51 ((fun a b => concatenate S11008x128x2x16 2 [⟨S11008x128x1x16, a⟩, ⟨S11008x128x1x16, b⟩] concatenates_S11008x128x1x16_S11008x128x1x16_S11008x128x2x16_d2) : (⟨S11008x128x1x16, .f32⟩ : BufTy).Contents (Elt F) → (⟨S11008x128x1x16, .f32⟩ : BufTy).Contents (Elt F) → (⟨S11008x128x2x16, .f32⟩ : BufTy).Contents (Elt F)),
    StableHlo.reshape main_v51 main_v52 rfl shapeCasts_S11008x128x2x16_S11008x64x2x32 ]

/-- The ten lines of stage 6. -/
abbrev seg5 : List (HloOp τ sig (Elt F)) :=
  [ StableHlo.unary main_v52 main_v53 ((extractStridedSlice S11008x64x1x32 ![0, 0, 0, 0] · slices_S11008x64x2x32_S11008x64x1x32_0_0_0_0) : (⟨S11008x64x2x32, .f32⟩ : BufTy).Contents (Elt F) → (⟨S11008x64x1x32, .f32⟩ : BufTy).Contents (Elt F)),
    StableHlo.reshape main_v53 main_v54 rfl shapeCasts_S11008x64x1x32_S11008x64x32,
    StableHlo.unary main_v52 main_v55 ((extractStridedSlice S11008x64x1x32 ![0, 0, 1, 0] · slices_S11008x64x2x32_S11008x64x1x32_0_0_1_0) : (⟨S11008x64x2x32, .f32⟩ : BufTy).Contents (Elt F) → (⟨S11008x64x1x32, .f32⟩ : BufTy).Contents (Elt F)),
    StableHlo.reshape main_v55 main_v56 rfl shapeCasts_S11008x64x1x32_S11008x64x32,
    StableHlo.binary main_v54 main_v56 main_v57 (addf : (⟨S11008x64x32, .f32⟩ : BufTy).Contents (Elt F) → (⟨S11008x64x32, .f32⟩ : BufTy).Contents (Elt F) → (⟨S11008x64x32, .f32⟩ : BufTy).Contents (Elt F)),
    StableHlo.binary main_v54 main_v56 main_v58 (subf : (⟨S11008x64x32, .f32⟩ : BufTy).Contents (Elt F) → (⟨S11008x64x32, .f32⟩ : BufTy).Contents (Elt F) → (⟨S11008x64x32, .f32⟩ : BufTy).Contents (Elt F)),
    StableHlo.unary main_v57 main_v59 (broadcastInDim S11008x64x1x32 ![0, 1, 3] bcast_S11008x64x32_S11008x64x1x32_0_1_3 : (⟨S11008x64x32, .f32⟩ : BufTy).Contents (Elt F) → (⟨S11008x64x1x32, .f32⟩ : BufTy).Contents (Elt F)),
    StableHlo.unary main_v58 main_v60 (broadcastInDim S11008x64x1x32 ![0, 1, 3] bcast_S11008x64x32_S11008x64x1x32_0_1_3 : (⟨S11008x64x32, .f32⟩ : BufTy).Contents (Elt F) → (⟨S11008x64x1x32, .f32⟩ : BufTy).Contents (Elt F)),
    StableHlo.binary main_v59 main_v60 main_v61 ((fun a b => concatenate S11008x64x2x32 2 [⟨S11008x64x1x32, a⟩, ⟨S11008x64x1x32, b⟩] concatenates_S11008x64x1x32_S11008x64x1x32_S11008x64x2x32_d2) : (⟨S11008x64x1x32, .f32⟩ : BufTy).Contents (Elt F) → (⟨S11008x64x1x32, .f32⟩ : BufTy).Contents (Elt F) → (⟨S11008x64x2x32, .f32⟩ : BufTy).Contents (Elt F)),
    StableHlo.reshape main_v61 main_v62 rfl shapeCasts_S11008x64x2x32_S11008x32x2x64 ]

/-- The ten lines of stage 7. -/
abbrev seg6 : List (HloOp τ sig (Elt F)) :=
  [ StableHlo.unary main_v62 main_v63 ((extractStridedSlice S11008x32x1x64 ![0, 0, 0, 0] · slices_S11008x32x2x64_S11008x32x1x64_0_0_0_0) : (⟨S11008x32x2x64, .f32⟩ : BufTy).Contents (Elt F) → (⟨S11008x32x1x64, .f32⟩ : BufTy).Contents (Elt F)),
    StableHlo.reshape main_v63 main_v64 rfl shapeCasts_S11008x32x1x64_S11008x32x64,
    StableHlo.unary main_v62 main_v65 ((extractStridedSlice S11008x32x1x64 ![0, 0, 1, 0] · slices_S11008x32x2x64_S11008x32x1x64_0_0_1_0) : (⟨S11008x32x2x64, .f32⟩ : BufTy).Contents (Elt F) → (⟨S11008x32x1x64, .f32⟩ : BufTy).Contents (Elt F)),
    StableHlo.reshape main_v65 main_v66 rfl shapeCasts_S11008x32x1x64_S11008x32x64,
    StableHlo.binary main_v64 main_v66 main_v67 (addf : (⟨S11008x32x64, .f32⟩ : BufTy).Contents (Elt F) → (⟨S11008x32x64, .f32⟩ : BufTy).Contents (Elt F) → (⟨S11008x32x64, .f32⟩ : BufTy).Contents (Elt F)),
    StableHlo.binary main_v64 main_v66 main_v68 (subf : (⟨S11008x32x64, .f32⟩ : BufTy).Contents (Elt F) → (⟨S11008x32x64, .f32⟩ : BufTy).Contents (Elt F) → (⟨S11008x32x64, .f32⟩ : BufTy).Contents (Elt F)),
    StableHlo.unary main_v67 main_v69 (broadcastInDim S11008x32x1x64 ![0, 1, 3] bcast_S11008x32x64_S11008x32x1x64_0_1_3 : (⟨S11008x32x64, .f32⟩ : BufTy).Contents (Elt F) → (⟨S11008x32x1x64, .f32⟩ : BufTy).Contents (Elt F)),
    StableHlo.unary main_v68 main_v70 (broadcastInDim S11008x32x1x64 ![0, 1, 3] bcast_S11008x32x64_S11008x32x1x64_0_1_3 : (⟨S11008x32x64, .f32⟩ : BufTy).Contents (Elt F) → (⟨S11008x32x1x64, .f32⟩ : BufTy).Contents (Elt F)),
    StableHlo.binary main_v69 main_v70 main_v71 ((fun a b => concatenate S11008x32x2x64 2 [⟨S11008x32x1x64, a⟩, ⟨S11008x32x1x64, b⟩] concatenates_S11008x32x1x64_S11008x32x1x64_S11008x32x2x64_d2) : (⟨S11008x32x1x64, .f32⟩ : BufTy).Contents (Elt F) → (⟨S11008x32x1x64, .f32⟩ : BufTy).Contents (Elt F) → (⟨S11008x32x2x64, .f32⟩ : BufTy).Contents (Elt F)),
    StableHlo.reshape main_v71 main_v72 rfl shapeCasts_S11008x32x2x64_S11008x16x2x128 ]

/-- The ten lines of stage 8. -/
abbrev seg7 : List (HloOp τ sig (Elt F)) :=
  [ StableHlo.unary main_v72 main_v73 ((extractStridedSlice S11008x16x1x128 ![0, 0, 0, 0] · slices_S11008x16x2x128_S11008x16x1x128_0_0_0_0) : (⟨S11008x16x2x128, .f32⟩ : BufTy).Contents (Elt F) → (⟨S11008x16x1x128, .f32⟩ : BufTy).Contents (Elt F)),
    StableHlo.reshape main_v73 main_v74 rfl shapeCasts_S11008x16x1x128_S11008x16x128,
    StableHlo.unary main_v72 main_v75 ((extractStridedSlice S11008x16x1x128 ![0, 0, 1, 0] · slices_S11008x16x2x128_S11008x16x1x128_0_0_1_0) : (⟨S11008x16x2x128, .f32⟩ : BufTy).Contents (Elt F) → (⟨S11008x16x1x128, .f32⟩ : BufTy).Contents (Elt F)),
    StableHlo.reshape main_v75 main_v76 rfl shapeCasts_S11008x16x1x128_S11008x16x128,
    StableHlo.binary main_v74 main_v76 main_v77 (addf : (⟨S11008x16x128, .f32⟩ : BufTy).Contents (Elt F) → (⟨S11008x16x128, .f32⟩ : BufTy).Contents (Elt F) → (⟨S11008x16x128, .f32⟩ : BufTy).Contents (Elt F)),
    StableHlo.binary main_v74 main_v76 main_v78 (subf : (⟨S11008x16x128, .f32⟩ : BufTy).Contents (Elt F) → (⟨S11008x16x128, .f32⟩ : BufTy).Contents (Elt F) → (⟨S11008x16x128, .f32⟩ : BufTy).Contents (Elt F)),
    StableHlo.unary main_v77 main_v79 (broadcastInDim S11008x16x1x128 ![0, 1, 3] bcast_S11008x16x128_S11008x16x1x128_0_1_3 : (⟨S11008x16x128, .f32⟩ : BufTy).Contents (Elt F) → (⟨S11008x16x1x128, .f32⟩ : BufTy).Contents (Elt F)),
    StableHlo.unary main_v78 main_v80 (broadcastInDim S11008x16x1x128 ![0, 1, 3] bcast_S11008x16x128_S11008x16x1x128_0_1_3 : (⟨S11008x16x128, .f32⟩ : BufTy).Contents (Elt F) → (⟨S11008x16x1x128, .f32⟩ : BufTy).Contents (Elt F)),
    StableHlo.binary main_v79 main_v80 main_v81 ((fun a b => concatenate S11008x16x2x128 2 [⟨S11008x16x1x128, a⟩, ⟨S11008x16x1x128, b⟩] concatenates_S11008x16x1x128_S11008x16x1x128_S11008x16x2x128_d2) : (⟨S11008x16x1x128, .f32⟩ : BufTy).Contents (Elt F) → (⟨S11008x16x1x128, .f32⟩ : BufTy).Contents (Elt F) → (⟨S11008x16x2x128, .f32⟩ : BufTy).Contents (Elt F)),
    StableHlo.reshape main_v81 main_v82 rfl shapeCasts_S11008x16x2x128_S11008x8x2x256 ]

/-- The ten lines of stage 9. -/
abbrev seg8 : List (HloOp τ sig (Elt F)) :=
  [ StableHlo.unary main_v82 main_v83 ((extractStridedSlice S11008x8x1x256 ![0, 0, 0, 0] · slices_S11008x8x2x256_S11008x8x1x256_0_0_0_0) : (⟨S11008x8x2x256, .f32⟩ : BufTy).Contents (Elt F) → (⟨S11008x8x1x256, .f32⟩ : BufTy).Contents (Elt F)),
    StableHlo.reshape main_v83 main_v84 rfl shapeCasts_S11008x8x1x256_S11008x8x256,
    StableHlo.unary main_v82 main_v85 ((extractStridedSlice S11008x8x1x256 ![0, 0, 1, 0] · slices_S11008x8x2x256_S11008x8x1x256_0_0_1_0) : (⟨S11008x8x2x256, .f32⟩ : BufTy).Contents (Elt F) → (⟨S11008x8x1x256, .f32⟩ : BufTy).Contents (Elt F)),
    StableHlo.reshape main_v85 main_v86 rfl shapeCasts_S11008x8x1x256_S11008x8x256,
    StableHlo.binary main_v84 main_v86 main_v87 (addf : (⟨S11008x8x256, .f32⟩ : BufTy).Contents (Elt F) → (⟨S11008x8x256, .f32⟩ : BufTy).Contents (Elt F) → (⟨S11008x8x256, .f32⟩ : BufTy).Contents (Elt F)),
    StableHlo.binary main_v84 main_v86 main_v88 (subf : (⟨S11008x8x256, .f32⟩ : BufTy).Contents (Elt F) → (⟨S11008x8x256, .f32⟩ : BufTy).Contents (Elt F) → (⟨S11008x8x256, .f32⟩ : BufTy).Contents (Elt F)),
    StableHlo.unary main_v87 main_v89 (broadcastInDim S11008x8x1x256 ![0, 1, 3] bcast_S11008x8x256_S11008x8x1x256_0_1_3 : (⟨S11008x8x256, .f32⟩ : BufTy).Contents (Elt F) → (⟨S11008x8x1x256, .f32⟩ : BufTy).Contents (Elt F)),
    StableHlo.unary main_v88 main_v90 (broadcastInDim S11008x8x1x256 ![0, 1, 3] bcast_S11008x8x256_S11008x8x1x256_0_1_3 : (⟨S11008x8x256, .f32⟩ : BufTy).Contents (Elt F) → (⟨S11008x8x1x256, .f32⟩ : BufTy).Contents (Elt F)),
    StableHlo.binary main_v89 main_v90 main_v91 ((fun a b => concatenate S11008x8x2x256 2 [⟨S11008x8x1x256, a⟩, ⟨S11008x8x1x256, b⟩] concatenates_S11008x8x1x256_S11008x8x1x256_S11008x8x2x256_d2) : (⟨S11008x8x1x256, .f32⟩ : BufTy).Contents (Elt F) → (⟨S11008x8x1x256, .f32⟩ : BufTy).Contents (Elt F) → (⟨S11008x8x2x256, .f32⟩ : BufTy).Contents (Elt F)),
    StableHlo.reshape main_v91 main_v92 rfl shapeCasts_S11008x8x2x256_S11008x4x2x512 ]

/-- The ten lines of stage 10. -/
abbrev seg9 : List (HloOp τ sig (Elt F)) :=
  [ StableHlo.unary main_v92 main_v93 ((extractStridedSlice S11008x4x1x512 ![0, 0, 0, 0] · slices_S11008x4x2x512_S11008x4x1x512_0_0_0_0) : (⟨S11008x4x2x512, .f32⟩ : BufTy).Contents (Elt F) → (⟨S11008x4x1x512, .f32⟩ : BufTy).Contents (Elt F)),
    StableHlo.reshape main_v93 main_v94 rfl shapeCasts_S11008x4x1x512_S11008x4x512,
    StableHlo.unary main_v92 main_v95 ((extractStridedSlice S11008x4x1x512 ![0, 0, 1, 0] · slices_S11008x4x2x512_S11008x4x1x512_0_0_1_0) : (⟨S11008x4x2x512, .f32⟩ : BufTy).Contents (Elt F) → (⟨S11008x4x1x512, .f32⟩ : BufTy).Contents (Elt F)),
    StableHlo.reshape main_v95 main_v96 rfl shapeCasts_S11008x4x1x512_S11008x4x512,
    StableHlo.binary main_v94 main_v96 main_v97 (addf : (⟨S11008x4x512, .f32⟩ : BufTy).Contents (Elt F) → (⟨S11008x4x512, .f32⟩ : BufTy).Contents (Elt F) → (⟨S11008x4x512, .f32⟩ : BufTy).Contents (Elt F)),
    StableHlo.binary main_v94 main_v96 main_v98 (subf : (⟨S11008x4x512, .f32⟩ : BufTy).Contents (Elt F) → (⟨S11008x4x512, .f32⟩ : BufTy).Contents (Elt F) → (⟨S11008x4x512, .f32⟩ : BufTy).Contents (Elt F)),
    StableHlo.unary main_v97 main_v99 (broadcastInDim S11008x4x1x512 ![0, 1, 3] bcast_S11008x4x512_S11008x4x1x512_0_1_3 : (⟨S11008x4x512, .f32⟩ : BufTy).Contents (Elt F) → (⟨S11008x4x1x512, .f32⟩ : BufTy).Contents (Elt F)),
    StableHlo.unary main_v98 main_v100 (broadcastInDim S11008x4x1x512 ![0, 1, 3] bcast_S11008x4x512_S11008x4x1x512_0_1_3 : (⟨S11008x4x512, .f32⟩ : BufTy).Contents (Elt F) → (⟨S11008x4x1x512, .f32⟩ : BufTy).Contents (Elt F)),
    StableHlo.binary main_v99 main_v100 main_v101 ((fun a b => concatenate S11008x4x2x512 2 [⟨S11008x4x1x512, a⟩, ⟨S11008x4x1x512, b⟩] concatenates_S11008x4x1x512_S11008x4x1x512_S11008x4x2x512_d2) : (⟨S11008x4x1x512, .f32⟩ : BufTy).Contents (Elt F) → (⟨S11008x4x1x512, .f32⟩ : BufTy).Contents (Elt F) → (⟨S11008x4x2x512, .f32⟩ : BufTy).Contents (Elt F)),
    StableHlo.reshape main_v101 main_v102 rfl shapeCasts_S11008x4x2x512_S11008x2x2x1024 ]

/-- The ten lines of stage 11. -/
abbrev seg10 : List (HloOp τ sig (Elt F)) :=
  [ StableHlo.unary main_v102 main_v103 ((extractStridedSlice S11008x2x1x1024 ![0, 0, 0, 0] · slices_S11008x2x2x1024_S11008x2x1x1024_0_0_0_0) : (⟨S11008x2x2x1024, .f32⟩ : BufTy).Contents (Elt F) → (⟨S11008x2x1x1024, .f32⟩ : BufTy).Contents (Elt F)),
    StableHlo.reshape main_v103 main_v104 rfl shapeCasts_S11008x2x1x1024_S11008x2x1024,
    StableHlo.unary main_v102 main_v105 ((extractStridedSlice S11008x2x1x1024 ![0, 0, 1, 0] · slices_S11008x2x2x1024_S11008x2x1x1024_0_0_1_0) : (⟨S11008x2x2x1024, .f32⟩ : BufTy).Contents (Elt F) → (⟨S11008x2x1x1024, .f32⟩ : BufTy).Contents (Elt F)),
    StableHlo.reshape main_v105 main_v106 rfl shapeCasts_S11008x2x1x1024_S11008x2x1024,
    StableHlo.binary main_v104 main_v106 main_v107 (addf : (⟨S11008x2x1024, .f32⟩ : BufTy).Contents (Elt F) → (⟨S11008x2x1024, .f32⟩ : BufTy).Contents (Elt F) → (⟨S11008x2x1024, .f32⟩ : BufTy).Contents (Elt F)),
    StableHlo.binary main_v104 main_v106 main_v108 (subf : (⟨S11008x2x1024, .f32⟩ : BufTy).Contents (Elt F) → (⟨S11008x2x1024, .f32⟩ : BufTy).Contents (Elt F) → (⟨S11008x2x1024, .f32⟩ : BufTy).Contents (Elt F)),
    StableHlo.unary main_v107 main_v109 (broadcastInDim S11008x2x1x1024 ![0, 1, 3] bcast_S11008x2x1024_S11008x2x1x1024_0_1_3 : (⟨S11008x2x1024, .f32⟩ : BufTy).Contents (Elt F) → (⟨S11008x2x1x1024, .f32⟩ : BufTy).Contents (Elt F)),
    StableHlo.unary main_v108 main_v110 (broadcastInDim S11008x2x1x1024 ![0, 1, 3] bcast_S11008x2x1024_S11008x2x1x1024_0_1_3 : (⟨S11008x2x1024, .f32⟩ : BufTy).Contents (Elt F) → (⟨S11008x2x1x1024, .f32⟩ : BufTy).Contents (Elt F)),
    StableHlo.binary main_v109 main_v110 main_v111 ((fun a b => concatenate S11008x2x2x1024 2 [⟨S11008x2x1x1024, a⟩, ⟨S11008x2x1x1024, b⟩] concatenates_S11008x2x1x1024_S11008x2x1x1024_S11008x2x2x1024_d2) : (⟨S11008x2x1x1024, .f32⟩ : BufTy).Contents (Elt F) → (⟨S11008x2x1x1024, .f32⟩ : BufTy).Contents (Elt F) → (⟨S11008x2x2x1024, .f32⟩ : BufTy).Contents (Elt F)),
    StableHlo.reshape main_v111 main_v112 rfl shapeCasts_S11008x2x2x1024_S11008x1x2x2048 ]

/-- The ten lines of stage 12. -/
abbrev seg11 : List (HloOp τ sig (Elt F)) :=
  [ StableHlo.unary main_v112 main_v113 ((extractStridedSlice S11008x1x1x2048 ![0, 0, 0, 0] · slices_S11008x1x2x2048_S11008x1x1x2048_0_0_0_0) : (⟨S11008x1x2x2048, .f32⟩ : BufTy).Contents (Elt F) → (⟨S11008x1x1x2048, .f32⟩ : BufTy).Contents (Elt F)),
    StableHlo.reshape main_v113 main_v114 rfl shapeCasts_S11008x1x1x2048_S11008x1x2048,
    StableHlo.unary main_v112 main_v115 ((extractStridedSlice S11008x1x1x2048 ![0, 0, 1, 0] · slices_S11008x1x2x2048_S11008x1x1x2048_0_0_1_0) : (⟨S11008x1x2x2048, .f32⟩ : BufTy).Contents (Elt F) → (⟨S11008x1x1x2048, .f32⟩ : BufTy).Contents (Elt F)),
    StableHlo.reshape main_v115 main_v116 rfl shapeCasts_S11008x1x1x2048_S11008x1x2048,
    StableHlo.binary main_v114 main_v116 main_v117 (addf : (⟨S11008x1x2048, .f32⟩ : BufTy).Contents (Elt F) → (⟨S11008x1x2048, .f32⟩ : BufTy).Contents (Elt F) → (⟨S11008x1x2048, .f32⟩ : BufTy).Contents (Elt F)),
    StableHlo.binary main_v114 main_v116 main_v118 (subf : (⟨S11008x1x2048, .f32⟩ : BufTy).Contents (Elt F) → (⟨S11008x1x2048, .f32⟩ : BufTy).Contents (Elt F) → (⟨S11008x1x2048, .f32⟩ : BufTy).Contents (Elt F)),
    StableHlo.unary main_v117 main_v119 (broadcastInDim S11008x1x1x2048 ![0, 1, 3] bcast_S11008x1x2048_S11008x1x1x2048_0_1_3 : (⟨S11008x1x2048, .f32⟩ : BufTy).Contents (Elt F) → (⟨S11008x1x1x2048, .f32⟩ : BufTy).Contents (Elt F)),
    StableHlo.unary main_v118 main_v120 (broadcastInDim S11008x1x1x2048 ![0, 1, 3] bcast_S11008x1x2048_S11008x1x1x2048_0_1_3 : (⟨S11008x1x2048, .f32⟩ : BufTy).Contents (Elt F) → (⟨S11008x1x1x2048, .f32⟩ : BufTy).Contents (Elt F)),
    StableHlo.binary main_v119 main_v120 main_v121 ((fun a b => concatenate S11008x1x2x2048 2 [⟨S11008x1x1x2048, a⟩, ⟨S11008x1x1x2048, b⟩] concatenates_S11008x1x1x2048_S11008x1x1x2048_S11008x1x2x2048_d2) : (⟨S11008x1x1x2048, .f32⟩ : BufTy).Contents (Elt F) → (⟨S11008x1x1x2048, .f32⟩ : BufTy).Contents (Elt F) → (⟨S11008x1x2x2048, .f32⟩ : BufTy).Contents (Elt F)),
    StableHlo.reshape main_v121 main_v122 rfl shapeCasts_S11008x1x2x2048_S11008x4096 ]

/-- The five closing lines: the scale, the rounding, the bias row. -/
abbrev post : List (HloOp τ sig (Elt F)) :=
  [ StableHlo.nullary main_cst (constant S_ .f32 0x3C800000#32),
    StableHlo.unary main_cst main_v123 (broadcastInDim S11008x4096 ![] bcast_S_S11008x4096 : (⟨S_, .f32⟩ : BufTy).Contents (Elt F) → (⟨S11008x4096, .f32⟩ : BufTy).Contents (Elt F)),
    StableHlo.binary main_v122 main_v123 main_v124 (mulf : (⟨S11008x4096, .f32⟩ : BufTy).Contents (Elt F) → (⟨S11008x4096, .f32⟩ : BufTy).Contents (Elt F) → (⟨S11008x4096, .f32⟩ : BufTy).Contents (Elt F)),
    StableHlo.unary main_v124 main_v125 ((truncf .bf16 · bitsLt_bf16_f32) : (⟨S11008x4096, .f32⟩ : BufTy).Contents (Elt F) → (⟨S11008x4096, .bf16⟩ : BufTy).Contents (Elt F)),
    StableHlo.reshape main_arg2 main_v126 rfl shapeCasts_S11008_S1x11008 ]

/-- The lines before the launch are these fourteen stretches, in order. -/
theorem hostOps0_split : (hostOps0 (F := Ideal))
    = pre (F := Ideal) ++ (seg0 ++ (seg1 ++ (seg2 ++ (seg3 ++ (seg4 ++ (seg5 ++ (seg6 ++ (seg7 ++ (seg8 ++ (seg9 ++ (seg10 ++ (seg11 ++ post)))))))))))) := rfl

variable (V : Valuation τ sig (Elt Ideal))

theorem pre_w : after (pre (F := Ideal)) V (Proc.devRef .tc main_v2) = K0 (V (Proc.devRef .tc main_arg1)) := by
  dsimp only [pre]
  after_results <;> rfl
theorem pre_x : (after (pre (F := Ideal)) V (Proc.devRef .tc main_v1) : FVec Ideal S8192x4096 .bf16)
    = truncf (F := Ideal) .bf16 (shapeCast S8192x4096 (V (Proc.devRef .tc main_arg0) : FVec Ideal S4x2048x4096 .f32) shapeCasts_S4x2048x4096_S8192x4096) bitsLt_bf16_f32 := by
  dsimp only [pre]
  after_results <;> rfl
theorem pre_b : after (pre (F := Ideal)) V (Proc.devRef .tc main_arg2) = V (Proc.devRef .tc main_arg2) := by
  dsimp only [pre]
  after_results

theorem seg0_w : after (seg0 (F := Ideal)) V (Proc.devRef .tc main_v12)
    = shapeCast S11008x1024x2x2 (stage (R := 11008) (q := 2048) (h := 1) (V (Proc.devRef .tc main_v2)) slices_S11008x2048x2x1_S11008x2048x1x1_0_0_0_0 slices_S11008x2048x2x1_S11008x2048x1x1_0_0_1_0 shapeCasts_S11008x2048x1x1_S11008x2048x1 bcast_S11008x2048x1_S11008x2048x1x1_0_1_3 concatenates_S11008x2048x1x1_S11008x2048x1x1_S11008x2048x2x1_d2) shapeCasts_S11008x2048x2x1_S11008x1024x2x2 := by
  dsimp only [seg0]
  after_results <;> rfl
theorem seg0_x : after (seg0 (F := Ideal)) V (Proc.devRef .tc main_v1) = V (Proc.devRef .tc main_v1) := by
  dsimp only [seg0]
  after_results
theorem seg0_b : after (seg0 (F := Ideal)) V (Proc.devRef .tc main_arg2) = V (Proc.devRef .tc main_arg2) := by
  dsimp only [seg0]
  after_results

theorem seg1_w : after (seg1 (F := Ideal)) V (Proc.devRef .tc main_v22)
    = shapeCast S11008x512x2x4 (stage (R := 11008) (q := 1024) (h := 2) (V (Proc.devRef .tc main_v12)) slices_S11008x1024x2x2_S11008x1024x1x2_0_0_0_0 slices_S11008x1024x2x2_S11008x1024x1x2_0_0_1_0 shapeCasts_S11008x1024x1x2_S11008x1024x2 bcast_S11008x1024x2_S11008x1024x1x2_0_1_3 concatenates_S11008x1024x1x2_S11008x1024x1x2_S11008x1024x2x2_d2) shapeCasts_S11008x1024x2x2_S11008x512x2x4 := by
  dsimp only [seg1]
  after_results <;> rfl
theorem seg1_x : after (seg1 (F := Ideal)) V (Proc.devRef .tc main_v1) = V (Proc.devRef .tc main_v1) := by
  dsimp only [seg1]
  after_results
theorem seg1_b : after (seg1 (F := Ideal)) V (Proc.devRef .tc main_arg2) = V (Proc.devRef .tc main_arg2) := by
  dsimp only [seg1]
  after_results

theorem seg2_w : after (seg2 (F := Ideal)) V (Proc.devRef .tc main_v32)
    = shapeCast S11008x256x2x8 (stage (R := 11008) (q := 512) (h := 4) (V (Proc.devRef .tc main_v22)) slices_S11008x512x2x4_S11008x512x1x4_0_0_0_0 slices_S11008x512x2x4_S11008x512x1x4_0_0_1_0 shapeCasts_S11008x512x1x4_S11008x512x4 bcast_S11008x512x4_S11008x512x1x4_0_1_3 concatenates_S11008x512x1x4_S11008x512x1x4_S11008x512x2x4_d2) shapeCasts_S11008x512x2x4_S11008x256x2x8 := by
  dsimp only [seg2]
  after_results <;> rfl
theorem seg2_x : after (seg2 (F := Ideal)) V (Proc.devRef .tc main_v1) = V (Proc.devRef .tc main_v1) := by
  dsimp only [seg2]
  after_results
theorem seg2_b : after (seg2 (F := Ideal)) V (Proc.devRef .tc main_arg2) = V (Proc.devRef .tc main_arg2) := by
  dsimp only [seg2]
  after_results

theorem seg3_w : after (seg3 (F := Ideal)) V (Proc.devRef .tc main_v42)
    = shapeCast S11008x128x2x16 (stage (R := 11008) (q := 256) (h := 8) (V (Proc.devRef .tc main_v32)) slices_S11008x256x2x8_S11008x256x1x8_0_0_0_0 slices_S11008x256x2x8_S11008x256x1x8_0_0_1_0 shapeCasts_S11008x256x1x8_S11008x256x8 bcast_S11008x256x8_S11008x256x1x8_0_1_3 concatenates_S11008x256x1x8_S11008x256x1x8_S11008x256x2x8_d2) shapeCasts_S11008x256x2x8_S11008x128x2x16 := by
  dsimp only [seg3]
  after_results <;> rfl
theorem seg3_x : after (seg3 (F := Ideal)) V (Proc.devRef .tc main_v1) = V (Proc.devRef .tc main_v1) := by
  dsimp only [seg3]
  after_results
theorem seg3_b : after (seg3 (F := Ideal)) V (Proc.devRef .tc main_arg2) = V (Proc.devRef .tc main_arg2) := by
  dsimp only [seg3]
  after_results

theorem seg4_w : after (seg4 (F := Ideal)) V (Proc.devRef .tc main_v52)
    = shapeCast S11008x64x2x32 (stage (R := 11008) (q := 128) (h := 16) (V (Proc.devRef .tc main_v42)) slices_S11008x128x2x16_S11008x128x1x16_0_0_0_0 slices_S11008x128x2x16_S11008x128x1x16_0_0_1_0 shapeCasts_S11008x128x1x16_S11008x128x16 bcast_S11008x128x16_S11008x128x1x16_0_1_3 concatenates_S11008x128x1x16_S11008x128x1x16_S11008x128x2x16_d2) shapeCasts_S11008x128x2x16_S11008x64x2x32 := by
  dsimp only [seg4]
  after_results <;> rfl
theorem seg4_x : after (seg4 (F := Ideal)) V (Proc.devRef .tc main_v1) = V (Proc.devRef .tc main_v1) := by
  dsimp only [seg4]
  after_results
theorem seg4_b : after (seg4 (F := Ideal)) V (Proc.devRef .tc main_arg2) = V (Proc.devRef .tc main_arg2) := by
  dsimp only [seg4]
  after_results

theorem seg5_w : after (seg5 (F := Ideal)) V (Proc.devRef .tc main_v62)
    = shapeCast S11008x32x2x64 (stage (R := 11008) (q := 64) (h := 32) (V (Proc.devRef .tc main_v52)) slices_S11008x64x2x32_S11008x64x1x32_0_0_0_0 slices_S11008x64x2x32_S11008x64x1x32_0_0_1_0 shapeCasts_S11008x64x1x32_S11008x64x32 bcast_S11008x64x32_S11008x64x1x32_0_1_3 concatenates_S11008x64x1x32_S11008x64x1x32_S11008x64x2x32_d2) shapeCasts_S11008x64x2x32_S11008x32x2x64 := by
  dsimp only [seg5]
  after_results <;> rfl
theorem seg5_x : after (seg5 (F := Ideal)) V (Proc.devRef .tc main_v1) = V (Proc.devRef .tc main_v1) := by
  dsimp only [seg5]
  after_results
theorem seg5_b : after (seg5 (F := Ideal)) V (Proc.devRef .tc main_arg2) = V (Proc.devRef .tc main_arg2) := by
  dsimp only [seg5]
  after_results

theorem seg6_w : after (seg6 (F := Ideal)) V (Proc.devRef .tc main_v72)
    = shapeCast S11008x16x2x128 (stage (R := 11008) (q := 32) (h := 64) (V (Proc.devRef .tc main_v62)) slices_S11008x32x2x64_S11008x32x1x64_0_0_0_0 slices_S11008x32x2x64_S11008x32x1x64_0_0_1_0 shapeCasts_S11008x32x1x64_S11008x32x64 bcast_S11008x32x64_S11008x32x1x64_0_1_3 concatenates_S11008x32x1x64_S11008x32x1x64_S11008x32x2x64_d2) shapeCasts_S11008x32x2x64_S11008x16x2x128 := by
  dsimp only [seg6]
  after_results <;> rfl
theorem seg6_x : after (seg6 (F := Ideal)) V (Proc.devRef .tc main_v1) = V (Proc.devRef .tc main_v1) := by
  dsimp only [seg6]
  after_results
theorem seg6_b : after (seg6 (F := Ideal)) V (Proc.devRef .tc main_arg2) = V (Proc.devRef .tc main_arg2) := by
  dsimp only [seg6]
  after_results

theorem seg7_w : after (seg7 (F := Ideal)) V (Proc.devRef .tc main_v82)
    = shapeCast S11008x8x2x256 (stage (R := 11008) (q := 16) (h := 128) (V (Proc.devRef .tc main_v72)) slices_S11008x16x2x128_S11008x16x1x128_0_0_0_0 slices_S11008x16x2x128_S11008x16x1x128_0_0_1_0 shapeCasts_S11008x16x1x128_S11008x16x128 bcast_S11008x16x128_S11008x16x1x128_0_1_3 concatenates_S11008x16x1x128_S11008x16x1x128_S11008x16x2x128_d2) shapeCasts_S11008x16x2x128_S11008x8x2x256 := by
  dsimp only [seg7]
  after_results <;> rfl
theorem seg7_x : after (seg7 (F := Ideal)) V (Proc.devRef .tc main_v1) = V (Proc.devRef .tc main_v1) := by
  dsimp only [seg7]
  after_results
theorem seg7_b : after (seg7 (F := Ideal)) V (Proc.devRef .tc main_arg2) = V (Proc.devRef .tc main_arg2) := by
  dsimp only [seg7]
  after_results

theorem seg8_w : after (seg8 (F := Ideal)) V (Proc.devRef .tc main_v92)
    = shapeCast S11008x4x2x512 (stage (R := 11008) (q := 8) (h := 256) (V (Proc.devRef .tc main_v82)) slices_S11008x8x2x256_S11008x8x1x256_0_0_0_0 slices_S11008x8x2x256_S11008x8x1x256_0_0_1_0 shapeCasts_S11008x8x1x256_S11008x8x256 bcast_S11008x8x256_S11008x8x1x256_0_1_3 concatenates_S11008x8x1x256_S11008x8x1x256_S11008x8x2x256_d2) shapeCasts_S11008x8x2x256_S11008x4x2x512 := by
  dsimp only [seg8]
  after_results <;> rfl
theorem seg8_x : after (seg8 (F := Ideal)) V (Proc.devRef .tc main_v1) = V (Proc.devRef .tc main_v1) := by
  dsimp only [seg8]
  after_results
theorem seg8_b : after (seg8 (F := Ideal)) V (Proc.devRef .tc main_arg2) = V (Proc.devRef .tc main_arg2) := by
  dsimp only [seg8]
  after_results

theorem seg9_w : after (seg9 (F := Ideal)) V (Proc.devRef .tc main_v102)
    = shapeCast S11008x2x2x1024 (stage (R := 11008) (q := 4) (h := 512) (V (Proc.devRef .tc main_v92)) slices_S11008x4x2x512_S11008x4x1x512_0_0_0_0 slices_S11008x4x2x512_S11008x4x1x512_0_0_1_0 shapeCasts_S11008x4x1x512_S11008x4x512 bcast_S11008x4x512_S11008x4x1x512_0_1_3 concatenates_S11008x4x1x512_S11008x4x1x512_S11008x4x2x512_d2) shapeCasts_S11008x4x2x512_S11008x2x2x1024 := by
  dsimp only [seg9]
  after_results <;> rfl
theorem seg9_x : after (seg9 (F := Ideal)) V (Proc.devRef .tc main_v1) = V (Proc.devRef .tc main_v1) := by
  dsimp only [seg9]
  after_results
theorem seg9_b : after (seg9 (F := Ideal)) V (Proc.devRef .tc main_arg2) = V (Proc.devRef .tc main_arg2) := by
  dsimp only [seg9]
  after_results

theorem seg10_w : after (seg10 (F := Ideal)) V (Proc.devRef .tc main_v112)
    = shapeCast S11008x1x2x2048 (stage (R := 11008) (q := 2) (h := 1024) (V (Proc.devRef .tc main_v102)) slices_S11008x2x2x1024_S11008x2x1x1024_0_0_0_0 slices_S11008x2x2x1024_S11008x2x1x1024_0_0_1_0 shapeCasts_S11008x2x1x1024_S11008x2x1024 bcast_S11008x2x1024_S11008x2x1x1024_0_1_3 concatenates_S11008x2x1x1024_S11008x2x1x1024_S11008x2x2x1024_d2) shapeCasts_S11008x2x2x1024_S11008x1x2x2048 := by
  dsimp only [seg10]
  after_results <;> rfl
theorem seg10_x : after (seg10 (F := Ideal)) V (Proc.devRef .tc main_v1) = V (Proc.devRef .tc main_v1) := by
  dsimp only [seg10]
  after_results
theorem seg10_b : after (seg10 (F := Ideal)) V (Proc.devRef .tc main_arg2) = V (Proc.devRef .tc main_arg2) := by
  dsimp only [seg10]
  after_results

theorem seg11_w : after (seg11 (F := Ideal)) V (Proc.devRef .tc main_v122)
    = shapeCast S11008x4096 (stage (R := 11008) (q := 1) (h := 2048) (V (Proc.devRef .tc main_v112)) slices_S11008x1x2x2048_S11008x1x1x2048_0_0_0_0 slices_S11008x1x2x2048_S11008x1x1x2048_0_0_1_0 shapeCasts_S11008x1x1x2048_S11008x1x2048 bcast_S11008x1x2048_S11008x1x1x2048_0_1_3 concatenates_S11008x1x1x2048_S11008x1x1x2048_S11008x1x2x2048_d2) shapeCasts_S11008x1x2x2048_S11008x4096 := by
  dsimp only [seg11]
  after_results <;> rfl
theorem seg11_x : after (seg11 (F := Ideal)) V (Proc.devRef .tc main_v1) = V (Proc.devRef .tc main_v1) := by
  dsimp only [seg11]
  after_results
theorem seg11_b : after (seg11 (F := Ideal)) V (Proc.devRef .tc main_arg2) = V (Proc.devRef .tc main_arg2) := by
  dsimp only [seg11]
  after_results

theorem post_w : (after (post (F := Ideal)) V (Proc.devRef .tc main_v125) : FVec Ideal S11008x4096 .bf16)
    = truncf (F := Ideal) .bf16 (mulf (V (Proc.devRef .tc main_v122) : FVec Ideal S11008x4096 .f32)
        (broadcastInDim S11008x4096 ![] bcast_S_S11008x4096 (constant S_ .f32 0x3C800000#32))) bitsLt_bf16_f32 := by
  dsimp only [post]
  after_results <;> rfl
theorem post_x : after (post (F := Ideal)) V (Proc.devRef .tc main_v1) = V (Proc.devRef .tc main_v1) := by
  dsimp only [post]
  after_results
theorem post_b : (after (post (F := Ideal)) V (Proc.devRef .tc main_v126) : FVec Ideal S1x11008 .f32)
    = shapeCast S1x11008 (V (Proc.devRef .tc main_arg2) : FVec Ideal S11008 .f32) shapeCasts_S11008_S1x11008 := by
  dsimp only [post]
  after_results <;> rfl

/-! ## The three operands of the launch -/

variable (m : (ℓ : Loc nD τ sig) → Buf (Elt Ideal) ℓ)

/-- The second operand of the launch is the rotated weight. -/
theorem V_w (c : Dev nD) :
    (Gen.V (F := Ideal) m c main_v125 : FVec Ideal S11008x4096 .bf16) = Wrot (m ((c.tc : Thread nD τ).loc main_arg1)) := by
  show StableHlo.after (hostOps0 (F := Ideal)) (fun b => m (c, b)) (Proc.devRef .tc main_v125) = _
  rw [hostOps0_split]
  simp only [StableHlo.after_append]
  rw [post_w, seg11_w, seg10_w, seg9_w, seg8_w, seg7_w, seg6_w, seg5_w, seg4_w, seg3_w, seg2_w, seg1_w, seg0_w, pre_w]
  all_goals rfl

/-- The first operand of the launch is the activations re-laid as [8192, 4096] and rounded. -/
theorem V_x (c : Dev nD) :
    (Gen.V (F := Ideal) m c main_v1 : FVec Ideal S8192x4096 .bf16)
      = truncf (F := Ideal) .bf16 (shapeCast S8192x4096 (m ((c.tc : Thread nD τ).loc main_arg0) : FVec Ideal S4x2048x4096 .f32) shapeCasts_S4x2048x4096_S8192x4096) bitsLt_bf16_f32 := by
  show StableHlo.after (hostOps0 (F := Ideal)) (fun b => m (c, b)) (Proc.devRef .tc main_v1) = _
  rw [hostOps0_split]
  simp only [StableHlo.after_append]
  rw [post_x, seg11_x, seg10_x, seg9_x, seg8_x, seg7_x, seg6_x, seg5_x, seg4_x, seg3_x, seg2_x, seg1_x, seg0_x, pre_x]
  all_goals rfl

/-- The third operand of the launch is the bias as one row. -/
theorem V_b (c : Dev nD) :
    (Gen.V (F := Ideal) m c main_v126 : FVec Ideal S1x11008 .f32)
      = shapeCast S1x11008 (m ((c.tc : Thread nD τ).loc main_arg2) : FVec Ideal S11008 .f32) shapeCasts_S11008_S1x11008 := by
  show StableHlo.after (hostOps0 (F := Ideal)) (fun b => m (c, b)) (Proc.devRef .tc main_v126) = _
  rw [hostOps0_split]
  simp only [StableHlo.after_append]
  rw [post_b, seg11_b, seg10_b, seg9_b, seg8_b, seg7_b, seg6_b, seg5_b, seg4_b, seg3_b, seg2_b, seg1_b, seg0_b, pre_b]
  all_goals rfl

end Cert.KernelIdeal.HostPrefix

end
-- ==== Proof.KernelValue.lean ====
/-
  The kernel's result, entry by entry.

  The kernel rotates the weight instead of the activations: row o of W passes through the twelve butterfly stages and
  is multiplied by 2⁻⁶, so position d of the rotated row is  2⁻⁶ · Σ_p sgn 12 d p · W(o, p). The launch then computes,
  for row m = 2048·b + s of the activations and row o of the rotated weight, the sum over d of their products plus the
  bias, and the result is re-laid as [4, 2048, 11008].
-/
import proofs.«169559_j2336462209049_1_alg».proof.Proof.KernelHost
import proofs.«169559_j2336462209049_1_alg».proof.Proof.Stages
import proofs.«169559_j2336462209049_1_alg».proof.Proof.LibFinite

noncomputable section

namespace Cert.KernelIdeal.KValue

open Cert.KernelIdeal Cert.KernelIdeal.Gen Cert.KernelIdeal.HostPrefix
open Idealize.ShloMosaic Idealize.ShloMosaic.ValueIdx
open Cert.LibButterfly Cert.LibWalsh Cert.Stages Cert.LibFinite Finset

/-- The scale 2⁻⁶ = 1/64. -/
theorem scale_word : Ideal.ofBits .f32 0x3C800000#32 = ((1 / 64 : ℝ) : EReal) := by
  simp [Ideal.ofBits, Ideal.ieee, -EReal.coe_mul]; norm_num

/-- Row o of the weight, as a sequence (zero past the row's end). -/
def wrow (wr : S11008x4096.Idx → ℝ) : Fin 11008 → ℕ → ℝ := fun o d =>
  if hd : d < 4096 then wr (ix2 o ⟨d, hd⟩) else 0

variable (W : FVec Ideal S11008x4096 .f32) (wr : S11008x4096.Idx → ℝ) (hw : ∀ i, (W i : EReal) = ((wr i : ℝ) : EReal))
include hw

/-- Before the first stage every block is one entry of the row. -/
theorem kinv0 : Inv (R := 11008) (q := 2048) (h := 1) 0 (wrow wr) (K0 W) := by
  intro r j s l
  have hl : l.val = 0 := by have := l.isLt; omega
  have hj := j.isLt
  have hs := s.isLt
  have hd : 2 * j.val + s.val < 4096 := by omega
  unfold K0
  refine (shapeCast_apply _ shapeCasts_S11008x4096_S11008x2048x2x1 _ (ix2 r ⟨2 * j.val + s.val, hd⟩) ?_).trans ?_
  · rw [Shape.rowMajor_val_two, Shape.rowMajor_val_four]
    show r.val * 4096 + (2 * j.val + s.val) = ((r.val * 2048 + j.val) * 2 + s.val) * 1 + l.val
    omega
  rw [hw]
  congr 1
  have e : ∑ p ∈ range 1, sgn 0 l.val p * wrow wr r ((2 * j.val + s.val) * 1 + p) = wrow wr r (2 * j.val + s.val) := by
    simp only [Finset.sum_range_one, sgn, one_mul, Nat.mul_one, Nat.add_zero]
  rw [e]
  unfold wrow
  rw [dif_pos hd]

theorem kinv1 : Inv (R := 11008) (q := 1024) (h := 2) 1 (wrow wr) (K1 W) :=
  step (R := 11008) (q := 2048) (h := 1) 0 1024 2 (by norm_num) (by norm_num) (by norm_num) (wrow wr) (K0 W)
    slices_S11008x2048x2x1_S11008x2048x1x1_0_0_0_0 slices_S11008x2048x2x1_S11008x2048x1x1_0_0_1_0 shapeCasts_S11008x2048x1x1_S11008x2048x1 bcast_S11008x2048x1_S11008x2048x1x1_0_1_3 concatenates_S11008x2048x1x1_S11008x2048x1x1_S11008x2048x2x1_d2
    shapeCasts_S11008x2048x2x1_S11008x1024x2x2 (kinv0 W wr hw)

theorem kinv2 : Inv (R := 11008) (q := 512) (h := 4) 2 (wrow wr) (K2 W) :=
  step (R := 11008) (q := 1024) (h := 2) 1 512 4 (by norm_num) (by norm_num) (by norm_num) (wrow wr) (K1 W)
    slices_S11008x1024x2x2_S11008x1024x1x2_0_0_0_0 slices_S11008x1024x2x2_S11008x1024x1x2_0_0_1_0 shapeCasts_S11008x1024x1x2_S11008x1024x2 bcast_S11008x1024x2_S11008x1024x1x2_0_1_3 concatenates_S11008x1024x1x2_S11008x1024x1x2_S11008x1024x2x2_d2
    shapeCasts_S11008x1024x2x2_S11008x512x2x4 (kinv1 W wr hw)

theorem kinv3 : Inv (R := 11008) (q := 256) (h := 8) 3 (wrow wr) (K3 W) :=
  step (R := 11008) (q := 512) (h := 4) 2 256 8 (by norm_num) (by norm_num) (by norm_num) (wrow wr) (K2 W)
    slices_S11008x512x2x4_S11008x512x1x4_0_0_0_0 slices_S11008x512x2x4_S11008x512x1x4_0_0_1_0 shapeCasts_S11008x512x1x4_S11008x512x4 bcast_S11008x512x4_S11008x512x1x4_0_1_3 concatenates_S11008x512x1x4_S11008x512x1x4_S11008x512x2x4_d2
    shapeCasts_S11008x512x2x4_S11008x256x2x8 (kinv2 W wr hw)

theorem kinv4 : Inv (R := 11008) (q := 128) (h := 16) 4 (wrow wr) (K4 W) :=
  step (R := 11008) (q := 256) (h := 8) 3 128 16 (by norm_num) (by norm_num) (by norm_num) (wrow wr) (K3 W)
    slices_S11008x256x2x8_S11008x256x1x8_0_0_0_0 slices_S11008x256x2x8_S11008x256x1x8_0_0_1_0 shapeCasts_S11008x256x1x8_S11008x256x8 bcast_S11008x256x8_S11008x256x1x8_0_1_3 concatenates_S11008x256x1x8_S11008x256x1x8_S11008x256x2x8_d2
    shapeCasts_S11008x256x2x8_S11008x128x2x16 (kinv3 W wr hw)

theorem kinv5 : Inv (R := 11008) (q := 64) (h := 32) 5 (wrow wr) (K5 W) :=
  step (R := 11008) (q := 128) (h := 16) 4 64 32 (by norm_num) (by norm_num) (by norm_num) (wrow wr) (K4 W)
    slices_S11008x128x2x16_S11008x128x1x16_0_0_0_0 slices_S11008x128x2x16_S11008x128x1x16_0_0_1_0 shapeCasts_S11008x128x1x16_S11008x128x16 bcast_S11008x128x16_S11008x128x1x16_0_1_3 concatenates_S11008x128x1x16_S11008x128x1x16_S11008x128x2x16_d2
    shapeCasts_S11008x128x2x16_S11008x64x2x32 (kinv4 W wr hw)

theorem kinv6 : Inv (R := 11008) (q := 32) (h := 64) 6 (wrow wr) (K6 W) :=
  step (R := 11008) (q := 64) (h := 32) 5 32 64 (by norm_num) (by norm_num) (by norm_num) (wrow wr) (K5 W)
    slices_S11008x64x2x32_S11008x64x1x32_0_0_0_0 slices_S11008x64x2x32_S11008x64x1x32_0_0_1_0 shapeCasts_S11008x64x1x32_S11008x64x32 bcast_S11008x64x32_S11008x64x1x32_0_1_3 concatenates_S11008x64x1x32_S11008x64x1x32_S11008x64x2x32_d2
    shapeCasts_S11008x64x2x32_S11008x32x2x64 (kinv5 W wr hw)

theorem kinv7 : Inv (R := 11008) (q := 16) (h := 128) 7 (wrow wr) (K7 W) :=
  step (R := 11008) (q := 32) (h := 64) 6 16 128 (by norm_num) (by norm_num) (by norm_num) (wrow wr) (K6 W)
    slices_S11008x32x2x64_S11008x32x1x64_0_0_0_0 slices_S11008x32x2x64_S11008x32x1x64_0_0_1_0 shapeCasts_S11008x32x1x64_S11008x32x64 bcast_S11008x32x64_S11008x32x1x64_0_1_3 concatenates_S11008x32x1x64_S11008x32x1x64_S11008x32x2x64_d2
    shapeCasts_S11008x32x2x64_S11008x16x2x128 (kinv6 W wr hw)

theorem kinv8 : Inv (R := 11008) (q := 8) (h := 256) 8 (wrow wr) (K8 W) :=
  step (R := 11008) (q := 16) (h := 128) 7 8 256 (by norm_num) (by norm_num) (by norm_num) (wrow wr) (K7 W)
    slices_S11008x16x2x128_S11008x16x1x128_0_0_0_0 slices_S11008x16x2x128_S11008x16x1x128_0_0_1_0 shapeCasts_S11008x16x1x128_S11008x16x128 bcast_S11008x16x128_S11008x16x1x128_0_1_3 concatenates_S11008x16x1x128_S11008x16x1x128_S11008x16x2x128_d2
    shapeCasts_S11008x16x2x128_S11008x8x2x256 (kinv7 W wr hw)

theorem kinv9 : Inv (R := 11008) (q := 4) (h := 512) 9 (wrow wr) (K9 W) :=
  step (R := 11008) (q := 8) (h := 256) 8 4 512 (by norm_num) (by norm_num) (by norm_num) (wrow wr) (K8 W)
    slices_S11008x8x2x256_S11008x8x1x256_0_0_0_0 slices_S11008x8x2x256_S11008x8x1x256_0_0_1_0 shapeCasts_S11008x8x1x256_S11008x8x256 bcast_S11008x8x256_S11008x8x1x256_0_1_3 concatenates_S11008x8x1x256_S11008x8x1x256_S11008x8x2x256_d2
    shapeCasts_S11008x8x2x256_S11008x4x2x512 (kinv8 W wr hw)

theorem kinv10 : Inv (R := 11008) (q := 2) (h := 1024) 10 (wrow wr) (K10 W) :=
  step (R := 11008) (q := 4) (h := 512) 9 2 1024 (by norm_num) (by norm_num) (by norm_num) (wrow wr) (K9 W)
    slices_S11008x4x2x512_S11008x4x1x512_0_0_0_0 slices_S11008x4x2x512_S11008x4x1x512_0_0_1_0 shapeCasts_S11008x4x1x512_S11008x4x512 bcast_S11008x4x512_S11008x4x1x512_0_1_3 concatenates_S11008x4x1x512_S11008x4x1x512_S11008x4x2x512_d2
    shapeCasts_S11008x4x2x512_S11008x2x2x1024 (kinv9 W wr hw)

theorem kinv11 : Inv (R := 11008) (q := 1) (h := 2048) 11 (wrow wr) (K11 W) :=
  step (R := 11008) (q := 2) (h := 1024) 10 1 2048 (by norm_num) (by norm_num) (by norm_num) (wrow wr) (K10 W)
    slices_S11008x2x2x1024_S11008x2x1x1024_0_0_0_0 slices_S11008x2x2x1024_S11008x2x1x1024_0_0_1_0 shapeCasts_S11008x2x1x1024_S11008x2x1024 bcast_S11008x2x1024_S11008x2x1x1024_0_1_3 concatenates_S11008x2x1x1024_S11008x2x1x1024_S11008x2x2x1024_d2
    shapeCasts_S11008x2x2x1024_S11008x1x2x2048 (kinv10 W wr hw)

/-- Entry (o, d) of the rotated weight. -/
theorem wrot_apply (o : Fin 11008) (d : Fin 4096) :
    (Wrot W (ix2 o d) : EReal) = (((∑ p ∈ range 4096, sgn 12 d.val p * wrow wr o p) * (1 / 64) : ℝ) : EReal) := by
  have hd := d.isLt
  unfold Wrot
  rw [truncf_apply, mulf_apply]
  have e1 : shapeCast S11008x4096 (stage (R := 11008) (q := 1) (h := 2048) (K11 W) slices_S11008x1x2x2048_S11008x1x1x2048_0_0_0_0 slices_S11008x1x2x2048_S11008x1x1x2048_0_0_1_0 shapeCasts_S11008x1x1x2048_S11008x1x2048 bcast_S11008x1x2048_S11008x1x1x2048_0_1_3 concatenates_S11008x1x1x2048_S11008x1x1x2048_S11008x1x2x2048_d2) shapeCasts_S11008x1x2x2048_S11008x4096 (ix2 o d)
      = stage (R := 11008) (q := 1) (h := 2048) (K11 W) slices_S11008x1x2x2048_S11008x1x1x2048_0_0_0_0 slices_S11008x1x2x2048_S11008x1x1x2048_0_0_1_0 shapeCasts_S11008x1x1x2048_S11008x1x2048 bcast_S11008x1x2048_S11008x1x1x2048_0_1_3 concatenates_S11008x1x1x2048_S11008x1x1x2048_S11008x1x2x2048_d2
          (ix4 o (0 : Fin 1) ⟨d.val / 2048, by rw [Nat.div_lt_iff_lt_mul (by norm_num)]; omega⟩ ⟨d.val % 2048, Nat.mod_lt _ (by norm_num)⟩) :=
    shapeCast_apply _ _ _ _ (by
      rw [Shape.rowMajor_val_four, Shape.rowMajor_val_two]
      show ((o.val * 1 + 0) * 2 + d.val / 2048) * 2048 + d.val % 2048 = o.val * 4096 + d.val
      omega)
  have e2 : broadcastInDim S11008x4096 ![] bcast_S_S11008x4096 (constant (F := Ideal) S_ .f32 0x3C800000#32) (ix2 o d)
      = Ideal.ofBits .f32 0x3C800000#32 :=
    broadcastInDim_apply _ bcast_S_S11008x4096 _ _ ix0 (fun a => a.elim0)
  rw [e1, e2, scale_word,
    stage_post 11 (by norm_num) (wrow wr) (K11 W) slices_S11008x1x2x2048_S11008x1x1x2048_0_0_0_0 slices_S11008x1x2x2048_S11008x1x1x2048_0_0_1_0 shapeCasts_S11008x1x1x2048_S11008x1x2048 bcast_S11008x1x2048_S11008x1x1x2048_0_1_3 concatenates_S11008x1x1x2048_S11008x1x1x2048_S11008x1x2x2048_d2 (kinv11 W wr hw)
      o (0 : Fin 1) d.val (by omega) (by norm_num),
    ← EReal.coe_mul]
  congr 2

end Cert.KernelIdeal.KValue

end
-- ==== Proof.LibDense.lean ====
/-
  The pieces of a dense layer, read one entry at a time, on the extended reals.

  * `mmT x w` is the product of `x : [M, K]` with the TRANSPOSE of `w : [N, K]`: entry (i, j) is the sum over k of
    x (i, k) · w (j, k). A contraction whose dimension numbers contract the second axis of both operands denotes
    exactly this sum (`sum_contr_eq_mmT`).
  * `biasRelu a b` adds the row `b : [1, K]` to every row of `a : [M, K]` and takes the maximum with a threshold `z`;
    `addRow a b` only adds the row.
-/
import Idealize.ShloMosaic.PureOps.Ideal.Laws
import Idealize.ShloMosaic.Lib.ValueIdx

noncomputable section

namespace Cert.LibDense

open Idealize.ShloMosaic Idealize.ShloMosaic.ValueIdx

/-- `x · wᵀ`: entry (i, j) is the sum over k of x (i, k) · w (j, k). -/
def mmT {M K N : Nat} (x : (⟨2, ![M, K]⟩ : Shape).Idx → EReal) (w : (⟨2, ![N, K]⟩ : Shape).Idx → EReal) :
    (⟨2, ![M, N]⟩ : Shape).Idx → EReal :=
  fun i => ∑ k : Fin K, x (ix2 (i 0) k) * w (ix2 (i 1) k)

/-- Row `b` added to every row of `a`, then the maximum with `z` entry by entry. -/
def biasRelu {M K : Nat} (z : EReal) (a : (⟨2, ![M, K]⟩ : Shape).Idx → EReal) (b : (⟨2, ![1, K]⟩ : Shape).Idx → EReal) :
    (⟨2, ![M, K]⟩ : Shape).Idx → EReal :=
  fun i => max (a i + b (ix2 (0 : Fin 1) (i 1))) z

/-- Row `b` added to every row of `a`. -/
def addRow {M K : Nat} (a : (⟨2, ![M, K]⟩ : Shape).Idx → EReal) (b : (⟨2, ![1, K]⟩ : Shape).Idx → EReal) :
    (⟨2, ![M, K]⟩ : Shape).Idx → EReal :=
  fun i => a i + b (ix2 (0 : Fin 1) (i 1))

/-- The sum over the index of a contraction of BOTH operands' second axes is `mmT`: the left operand is read along
    row `i 0`, the right operand along row `i 1`. The four hypotheses say which coordinate of the output index or of
    the contraction index each operand coordinate is. -/
theorem sum_contr_eq_mmT {M K N : Nat} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (l : (⟨2, ![M, K]⟩ : Shape).Idx → EReal) (r : (⟨2, ![N, K]⟩ : Shape).Idx → EReal) (i : (⟨2, ![M, N]⟩ : Shape).Idx) :
    ∑ q : D.contr.Idx, l (D.lhsIdx i q) * r (D.rhsIdx i q) = mmT l r i := by
  unfold mmT
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 (i 1) k := funext fun a => Fin.ext (by
    match a with
    | ⟨0, _⟩ => exact hr0 _ _
    | ⟨1, _⟩ => exact (hr1 _ _).trans hk)
  rw [el, er]
  rfl

end Cert.LibDense

end
-- ==== Proof.LibContract.lean ====
/-
  A contraction of the second axis of both operands, on the extended reals, as the product with a transpose.

  Both the host's `dot_general` and a `tpu.matmul` into a zero accumulator denote, entry by entry, the plain sum over
  the contraction index of the operands' products. When the dimension numbers contract axis 1 of both operands that
  sum is `mmT l r`: entry (i, j) is the sum over k of l (i, k) · r (j, k). A change of float format is the identity
  on the extended reals, entrywise.
-/
import proofs.«169559_j2336462209049_1_alg».proof.Proof.LibDense
import Idealize.ShloMosaic.PureOps.Ideal.Laws
import Idealize.ShloMosaic.Lib.ValueIdx

noncomputable section

namespace Cert.LibContract

open Idealize.ShloMosaic Idealize.ShloMosaic.ValueIdx Cert.LibDense

/-- The host's contraction of both operands' second axes is `l · rᵀ`. -/
theorem dotGeneral_eq_mmT {M K N : Nat} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (l : FVec Ideal ⟨2, ![M, K]⟩ φ₁) (r : FVec Ideal ⟨2, ![N, K]⟩ φ₂) :
    Host.dotGeneral (F := Ideal) D none l r = mmT l r := by
  funext i
  simp only [Host.dotGeneral]
  rw [Ideal.dotGeneral_apply]
  exact sum_contr_eq_mmT D hr hs hl0 hl1 hr0 hr1 l r i

/-- A matrix unit's product into a zero accumulator, contracting both operands' second axes, is `l · rᵀ`. -/
theorem matmul_zero_eq_mmT {M K N : Nat} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (l : FVec Ideal ⟨2, ![M, K]⟩ φ₁) (r : FVec Ideal ⟨2, ![N, K]⟩ φ₂) :
    matmul (F := Ideal) D none l r (constant ⟨2, ![M, N]⟩ .f32 0x00000000#32) = mmT l r := by
  funext i
  simp only [matmul]
  rw [Ideal.matmul_constant_zero_apply]
  exact sum_contr_eq_mmT D hr hs hl0 hl1 hr0 hr1 l r i

/-- Rounding to a narrower float format changes nothing on the extended reals. -/
theorem truncf_eq {S : Shape} {φ ψ : FTy} (h : ψ.bits < φ.bits) (x : FVec Ideal S φ) :
    (truncf (F := Ideal) ψ x h : S.Idx → EReal) = x := rfl

end Cert.LibContract

end
-- ==== Proof.KernelPayload.lean ====
/-
  One block of the kernel's result, entry by entry.

  The kernel body loads a block `x0` of 1024 rows of the left operand, a block `x1` of 256 rows of the right operand
  and a block `x2` of 256 entries of the bias row, multiplies `x0` by the TRANSPOSE of `x1` into a zero accumulator and
  adds the bias row to every row of the product. So entry (p, q) of the block it stores is
      sum over k of x0 (p, k) · x1 (q, k),  plus  x2 (0, q).
-/
import proofs.«169559_j2336462209049_1_alg».proof.Proof.Gen.KernelIdeal.Skeleton
import proofs.«169559_j2336462209049_1_alg».proof.Proof.LibContract
import Idealize.ShloMosaic.Lib.Pipeline.Value
import Idealize.ShloMosaic.Lib.ValueIdx
import Idealize.ShloMosaic.Lib.ValueLayout

noncomputable section

namespace Cert.KernelIdeal.Region

open Cert.KernelIdeal Cert.KernelIdeal.Gen Idealize.ShloMosaic Idealize.ShloMosaic.ValueIdx Idealize.SL.Sem
open Cert.LibDense Cert.LibContract

/-- The contraction has one contracted axis … -/
theorem contr_rank : dot_S1024x4096_S256x4096_S1024x256_1_1_0_0_n_n.contr.rank = 1 := rfl

/-- … of extent 4096. -/
theorem contr_size : dot_S1024x4096_S256x4096_S1024x256_1_1_0_0_n_n.contr.size ⟨0, by rw [contr_rank]; omega⟩ = 4096 := rfl

/-- The left operand is read at (row of the output, contraction position). -/
theorem lhs_row (i : S1024x256.Idx) (q : dot_S1024x4096_S256x4096_S1024x256_1_1_0_0_n_n.contr.Idx) :
    (dot_S1024x4096_S256x4096_S1024x256_1_1_0_0_n_n.lhsIdx i q 0).val = (i 0).val := rfl
theorem lhs_col (i : S1024x256.Idx) (q : dot_S1024x4096_S256x4096_S1024x256_1_1_0_0_n_n.contr.Idx) :
    (dot_S1024x4096_S256x4096_S1024x256_1_1_0_0_n_n.lhsIdx i q 1).val = (q ⟨0, by rw [contr_rank]; omega⟩).val :=
  dot_S1024x4096_S256x4096_S1024x256_1_1_0_0_n_n.lhsIdx_val_of_single (cl := 1) rfl i q

/-- The right operand is read at (column of the output, contraction position). -/
theorem rhs_row (i : S1024x256.Idx) (q : dot_S1024x4096_S256x4096_S1024x256_1_1_0_0_n_n.contr.Idx) :
    (dot_S1024x4096_S256x4096_S1024x256_1_1_0_0_n_n.rhsIdx i q 0).val = (i 1).val := rfl
theorem rhs_col (i : S1024x256.Idx) (q : dot_S1024x4096_S256x4096_S1024x256_1_1_0_0_n_n.contr.Idx) :
    (dot_S1024x4096_S256x4096_S1024x256_1_1_0_0_n_n.rhsIdx i q 1).val = (q ⟨0, by rw [contr_rank]; omega⟩).val :=
  dot_S1024x4096_S256x4096_S1024x256_1_1_0_0_n_n.rhsIdx_val_of_single (cr := 1) rfl i q

/-- Entry (p, q) of the block the body stores: row p of the left block against row q of the right block, plus the
    bias at q. -/
theorem payload_apply (x0 : FVec Ideal S1024x4096 .bf16) (x1 : FVec Ideal S256x4096 .bf16) (x2 : FVec Ideal S1x256 .f32)
    (p : Fin 1024) (q : Fin 256) :
    k0_pay1 (F := Ideal) x0 x1 x2 (ix2 p q)
      = (∑ k : Fin 4096, x0 (ix2 p k) * x1 (ix2 q k)) + x2 (ix2 (0 : Fin 1) q) := by
  unfold k0_pay1
  rw [shapeCast_self, shapeCast_self, shapeCast_self, addf_apply,
    matmul_zero_eq_mmT dot_S1024x4096_S256x4096_S1024x256_1_1_0_0_n_n contr_rank contr_size lhs_row lhs_col rhs_row rhs_col,
    broadcastTo_1b_ab_apply]
  rfl

end Cert.KernelIdeal.Region

end
-- ==== Proof.KernelBlocks.lean ====
/-
  The kernel's grid, read as a tiling of the result.

  The grid has 8 × 43 points; point t stands for the pair (t / 43, t % 43). At point t the kernel is handed
    * rows  (t / 43) · 1024 …  of the left operand  (1024 rows, all 4096 columns),
    * rows  (t % 43) · 256 …   of the right operand (256 rows, all 4096 columns),
    * entries (t % 43) · 256 … of the bias row      (256 entries),
  and writes back the 1024 × 256 block of the result whose corner is ((t / 43) · 1024, (t % 43) · 256). An element of a
  block sits in its array at  block index × block extent + its coordinate inside the block,  axis by axis. The 8 × 43
  output blocks tile the 8192 × 11008 result: entry (r, o) lies in the block of point (r / 1024) · 43 + o / 256.
-/
import proofs.«169559_j2336462209049_1_alg».proof.Proof.Gen.KernelIdeal.Frame
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The whole [8192, 11008] result as one function of the three arrays the kernel is launched on: row `j 0` of `x`
    against row `j 1` of `w` (a sum over the 4096 shared columns), plus the bias row at `j 1`. -/
def G (x : FVec Ideal S8192x4096 .bf16) (w : FVec Ideal S11008x4096 .bf16) (b : FVec Ideal S1x11008 .f32) :
    FVec Ideal S8192x11008 .f32 :=
  fun j => (∑ k : Fin 4096, x (ix2 (n0 := 8192) (j 0) k) * w (ix2 (n0 := 11008) (j 1) k)) + b (ix2 (0 : Fin 1) (n1 := 11008) (j 1))

theorem G_apply (x : FVec Ideal S8192x4096 .bf16) (w : FVec Ideal S11008x4096 .bf16) (b : FVec Ideal S1x11008 .f32)
    (r : Fin 8192) (o : Fin 11008) :
    G x w b (ix2 r o) = (∑ k : Fin 4096, x (ix2 r k) * w (ix2 o k)) + b (ix2 (0 : Fin 1) o) := rfl

theorem zero_offsets : (![0, 0] : Fin 2 → Nat) = fun _ => 0 := funext fun a => by fin_cases a <;> rfl

/-- The grid has 344 points. -/
theorem lt_points (t : Fin cfg0.N) : t.val < 344 :=
  Nat.lt_of_lt_of_eq t.isLt (show cfg0.N = 344 from N_0)

/-- The four index maps at point t, decided over the grid: the left operand and the result move with t / 43, the right
    operand and the bias with t % 43; the operands' blocks span all columns. -/
theorem block_index : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = 0 ∧ win0_2.index t (1 : Fin 2) = t.val % 43
    ∧ win0_3.index t (0 : Fin 2) = t.val / 43 ∧ win0_3.index t (1 : Fin 2) = t.val % 43 :=
  (by decide +kernel : ∀ t : Fin grid0.N, _)

/-- Row p of point t's blocks of the left operand and of the result is this row of the arrays. -/
def rowOf (t : Fin cfg0.N) (p : Fin 1024) : Fin 8192 :=
  ⟨t.val / 43 * 1024 + p.val, by have := lt_points t; have := p.isLt; omega⟩

/-- Row q of point t's block of the right operand, entry q of its block of the bias row and column q of its block of
    the result are this row / entry / column of the arrays. -/
def colOf (t : Fin cfg0.N) (q : Fin 256) : Fin 11008 :=
  ⟨t.val % 43 * 256 + q.val, by have := q.isLt; omega⟩

/-- The left operand's block at point t. -/
theorem read_lhs (c : Dev nD) (t : Fin cfg0.N) (p : Fin 1024) (k : Fin 4096) :
    (iblk m c 0 t : FVec Ideal S1024x4096 .bf16) (ix2 p k)
      = (V m c main_v1 : FVec Ideal S8192x4096 .bf16) (ix2 (rowOf t p) k) := by
  obtain ⟨e0, e1, -⟩ := block_index t
  unfold iblk
  rw [View.read_apply]
  show V m c main_v1 _ = V m c main_v1 _
  congr 1
  funext a
  apply Fin.ext
  match a with
  | ⟨0, _⟩ => show win0_0.index t (0 : Fin 2) * 1024 + 1 * p.val = t.val / 43 * 1024 + p.val; rw [e0]; omega
  | ⟨1, _⟩ => show win0_0.index t (1 : Fin 2) * 4096 + 1 * k.val = k.val; rw [e1]; omega

/-- The right operand's block at point t. -/
theorem read_rhs (c : Dev nD) (t : Fin cfg0.N) (q : Fin 256) (k : Fin 4096) :
    (iblk m c 1 t : FVec Ideal S256x4096 .bf16) (ix2 q k)
      = (V m c main_v125 : FVec Ideal S11008x4096 .bf16) (ix2 (colOf t q) k) := by
  obtain ⟨-, -, e2, e3, -⟩ := block_index t
  unfold iblk
  rw [View.read_apply]
  show V m c main_v125 _ = V m c main_v125 _
  congr 1
  funext a
  apply Fin.ext
  match a with
  | ⟨0, _⟩ => show win0_1.index t (0 : Fin 2) * 256 + 1 * q.val = t.val % 43 * 256 + q.val; rw [e2]; omega
  | ⟨1, _⟩ => show win0_1.index t (1 : Fin 2) * 4096 + 1 * k.val = k.val; rw [e3]; omega

/-- The bias row's block at point t. -/
theorem read_bias (c : Dev nD) (t : Fin cfg0.N) (q : Fin 256) :
    (iblk m c 2 t : FVec Ideal S1x256 .f32) (ix2 (0 : Fin 1) q)
      = (V m c main_v126 : FVec Ideal S1x11008 .f32) (ix2 (0 : Fin 1) (colOf t q)) := by
  obtain ⟨-, -, -, -, e4, e5, -⟩ := block_index t
  unfold iblk
  rw [View.read_apply]
  show V m c main_v126 _ = V m c main_v126 _
  congr 1
  funext a
  apply Fin.ext
  match a with
  | ⟨0, _⟩ => show win0_2.index t (0 : Fin 2) * 1 + 1 * 0 = 0; rw [e4]
  | ⟨1, _⟩ => show win0_2.index t (1 : Fin 2) * 256 + 1 * q.val = t.val % 43 * 256 + q.val; rw [e5]; omega

/-- Where entry (p, q) of point t's output block sits in the result. -/
theorem emb_out (t : Fin cfg0.N) (p : Fin 1024) (q : Fin 256) :
    ((cfg0.win 3).blk t).view.emb (ix2 p q) = (ix2 (rowOf t p) (colOf t q) : S8192x11008.Idx) := by
  obtain ⟨-, -, -, -, -, -, e6, e7⟩ := block_index t
  funext a
  apply Fin.ext
  match a with
  | ⟨0, _⟩ => show win0_3.index t (0 : Fin 2) * 1024 + 1 * p.val = t.val / 43 * 1024 + p.val; rw [e6]; omega
  | ⟨1, _⟩ => show win0_3.index t (1 : Fin 2) * 256 + 1 * q.val = t.val % 43 * 256 + q.val; rw [e7]; omega

/-- An entry of the result is in point t's block iff each coordinate is in the block's range on its axis. -/
theorem mem_out_block (t : Fin cfg0.N) (i : S8192x11008.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v127).slice (win0_3.rect t)).set ↔ _
  rw [View.set_slice_whole, Rect.mem_set_unit]
  exact Iff.rfl

/-- The output blocks tile the result: entry (r, o) is in the block of point (r / 1024) · 43 + o / 256, and every
    point writes its block back. -/
theorem covered (i : S8192x11008.Idx) :
    ∃ t : Fin cfg0.N, (cfg0.win 3).flush t = true ∧ i ∈ ((cfg0.win 3).blk t).view.set := by
  have hi0 : (i 0).val < 8192 := (i 0).isLt
  have hi1 : (i 1).val < 11008 := (i 1).isLt
  obtain ⟨t, ht⟩ : ∃ t : Fin cfg0.N, t.val = (i 0).val / 1024 * 43 + (i 1).val / 256 :=
    ⟨⟨(i 0).val / 1024 * 43 + (i 1).val / 256, by rw [show cfg0.N = 344 from N_0]; omega⟩, rfl⟩
  obtain ⟨-, -, -, -, -, -, e6, e7⟩ := block_index t
  refine ⟨t, flush0_3 t, ?_⟩
  rw [mem_out_block]
  intro a
  match a with
  | ⟨0, _⟩ =>
    show win0_3.index t (0 : Fin 2) * 1024 ≤ (i 0).val ∧ (i 0).val < win0_3.index t (0 : Fin 2) * 1024 + 1024
    rw [e6, ht]; omega
  | ⟨1, _⟩ =>
    show win0_3.index t (1 : Fin 2) * 256 ≤ (i 1).val ∧ (i 1).val < win0_3.index t (1 : Fin 2) * 256 + 256
    rw [e7, ht]; omega

end Cert.KernelIdeal.Region

end
-- ==== Proof.KernelRegion.lean ====
/-
  The kernel's result array.

  Each grid point writes back one 1024 × 256 block of the result; entry (p, q) of that block is row p of the point's
  block of the left operand against row q of its block of the right operand, plus entry q of its block of the bias row.
  Read through where the blocks sit in their arrays, that is entry (r, o) of ONE function `G` of the three whole arrays:
  row r of the left operand against row o of the right operand, plus the bias at o. The blocks tile the result, so after
  the last point the result array is `G` of the arrays the kernel was launched on; the program's last line then only
  regroups the 8192 rows as 4 × 2048.
-/
import proofs.«169559_j2336462209049_1_alg».proof.Proof.KernelPayload
import proofs.«169559_j2336462209049_1_alg».proof.Proof.KernelBlocks
import Idealize.ShloMosaic.Lib.Pipeline.Value
import Idealize.ShloMosaic.Lib.Tactic

noncomputable section

namespace Cert.KernelIdeal.Region

open Cert.KernelIdeal Cert.KernelIdeal.Gen Idealize.ShloMosaic Idealize.ShloMosaic.TcCoe Idealize.ShloMosaic.ValueIdx
open Idealize.ShloMosaic.Tactic
open Idealize.SL.Sem
open Idealize.ShloMosaic.Pipeline (Dat)

variable (m : (ℓ : Loc nD τ sig) → Buf (Elt Ideal) ℓ) (ρ : Dev nD → PrngReg)

/-- An entry of a stored block is an entry of `G`, once each loaded block is known to be the matching rows of its
    array: row p of `x0` is row r of `X`, row q of `x1` is row o of `W`, entry q of `x2` is entry o of `B`. -/
theorem block_entry (X : FVec Ideal S8192x4096 .bf16) (W : FVec Ideal S11008x4096 .bf16) (B : FVec Ideal S1x11008 .f32)
    (x0 : FVec Ideal S1024x4096 .bf16) (x1 : FVec Ideal S256x4096 .bf16) (x2 : FVec Ideal S1x256 .f32)
    (p : Fin 1024) (q : Fin 256) (r : Fin 8192) (o : Fin 11008)
    (h0 : ∀ k : Fin 4096, x0 (ix2 p k) = X (ix2 r k))
    (h1 : ∀ k : Fin 4096, x1 (ix2 q k) = W (ix2 o k))
    (h2 : x2 (ix2 (0 : Fin 1) q) = B (ix2 (0 : Fin 1) o)) :
    k0_pay1 (F := Ideal) x0 x1 x2 (ix2 p q) = G X W B (ix2 r o) := by
  rw [payload_apply, G_apply, h2]
  exact congrArg (· + B (ix2 (0 : Fin 1) o)) (Finset.sum_congr rfl fun k _ => by rw [h0 k, h1 k])

/-- What point t writes back is block t of `G` of the arrays as the kernel finds them. -/
theorem flushed_eq (c : Dev nD) (t : Fin cfg0.N) :
    (dats m 0 c).flushed 3 t
      = ((cfg0.win 3).blk t).view.read (Elt Ideal) (G (V m c main_v1) (V m c main_v125) (V m c main_v126)) := by
  show (cfg0.win 3).cut (grid0.coords t) ((dats m 0 c).after 3 t) = _
  rw [after0_3]
  unfold out0_3
  rw [View.canon_unit_zero zero_offsets]
  simp only [View.ld_unit_zero (S := S1024x4096) zero_offsets, View.ld_unit_zero (S := S256x4096) zero_offsets,
    View.ld_unit_zero (S := S1x256) zero_offsets]
  refine funext fun (y : S1024x256.Idx) => ?_
  obtain ⟨p, q, rfl⟩ : ∃ (p : Fin 1024) (q : Fin 256), y = ix2 p q := ⟨y 0, y 1, eq_ix2 y⟩
  show k0_pay1 (F := Ideal) (iblk m c 0 t) (iblk m c 1 t) (iblk m c 2 t) (ix2 p q)
    = G (V m c main_v1) (V m c main_v125) (V m c main_v126) (((cfg0.win 3).blk t).view.emb (ix2 p q))
  rw [emb_out]
  exact block_entry _ _ _ (iblk m c 0 t) (iblk m c 1 t) (iblk m c 2 t) p q (rowOf t p) (colOf t q)
    (fun k => read_lhs m c t p k) (fun k => read_rhs m c t q k) (read_bias m c t q)

/-- The result array after the last point is `G` of the arrays as the kernel finds them: the blocks tile it. -/
theorem final (c : Dev nD) :
    (dats m 0 c).arrAt 3 cfg0.N = G (V m c main_v1) (V m c main_v125) (V m c main_v126) :=
  (dats m 0 c).arrAt_eq_of_cover 3 (G (V m c main_v1) (V m c main_v125) (V m c main_v126))
    (fun t _ => flushed_eq m c t) covered

/-- The program's last line regroups the result's 8192 rows as 4 × 2048. -/
theorem regrouped (c : Dev nD) :
    Pipeline.afterTail₀ cfgs (dats m) 0 (V0 m) [hostOps1] c main_v128
      = shapeCast S4x2048x11008 (G (V m c main_v1) (V m c main_v125) (V m c main_v126))
          shapeCasts_S8192x11008_S4x2048x11008 := by
  unfold Pipeline.afterTail₀
  show StableHlo.after hostOps1 _ (Proc.devRef .tc main_v128) = _
  after_results
  exact congrArg (fun z => shapeCast S4x2048x11008 z shapeCasts_S8192x11008_S4x2048x11008)
    ((Pipeline.withArrays_arr spec0 launch0.win.arr_inj c _ _ 3).trans (final m c))

/-- THE KERNEL'S RUN, READ: the program's result is `G` of the three arrays the kernel was launched on, its rows
    regrouped; the program's arguments end as they were. -/
theorem run :
    θ_run (defs (F := Ideal)) (onTc (τ := τ) (main (F := Ideal))) ⟨m, fun _ => 0, ρ⟩ fun r => ∀ c : Dev nD,
      r.2.mem ((c.tc : Thread nD τ).loc main_v128)
          = shapeCast S4x2048x11008 (G (V m c main_v1) (V m c main_v125) (V m c main_v126))
              shapeCasts_S8192x11008_S4x2048x11008
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v128 (Pipeline.mem_restRefs_of main_v128 (by decide) (by decide))).trans (regrouped m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Region

end
-- ==== Proof.Bridge.lean ====
/-
  The two results agree, entry by entry.

  With real inputs both programs compute real numbers. At (b, s, o), writing x for row 2048·b + s of the activations,
  w for row o of the weight and c = 2⁻⁶:
      reference:  Σ_d (c · Σ_p sgn 12 d p · x p) · w d + bias o
      kernel:     Σ_d x d · (c · Σ_p sgn 12 d p · w p) + bias o
  and the two sums are equal because the sign matrix is symmetric (exchange the two summations).
-/
import proofs.«169559_j2336462209049_1_alg».proof.Proof.RefValue
import proofs.«169559_j2336462209049_1_alg».proof.Proof.KernelValue
import proofs.«169559_j2336462209049_1_alg».proof.Proof.KernelRegion

noncomputable section

namespace Cert.Bridge

open Idealize.ShloMosaic Idealize.ShloMosaic.ValueIdx Idealize.ShloMosaic.TcCoe
open Cert.LibWalsh Cert.LibFinite Finset
open Cert.ReferenceIdeal.RefValue (xrow refOut_apply xrot_apply)
open Cert.ReferenceIdeal.RefRun (refOut Xrot)
open Cert.KernelIdeal.KValue (wrow wrot_apply)

/-- The reference's entry (b, s, o) as a real number. -/
def refReal (xr : Cert.ReferenceIdeal.S4x2048x4096.Idx → ℝ) (wr : Cert.ReferenceIdeal.S11008x4096.Idx → ℝ)
    (br : Cert.ReferenceIdeal.S11008.Idx → ℝ) (b : Fin 4) (s : Fin 2048) (o : Fin 11008) : ℝ :=
  (∑ k : Fin 4096, ((∑ p ∈ range 4096, sgn 12 k.val p
      * xrow xr ⟨b.val * 2048 + s.val, by have := b.isLt; have := s.isLt; omega⟩ p) * (1 / 64)) * wr (ix2 o k))
    + br (ix1 o)

/-- The kernel's entry (b, s, o) as a real number. -/
def kerReal (xr : Cert.ReferenceIdeal.S4x2048x4096.Idx → ℝ) (wr : Cert.ReferenceIdeal.S11008x4096.Idx → ℝ)
    (br : Cert.ReferenceIdeal.S11008.Idx → ℝ) (b : Fin 4) (s : Fin 2048) (o : Fin 11008) : ℝ :=
  (∑ k : Fin 4096, xr (ix3 b s k) * ((∑ p ∈ range 4096, sgn 12 k.val p * wrow wr o p) * (1 / 64)))
    + br (ix1 o)

/-- The exchange: the rotation moves from the activations' row to the weight's row. -/
theorem refReal_eq_kerReal (xr wr br) (b : Fin 4) (s : Fin 2048) (o : Fin 11008) :
    refReal xr wr br b s o = kerReal xr wr br b s o := by
  have hb := b.isLt
  have hs := s.isLt
  unfold refReal kerReal
  refine congrArg (· + br (ix1 o)) ?_
  have h1 : ∀ k : Fin 4096, wr (ix2 o k) = wrow wr o k.val := fun k => by
    unfold wrow; rw [dif_pos k.isLt]
  have h2 : ∀ k : Fin 4096, xr (ix3 b s k)
      = xrow xr ⟨b.val * 2048 + s.val, by omega⟩ k.val := fun k => by
    unfold xrow
    rw [dif_pos k.isLt]
    congr 1
    funext a
    match a with
    | ⟨0, _⟩ => exact Fin.ext (by show b.val = (b.val * 2048 + s.val) / 2048; omega)
    | ⟨1, _⟩ => exact Fin.ext (by show s.val = (b.val * 2048 + s.val) % 2048; omega)
    | ⟨2, _⟩ => rfl
  simp only [h1, h2]
  rw [← Finset.sum_range (fun d => ((∑ p ∈ range 4096, sgn 12 d p * xrow xr ⟨b.val * 2048 + s.val, by omega⟩ p) * (1 / 64)) * wrow wr o d),
    ← Finset.sum_range (fun d => xrow xr ⟨b.val * 2048 + s.val, by omega⟩ d * ((∑ p ∈ range 4096, sgn 12 d p * wrow wr o p) * (1 / 64)))]
  exact pairing 12 4096 (1 / 64) _ _

/-- The reference's entry is that real number. -/
theorem ref_entry (A : FVec Ideal Cert.ReferenceIdeal.S4x2048x4096 .f32) (W : FVec Ideal Cert.ReferenceIdeal.S11008x4096 .f32)
    (B : FVec Ideal Cert.ReferenceIdeal.S11008 .f32) (xr wr br)
    (hx : ∀ i, (A i : EReal) = ((xr i : ℝ) : EReal)) (hw : ∀ i, (W i : EReal) = ((wr i : ℝ) : EReal))
    (hb : ∀ i, (B i : EReal) = ((br i : ℝ) : EReal)) (b : Fin 4) (s : Fin 2048) (o : Fin 11008) :
    (refOut A W B (ix3 b s o) : EReal) = ((refReal xr wr br b s o : ℝ) : EReal) := by
  rw [refOut_apply, hb]
  unfold refReal
  rw [EReal.coe_add, coe_sum]
  refine congrArg₂ (· + ·) (Finset.sum_congr rfl fun k _ => ?_) rfl
  rw [xrot_apply A xr hx b s k, hw, ← EReal.coe_mul]

/-- The kernel's entry is that real number: row 2048·b + s of the re-laid activations against row o of the rotated
    weight, plus the bias row's entry o. -/
theorem ker_entry (m : (ℓ : Loc Cert.KernelIdeal.nD Cert.KernelIdeal.τ Cert.KernelIdeal.sig) → Buf (Elt Ideal) ℓ)
    (c : Dev Cert.KernelIdeal.nD) (xr wr br)
    (hx : ∀ i, (m ((c.tc : Thread Cert.KernelIdeal.nD Cert.KernelIdeal.τ).loc Cert.KernelIdeal.main_arg0) : FVec Ideal Cert.KernelIdeal.S4x2048x4096 .f32) i = ((xr i : ℝ) : EReal))
    (hw : ∀ i, (m ((c.tc : Thread Cert.KernelIdeal.nD Cert.KernelIdeal.τ).loc Cert.KernelIdeal.main_arg1) : FVec Ideal Cert.KernelIdeal.S11008x4096 .f32) i = ((wr i : ℝ) : EReal))
    (hb : ∀ i, (m ((c.tc : Thread Cert.KernelIdeal.nD Cert.KernelIdeal.τ).loc Cert.KernelIdeal.main_arg2) : FVec Ideal Cert.KernelIdeal.S11008 .f32) i = ((br i : ℝ) : EReal))
    (b : Fin 4) (s : Fin 2048) (o : Fin 11008) :
    (shapeCast Cert.KernelIdeal.S4x2048x11008
        (Cert.KernelIdeal.Region.G (Cert.KernelIdeal.Gen.V m c Cert.KernelIdeal.main_v1)
          (Cert.KernelIdeal.Gen.V m c Cert.KernelIdeal.main_v125) (Cert.KernelIdeal.Gen.V m c Cert.KernelIdeal.main_v126))
        Cert.KernelIdeal.Gen.shapeCasts_S8192x11008_S4x2048x11008 (ix3 b s o) : EReal)
      = ((kerReal xr wr br b s o : ℝ) : EReal) := by
  have hb' := b.isLt
  have hs := s.isLt
  refine (shapeCast_apply _ _ (ix3 b s o) (ix2 (⟨b.val * 2048 + s.val, by omega⟩ : Fin 8192) o) (by
    rw [Shape.rowMajor_val_two, Shape.rowMajor_val_three]
    show (b.val * 2048 + s.val) * 11008 + o.val = (b.val * 2048 + s.val) * 11008 + o.val
    rfl)).trans ?_
  rw [Cert.KernelIdeal.Region.G_apply, Cert.KernelIdeal.HostPrefix.V_x, Cert.KernelIdeal.HostPrefix.V_w, Cert.KernelIdeal.HostPrefix.V_b]
  unfold kerReal
  rw [EReal.coe_add, coe_sum]
  refine congrArg₂ (· + ·) (Finset.sum_congr rfl fun k _ => ?_) ?_
  · have ex : (shapeCast Cert.KernelIdeal.S8192x4096
          (m ((c.tc : Thread Cert.KernelIdeal.nD Cert.KernelIdeal.τ).loc Cert.KernelIdeal.main_arg0) : FVec Ideal Cert.KernelIdeal.S4x2048x4096 .f32)
          Cert.KernelIdeal.Gen.shapeCasts_S4x2048x4096_S8192x4096 (ix2 (⟨b.val * 2048 + s.val, by omega⟩ : Fin 8192) k) : EReal)
        = ((xr (ix3 b s k) : ℝ) : EReal) :=
      (shapeCast_apply _ _ (ix2 (⟨b.val * 2048 + s.val, by omega⟩ : Fin 8192) k) (ix3 b s k) (by
        rw [Shape.rowMajor_val_three, Shape.rowMajor_val_two]
        show (b.val * 2048 + s.val) * 4096 + k.val = (b.val * 2048 + s.val) * 4096 + k.val
        rfl)).trans (hx _)
    rw [truncf_apply, ex, wrot_apply _ wr hw o k, ← EReal.coe_mul]
  · exact (shapeCast_apply _ _ (ix2 (0 : Fin 1) o) (ix1 o) (by
      rw [Shape.rowMajor_val_one, Shape.rowMajor_val_two]
      show o.val = 0 * 11008 + o.val
      omega)).trans (hb _)

end Cert.Bridge

end
-- ==== Proof.Finite.lean ====
/-
  From the precondition to real-valued inputs.

  The precondition says that one check of the three argument arrays came out true: for each array, "the absolute value
  of every entry is below +∞", reduced over the whole array by "and", and the three verdicts joined by "and". A
  conjunction is true only if each part is, and an extended real whose absolute value is below +∞ is a real number.
  Hence each argument array is, entry by entry, the image of an array of real numbers.
-/
import proofs.«169559_j2336462209049_1_alg».proof.Defs
import proofs.«169559_j2336462209049_1_alg».proof.Proof.Gen.Pre_finite_inputs
import proofs.«169559_j2336462209049_1_alg».proof.Proof.Gen.KernelIdeal
import proofs.«169559_j2336462209049_1_alg».proof.Proof.LibFinite

noncomputable section

namespace Cert.Finite

open Idealize.ShloMosaic Idealize.ShloMosaic.ValueIdx Cert.LibFinite

/-- Under the precondition every entry of the three argument arrays is a real number. -/
theorem reals_of_pre
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ (xr : Cert.KernelIdeal.S4x2048x4096.Idx → ℝ) (wr : Cert.KernelIdeal.S11008x4096.Idx → ℝ)
      (br : Cert.KernelIdeal.S11008.Idx → ℝ),
      (∀ i, (m ((c.tc : Thread Cert.KernelIdeal.nD Cert.KernelIdeal.τ).loc Cert.KernelIdeal.main_arg0) :
          FVec Ideal Cert.KernelIdeal.S4x2048x4096 .f32) i = ((xr i : ℝ) : EReal))
      ∧ (∀ i, (m ((c.tc : Thread Cert.KernelIdeal.nD Cert.KernelIdeal.τ).loc Cert.KernelIdeal.main_arg1) :
          FVec Ideal Cert.KernelIdeal.S11008x4096 .f32) i = ((wr i : ℝ) : EReal))
      ∧ (∀ i, (m ((c.tc : Thread Cert.KernelIdeal.nD Cert.KernelIdeal.τ).loc Cert.KernelIdeal.main_arg2) :
          FVec Ideal Cert.KernelIdeal.S11008 .f32) i = ((br i : ℝ) : EReal)) := by
  -- the check's single verdict, read at its one index
  have h := congrFun (hpre c) ValueIdx.ix0
  dsimp only [Cert.Pre_finite_inputs.fn] at h
  -- a conjunction of three: each part is true
  obtain ⟨h01, h2⟩ := IntOp.andi_eq_one.1 h
  obtain ⟨h0, h1⟩ := IntOp.andi_eq_one.1 h01
  -- each part says its array is real, entry by entry
  have H0 : ∀ i : Cert.KernelIdeal.S4x2048x4096.Idx, ∃ r : ℝ,
      (m ((c.tc : Thread Cert.KernelIdeal.nD Cert.KernelIdeal.τ).loc Cert.KernelIdeal.main_arg0) :
        FVec Ideal Cert.KernelIdeal.S4x2048x4096 .f32) i = (r : EReal) :=
    fun i => isReal_of_check _ _ _ _ _ h0 i
  have H1 : ∀ i : Cert.KernelIdeal.S11008x4096.Idx, ∃ r : ℝ,
      (m ((c.tc : Thread Cert.KernelIdeal.nD Cert.KernelIdeal.τ).loc Cert.KernelIdeal.main_arg1) :
        FVec Ideal Cert.KernelIdeal.S11008x4096 .f32) i = (r : EReal) :=
    fun i => isReal_of_check _ _ _ _ _ h1 i
  have H2 : ∀ i : Cert.KernelIdeal.S11008.Idx, ∃ r : ℝ,
      (m ((c.tc : Thread Cert.KernelIdeal.nD Cert.KernelIdeal.τ).loc Cert.KernelIdeal.main_arg2) :
        FVec Ideal Cert.KernelIdeal.S11008 .f32) i = (r : EReal) :=
    fun i => isReal_of_check _ _ _ _ _ h2 i
  choose xr hx using H0
  choose wr hw using H1
  choose br hb using H2
  exact ⟨xr, wr, br, hx, hw, hb⟩

end Cert.Finite

end
-- ==== Proof.lean ====
/- The two programs compute one array.

   The kernel rotates the weight matrix by a Walsh–Hadamard transform of length 4096 (twelve butterfly stages, scaled
   by 2⁻⁶), rounds, and multiplies the activations by it, adding the bias; the reference rotates the activations instead
   and multiplies by the weight. On the extended reals roundings are the identity, and with finite inputs every value is a
   real number, so entry (b, s, o) of either result is a double sum over the sign matrix of the transform; the sign
   matrix is symmetric, so exchanging the two summations turns one into the other. The three programs run without
   fault and leave their arguments as they were; the idealized kernel is the kernel's own text read on the extended
   reals (no rewrite was applied). -/
import proofs.«169559_j2336462209049_1_alg».proof.Defs
import proofs.«169559_j2336462209049_1_alg».proof.Proof.Gen.Kernel
import proofs.«169559_j2336462209049_1_alg».proof.Proof.Gen.Kernel.Skeleton
import proofs.«169559_j2336462209049_1_alg».proof.Proof.Gen.Kernel.Launch
import proofs.«169559_j2336462209049_1_alg».proof.Proof.Gen.Kernel.Points
import proofs.«169559_j2336462209049_1_alg».proof.Proof.Gen.Kernel.Frame
import proofs.«169559_j2336462209049_1_alg».proof.Proof.Gen.KernelIdeal
import proofs.«169559_j2336462209049_1_alg».proof.Proof.Gen.KernelIdeal.Skeleton
import proofs.«169559_j2336462209049_1_alg».proof.Proof.Gen.KernelIdeal.Launch
import proofs.«169559_j2336462209049_1_alg».proof.Proof.Gen.KernelIdeal.Points
import proofs.«169559_j2336462209049_1_alg».proof.Proof.Gen.KernelIdeal.Frame
import proofs.«169559_j2336462209049_1_alg».proof.Proof.Gen.ReferenceIdeal
import proofs.«169559_j2336462209049_1_alg».proof.Proof.Gen.Pre_finite_inputs
import proofs.«169559_j2336462209049_1_alg».proof.Proof.Bridge
import proofs.«169559_j2336462209049_1_alg».proof.Proof.Finite
import proofs.«169559_j2336462209049_1_alg».proof.Proof.KernelRegion
import Idealize.ShloMosaic.Adequacy
import Idealize.ShloMosaic.Init

noncomputable section

namespace Cert.Proof

open Idealize.ShloMosaic Idealize.SL.Sem Idealize.ShloMosaic.ValueIdx Idealize.ShloMosaic.StableHlo

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- Both idealized programs end with the same array: entry by entry the reference's double sum is the kernel's. -/
theorem algebraic : Cert.algebraic_KernelIdeal_ReferenceIdeal := by
  intro m ρ m' ρ' hpre hagree
  refine ⟨fun c => shapeCast Cert.KernelIdeal.S4x2048x11008
      (Cert.KernelIdeal.Region.G (Cert.KernelIdeal.Gen.V m c Cert.KernelIdeal.main_v1)
        (Cert.KernelIdeal.Gen.V m c Cert.KernelIdeal.main_v125) (Cert.KernelIdeal.Gen.V m c Cert.KernelIdeal.main_v126))
      Cert.KernelIdeal.Gen.shapeCasts_S8192x11008_S4x2048x11008,
    Cert.KernelIdeal.Region.run m ρ, ?_⟩
  refine (θ_run Cert.ReferenceIdeal.defs _ _).mono (fun _ h c => ⟨(h c).1.trans ?_, (h c).2⟩)
    (Cert.ReferenceIdeal.RefRun.run m' ρ')
  obtain ⟨xr, wr, br, hx, hw, hb⟩ := Cert.Finite.reals_of_pre m hpre c
  funext i
  obtain ⟨b, s, o, rfl⟩ : ∃ (b : Fin 4) (s : Fin 2048) (o : Fin 11008), i = ix3 b s o := ⟨i 0, i 1, i 2, eq_ix3 i⟩
  rw [(hagree c).1, (hagree c).2.1, (hagree c).2.2, Cert.Bridge.ref_entry _ _ _ xr wr br hx hw hb b s o, Cert.Bridge.refReal_eq_kerReal]
  exact (Cert.Bridge.ker_entry m c xr wr br hx hw hb b s o).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
